-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v77)) (v1 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_v175) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S200000x128 : Shape := ⟨2, ![200000, 128]⟩
abbrev S128x128 : Shape := ⟨2, ![128, 128]⟩
abbrev S128 : Shape := ⟨1, ![128]⟩
abbrev S600000 : Shape := ⟨1, ![600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S128x128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S50000x128 .f32) (main_arg1 : FVec F S200000x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : IVec S600000 32) (main_arg11 : IVec S600000 32) (main_arg12 : IVec S600000 32) (main_arg13 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S50000x128 : Shape := ⟨2, ![50000, 128]⟩
abbrev S200000x128 : Shape := ⟨2, ![200000, 128]⟩
abbrev S128x128 : Shape := ⟨2, ![128, 128]⟩
abbrev S128 : Shape := ⟨1, ![128]⟩
abbrev S600000 : Shape := ⟨1, ![600000]⟩
abbrev S_ : Shape := ⟨0, ![]⟩
abbrev S50000 : Shape := ⟨1, ![50000]⟩
abbrev S600000x1 : Shape := ⟨2, ![600000, 1]⟩
abbrev S200000 : Shape := ⟨1, ![200000]⟩
abbrev S50000x1 : Shape := ⟨2, ![50000, 1]⟩
abbrev S5000x128 : Shape := ⟨2, ![5000, 128]⟩
abbrev S5000x1 : Shape := ⟨2, ![5000, 1]⟩
abbrev S600000x128 : Shape := ⟨2, ![600000, 128]⟩
abbrev S200000x1 : Shape := ⟨2, ![200000, 1]⟩
abbrev S1x128 : Shape := ⟨2, ![1, 128]⟩

abbrev nBuf : Space → Nat
  | .hbm => 122
  | .vmem => 56
  | .smem => 0
  | _ => 0

abbrev bufTy : (tb : Table) → Fin (tcTables nBuf tb) → BufTy
  | .hbm, ⟨0, _⟩ => ⟨S50000x128, .f32⟩
  | .hbm, ⟨1, _⟩ => ⟨S200000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000, .i32⟩
  | .hbm, ⟨14, _⟩ => ⟨S_, .f32⟩
  | .hbm, ⟨15, _⟩ => ⟨S600000, .f32⟩
  | .hbm, ⟨16, _⟩ => ⟨S_, .f32⟩
  | .hbm, ⟨17, _⟩ => ⟨S50000, .f32⟩
  | .hbm, ⟨18, _⟩ => ⟨S600000x1, .i32⟩
  | .hbm, ⟨19, _⟩ => ⟨S50000, .f32⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S200000, .f32⟩
  | .hbm, ⟨26, _⟩ => ⟨S600000x1, .i32⟩
  | .hbm, ⟨27, _⟩ => ⟨S200000, .f32⟩
  | .hbm, ⟨28, _⟩ => ⟨S_, .f32⟩
  | .hbm, ⟨29, _⟩ => ⟨S_, .f32⟩
  | .hbm, ⟨30, _⟩ => ⟨S200000, .f32⟩
  | .hbm, ⟨31, _⟩ => ⟨S200000, .f32⟩
  | .hbm, ⟨32, _⟩ => ⟨S50000, .f32⟩
  | .hbm, ⟨33, _⟩ => ⟨S200000, .f32⟩
  | .hbm, ⟨34, _⟩ => ⟨S_, .f32⟩
  | .hbm, ⟨35, _⟩ => ⟨S600000, .f32⟩
  | .hbm, ⟨36, _⟩ => ⟨S_, .f32⟩
  | .hbm, ⟨37, _⟩ => ⟨S200000, .f32⟩
  | .hbm, ⟨38, _⟩ => ⟨S600000x1, .i32⟩
  | .hbm, ⟨39, _⟩ => ⟨S200000, .f32⟩
  | .hbm, ⟨40, _⟩ => ⟨S_, .f32⟩
  | .hbm, ⟨41, _⟩ => ⟨S_, .f32⟩
  | .hbm, ⟨42, _⟩ => ⟨S200000, .f32⟩
  | .hbm, ⟨43, _⟩ => ⟨S200000, .f32⟩
  | .hbm, ⟨44, _⟩ => ⟨S_, .f32⟩
  | .hbm, ⟨45, _⟩ => ⟨S50000, .f32⟩
  | .hbm, ⟨46, _⟩ => ⟨S600000x1, .i32⟩
  | .hbm, ⟨47, _⟩ => ⟨S50000, .f32⟩
  | .hbm, ⟨48, _⟩ => ⟨S_, .f32⟩
  | .hbm, ⟨49, _⟩ => ⟨S_, .f32⟩
  | .hbm, ⟨50, _⟩ => ⟨S50000, .f32⟩
  | .hbm, ⟨51, _⟩ => ⟨S50000, .f32⟩
  | .hbm, ⟨52, _⟩ => ⟨S200000, .f32⟩
  | .hbm, ⟨53, _⟩ => ⟨S50000, .f32⟩
  | .hbm, ⟨54, _⟩ => ⟨S50000x1, .f32⟩
  | .hbm, ⟨55, _⟩ => ⟨S50000x128, .f32⟩
  | .hbm, ⟨56, _⟩ => ⟨S_, .i32⟩
  | .hbm, ⟨57, _⟩ => ⟨S600000, .i32⟩
  | .hbm, ⟨58, _⟩ => ⟨S600000, .i1⟩
  | .hbm, ⟨59, _⟩ => ⟨S_, .i32⟩
  | .hbm, ⟨60, _⟩ => ⟨S600000, .i32⟩
  | .hbm, ⟨61, _⟩ => ⟨S600000, .i32⟩
  | .hbm, ⟨62, _⟩ => ⟨S600000, .i32⟩
  | .hbm, ⟨63, _⟩ => ⟨S600000x1, .i32⟩
  | .hbm, ⟨64, _⟩ => ⟨S600000x128, .f32⟩
  | .hbm, ⟨65, _⟩ => ⟨S_, .f32⟩
  | .hbm, ⟨66, _⟩ => ⟨S200000x128, .f32⟩
  | .hbm, ⟨67, _⟩ => ⟨S600000x1, .i32⟩
  | .hbm, ⟨68, _⟩ => ⟨S200000x128, .f32⟩
  | .hbm, ⟨69, _⟩ => ⟨S200000x1, .f32⟩
  | .hbm, ⟨70, _⟩ => ⟨S200000x128, .f32⟩
  | .hbm, ⟨71, _⟩ => ⟨S200000x1, .f32⟩
  | .hbm, ⟨72, _⟩ => ⟨S200000x128, .f32⟩
  | .hbm, ⟨73, _⟩ => ⟨S_, .i32⟩
  | .hbm, ⟨74, _⟩ => ⟨S600000, .i32⟩
  | .hbm, ⟨75, _⟩ => ⟨S600000, .i1⟩
  | .hbm, ⟨76, _⟩ => ⟨S_, .i32⟩
  | .hbm, ⟨77, _⟩ => ⟨S600000, .i32⟩
  | .hbm, ⟨78, _⟩ => ⟨S600000, .i32⟩
  | .hbm, ⟨79, _⟩ => ⟨S600000, .i32⟩
  | .hbm, ⟨80, _⟩ => ⟨S600000x1, .i32⟩
  | .hbm, ⟨81, _⟩ => ⟨S600000x128, .f32⟩
  | .hbm, ⟨82, _⟩ => ⟨S_, .f32⟩
  | .hbm, ⟨83, _⟩ => ⟨S50000x128, .f32⟩
  | .hbm, ⟨84, _⟩ => ⟨S600000x1, .i32⟩
  | .hbm, ⟨85, _⟩ => ⟨S50000x128, .f32⟩
  | .hbm, ⟨86, _⟩ => ⟨S50000x1, .f32⟩
  | .hbm, ⟨87, _⟩ => ⟨S50000x128, .f32⟩
  | .hbm, ⟨88, _⟩ => ⟨S50000x1, .f32⟩
  | .hbm, ⟨89, _⟩ => ⟨S50000x128, .f32⟩
  | .hbm, ⟨90, _⟩ => ⟨S_, .i32⟩
  | .hbm, ⟨91, _⟩ => ⟨S600000, .i32⟩
  | .hbm, ⟨92, _⟩ => ⟨S600000, .i1⟩
  | .hbm, ⟨93, _⟩ => ⟨S_, .i32⟩
  | .hbm, ⟨94, _⟩ => ⟨S600000, .i32⟩
  | .hbm, ⟨95, _⟩ => ⟨S600000, .i32⟩
  | .hbm, ⟨96, _⟩ => ⟨S600000, .i32⟩
  | .hbm, ⟨97, _⟩ => ⟨S600000x1, .i32⟩
  | .hbm, ⟨98, _⟩ => ⟨S600000x128, .f32⟩
  | .hbm, ⟨99, _⟩ => ⟨S_, .f32⟩
  | .hbm, ⟨100, _⟩ => ⟨S200000x128, .f32⟩
  | .hbm, ⟨101, _⟩ => ⟨S600000x1, .i32⟩
  | .hbm, ⟨102, _⟩ => ⟨S200000x128, .f32⟩
  | .hbm, ⟨103, _⟩ => ⟨S200000x1, .f32⟩
  | .hbm, ⟨104, _⟩ => ⟨S200000x128, .f32⟩
  | .hbm, ⟨105, _⟩ => ⟨S200000x1, .f32⟩
  | .hbm, ⟨106, _⟩ => ⟨S200000x128, .f32⟩
  | .hbm, ⟨107, _⟩ => ⟨S_, .i32⟩
  | .hbm, ⟨108, _⟩ => ⟨S600000, .i32⟩
  | .hbm, ⟨109, _⟩ => ⟨S600000, .i1⟩
  | .hbm, ⟨110, _⟩ => ⟨S_, .i32⟩
  | .hbm, ⟨111, _⟩ => ⟨S600000, .i32⟩
  | .hbm, ⟨112, _⟩ => ⟨S600000, .i32⟩
  | .hbm, ⟨113, _⟩ => ⟨S600000, .i32⟩
  | .hbm, ⟨114, _⟩ => ⟨S600000x1, .i32⟩
  | .hbm, ⟨115, _⟩ => ⟨S600000x128, .f32⟩
  | .hbm, ⟨116, _⟩ => ⟨S_, .f32⟩
  | .hbm, ⟨117, _⟩ => ⟨S50000x128, .f32⟩
  | .hbm, ⟨118, _⟩ => ⟨S600000x1, .i32⟩
  | .hbm, ⟨119, _⟩ => ⟨S50000x128, .f32⟩
  | .hbm, ⟨120, _⟩ => ⟨S50000x1, .f32⟩
  | .hbm, ⟨121, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128, .f32⟩
  | .local _ .vmem, ⟨10, _⟩ => ⟨S5000x1, .f32⟩
  | .local _ .vmem, ⟨11, _⟩ => ⟨S5000x1, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x1, .f32⟩
  | .local _ .vmem, ⟨18, _⟩ => ⟨S5000x1, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128, .f32⟩
  | .local _ .vmem, ⟨24, _⟩ => ⟨S5000x1, .f32⟩
  | .local _ .vmem, ⟨25, _⟩ => ⟨S5000x1, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x1, .f32⟩
  | .local _ .vmem, ⟨32, _⟩ => ⟨S5000x1, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S128, .f32⟩
  | .local _ .vmem, ⟨38, _⟩ => ⟨S5000x1, .f32⟩
  | .local _ .vmem, ⟨39, _⟩ => ⟨S5000x1, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S5000x1, .f32⟩
  | .local _ .vmem, ⟨46, _⟩ => ⟨S5000x1, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S128, .f32⟩
  | .local _ .vmem, ⟨52, _⟩ => ⟨S5000x1, .f32⟩
  | .local _ .vmem, ⟨53, _⟩ => ⟨S5000x1, .f32⟩
  | .local _ .vmem, ⟨54, _⟩ => ⟨S5000x128, .f32⟩
  | .local _ .vmem, ⟨55, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_4 : Ref sig .tc := ⟨.hbm, 34, rfl⟩
abbrev main_v11 : Ref sig .tc := ⟨.hbm, 35, rfl⟩
abbrev main_cst_5 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_6 : Ref sig .tc := ⟨.hbm, 40, rfl⟩
abbrev main_call2_v0 : Ref sig .tc := ⟨.hbm, 41, rfl⟩
abbrev main_call2_v1 : Ref sig .tc := ⟨.hbm, 42, rfl⟩
abbrev main_v15 : Ref sig .tc := ⟨.hbm, 43, rfl⟩
abbrev main_cst_7 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_cst_8 : Ref sig .tc := ⟨.hbm, 48, rfl⟩
abbrev main_call3_v0 : Ref sig .tc := ⟨.hbm, 49, rfl⟩
abbrev main_call3_v1 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_c : Ref sig .tc := ⟨.hbm, 56, rfl⟩
abbrev main_v24 : Ref sig .tc := ⟨.hbm, 57, rfl⟩
abbrev main_v25 : Ref sig .tc := ⟨.hbm, 58, rfl⟩
abbrev main_c_9 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_10 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_c_11 : Ref sig .tc := ⟨.hbm, 73, rfl⟩
abbrev main_v38 : Ref sig .tc := ⟨.hbm, 74, rfl⟩
abbrev main_v39 : Ref sig .tc := ⟨.hbm, 75, rfl⟩
abbrev main_c_12 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_13 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_c_14 : Ref sig .tc := ⟨.hbm, 90, rfl⟩
abbrev main_v52 : Ref sig .tc := ⟨.hbm, 91, rfl⟩
abbrev main_v53 : Ref sig .tc := ⟨.hbm, 92, rfl⟩
abbrev main_c_15 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_16 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_c_17 : Ref sig .tc := ⟨.hbm, 107, rfl⟩
abbrev main_v66 : Ref sig .tc := ⟨.hbm, 108, rfl⟩
abbrev main_v67 : Ref sig .tc := ⟨.hbm, 109, rfl⟩
abbrev main_c_18 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst_19 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg2_1 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc6_stg3_0 : Ref sig .tc := ⟨.vmem, 47, rfl⟩
abbrev cc6_stg3_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg2_0 : Ref sig .tc := ⟨.vmem, 52, rfl⟩
abbrev cc7_stg2_1 : Ref sig .tc := ⟨.vmem, 53, rfl⟩
abbrev cc7_stg3_0 : Ref sig .tc := ⟨.vmem, 54, rfl⟩
abbrev cc7_stg3_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem2_1 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc6_sem3_0 : DmaSem sig := 47
abbrev cc6_sem3_1 : DmaSem sig := 48
abbrev cc7_sem0_0 : DmaSem sig := 49
abbrev cc7_sem0_1 : DmaSem sig := 50
abbrev cc7_sem1_0 : DmaSem sig := 51
abbrev cc7_sem2_0 : DmaSem sig := 52
abbrev cc7_sem2_1 : DmaSem sig := 53
abbrev cc7_sem3_0 : DmaSem sig := 54
abbrev cc7_sem3_1 : DmaSem sig := 55

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![40], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![40], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S_S200000 : S_.BroadcastsInDim S200000 (![] : Fin 0 → Fin S200000.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S200000x128 : S_.BroadcastsInDim S200000x128 (![] : Fin 0 → Fin S200000x128.rank)
  shapeCasts_S200000_S200000x1 : S200000.ShapeCasts S200000x1
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S50000x128 : S_.BroadcastsInDim S50000x128 (![] : Fin 0 → Fin S50000x128.rank)
  scatter_S50000_S600000x1_S600000_n_0_0_1_wf : ScatterDims.WF S50000 S600000x1 S600000 [] [0] [0] 1
  scatter_S200000_S600000x1_S600000_n_0_0_1_wf : ScatterDims.WF S200000 S600000x1 S600000 [] [0] [0] 1
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S200000x128_S600000x1_S600000x128_1_0_0_1_wf : ScatterDims.WF S200000x128 S600000x1 S600000x128 [1] [0] [0] 1
  gather_S200000x128_S600000x1_S600000x128_1_0_n_n_0_1_1128_wf : GatherDims.WF S200000x128 S600000x1 S600000x128 [1] [0] [] [0] [] 1 ![1, 128]
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S200000x128.size a
  hwx1_0 : ∀ i : grid1.Coords, EltTy.bits .f32 = 32 ∨ (Rect.block (s := S200000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S200000x1.size a
  hwx1_2 : ∀ i : grid1.Coords, EltTy.bits .f32 = 32 ∨ (Rect.block (s := S200000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S200000x128.size a
  hwx1_3 : ∀ i : grid1.Coords, EltTy.bits .f32 = 32 ∨ (Rect.block (s := S200000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S200000x128.size a
  hwx2_0 : ∀ i : grid2.Coords, EltTy.bits .f32 = 32 ∨ (Rect.block (s := S200000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S200000x1.size a
  hwx2_2 : ∀ i : grid2.Coords, EltTy.bits .f32 = 32 ∨ (Rect.block (s := S200000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S200000x128.size a
  hwx2_3 : ∀ i : grid2.Coords, EltTy.bits .f32 = 32 ∨ (Rect.block (s := S200000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S200000x128.size a
  hwx5_0 : ∀ i : grid5.Coords, EltTy.bits .f32 = 32 ∨ (Rect.block (s := S200000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128.size a ≤ S128.size a
  hwx5_1 : ∀ i : grid5.Coords, EltTy.bits .f32 = 32 ∨ (Rect.block (s := S128) S128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S200000x1.size a
  hwx5_2 : ∀ i : grid5.Coords, EltTy.bits .f32 = 32 ∨ (Rect.block (s := S200000x1) S5000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S200000x128.size a
  hwx5_3 : ∀ i : grid5.Coords, EltTy.bits .f32 = 32 ∨ (Rect.block (s := S200000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S200000x128.size a
  hwx6_0 : ∀ i : grid6.Coords, EltTy.bits .f32 = 32 ∨ (Rect.block (s := S200000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S200000x1.size a
  hwx6_2 : ∀ i : grid6.Coords, EltTy.bits .f32 = 32 ∨ (Rect.block (s := S200000x1) S5000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S200000x128.size a
  hwx6_3 : ∀ i : grid6.Coords, EltTy.bits .f32 = 32 ∨ (Rect.block (s := S200000x128) S5000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128.size a ≤ S128.size a
  hwx7_1 : ∀ i : grid7.Coords, EltTy.bits .f32 = 32 ∨ (Rect.block (s := S128) S128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S50000x1.size a
  hwx7_2 : ∀ i : grid7.Coords, EltTy.bits .f32 = 32 ∨ (Rect.block (s := S50000x1) S5000x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S50000x128.size a
  hwx7_3 : ∀ i : grid7.Coords, EltTy.bits .f32 = 32 ∨ (Rect.block (s := S50000x128) S5000x128.size (cc7_transform_3 i) (hinb7_3 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v37) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v47) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v49) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v49) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v50) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v51) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v61) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v62) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v63) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v35) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v64) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v65) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v75) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg9) S128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v76) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v77) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x128 : Shape := ⟨2, ![50000, 128]⟩
abbrev S200000x128 : Shape := ⟨2, ![200000, 128]⟩
abbrev S128x128 : Shape := ⟨2, ![128, 128]⟩
abbrev S128 : Shape := ⟨1, ![128]⟩
abbrev S600000 : Shape := ⟨1, ![600000]⟩
abbrev S_ : Shape := ⟨0, ![]⟩
abbrev S50000 : Shape := ⟨1, ![50000]⟩
abbrev S600000x1 : Shape := ⟨2, ![600000, 1]⟩
abbrev S200000 : Shape := ⟨1, ![200000]⟩
abbrev S600000x128 : Shape := ⟨2, ![600000, 128]⟩
abbrev S1x128 : Shape := ⟨2, ![1, 128]⟩

abbrev nBuf : Space → Nat
  | .hbm => 262
  | .vmem => 0
  | .smem => 0
  | _ => 0

abbrev hbmTy0_0 (i : Nat) : BufTy := match i % 128 with
  | 0 => ⟨S50000x128, .f32⟩
  | 1 => ⟨S200000x128, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S600000, .i32⟩
  | 11 => ⟨S600000, .i32⟩
  | 12 => ⟨S600000, .i32⟩
  | 13 => ⟨S600000, .i32⟩
  | 14 => ⟨S_, .f32⟩
  | 15 => ⟨S600000, .f32⟩
  | 16 => ⟨S_, .f32⟩
  | 17 => ⟨S50000, .f32⟩
  | 18 => ⟨S600000x1, .i32⟩
  | 19 => ⟨S50000, .f32⟩
  | 20 => ⟨S_, .f32⟩
  | 21 => ⟨S_, .f32⟩
  | 22 => ⟨S50000, .f32⟩
  | 23 => ⟨S50000, .f32⟩
  | 24 => ⟨S_, .f32⟩
  | 25 => ⟨S200000, .f32⟩
  | 26 => ⟨S600000x1, .i32⟩
  | 27 => ⟨S200000, .f32⟩
  | 28 => ⟨S_, .f32⟩
  | 29 => ⟨S_, .f32⟩
  | 30 => ⟨S200000, .f32⟩
  | 31 => ⟨S200000, .f32⟩
  | 32 => ⟨S50000, .f32⟩
  | 33 => ⟨S_, .i32⟩
  | 34 => ⟨S600000, .i32⟩
  | 35 => ⟨S600000, .i1⟩
  | 36 => ⟨S_, .i32⟩
  | 37 => ⟨S600000, .i32⟩
  | 38 => ⟨S600000, .i32⟩
  | 39 => ⟨S600000, .i32⟩
  | 40 => ⟨S600000x1, .i32⟩
  | 41 => ⟨S600000, .f32⟩
  | 42 => ⟨S200000, .f32⟩
  | 43 => ⟨S_, .i32⟩
  | 44 => ⟨S600000, .i32⟩
  | 45 => ⟨S600000, .i1⟩
  | 46 => ⟨S_, .i32⟩
  | 47 => ⟨S600000, .i32⟩
  | 48 => ⟨S600000, .i32⟩
  | 49 => ⟨S600000, .i32⟩
  | 50 => ⟨S600000x1, .i32⟩
  | 51 => ⟨S600000, .f32⟩
  | 52 => ⟨S600000, .f32⟩
  | 53 => ⟨S50000x128, .f32⟩
  | 54 => ⟨S_, .i32⟩
  | 55 => ⟨S600000, .i32⟩
  | 56 => ⟨S600000, .i1⟩
  | 57 => ⟨S_, .i32⟩
  | 58 => ⟨S600000, .i32⟩
  | 59 => ⟨S600000, .i32⟩
  | 60 => ⟨S600000, .i32⟩
  | 61 => ⟨S600000x1, .i32⟩
  | 62 => ⟨S600000x128, .f32⟩
  | 63 => ⟨S600000x1, .f32⟩
  | 64 => ⟨S600000x128, .f32⟩
  | 65 => ⟨S600000x128, .f32⟩
  | 66 => ⟨S_, .f32⟩
  | 67 => ⟨S200000x128, .f32⟩
  | 68 => ⟨S600000x1, .i32⟩
  | 69 => ⟨S200000x128, .f32⟩
  | 70 => ⟨S1x128, .f32⟩
  | 71 => ⟨S200000x128, .f32⟩
  | 72 => ⟨S200000x128, .f32⟩
  | 73 => ⟨S_, .f32⟩
  | 74 => ⟨S600000, .f32⟩
  | 75 => ⟨S_, .f32⟩
  | 76 => ⟨S200000, .f32⟩
  | 77 => ⟨S600000x1, .i32⟩
  | 78 => ⟨S200000, .f32⟩
  | 79 => ⟨S_, .f32⟩
  | 80 => ⟨S_, .f32⟩
  | 81 => ⟨S200000, .f32⟩
  | 82 => ⟨S200000, .f32⟩
  | 83 => ⟨S_, .f32⟩
  | 84 => ⟨S50000, .f32⟩
  | 85 => ⟨S600000x1, .i32⟩
  | 86 => ⟨S50000, .f32⟩
  | 87 => ⟨S_, .f32⟩
  | 88 => ⟨S_, .f32⟩
  | 89 => ⟨S50000, .f32⟩
  | 90 => ⟨S50000, .f32⟩
  | 91 => ⟨S200000, .f32⟩
  | 92 => ⟨S_, .i32⟩
  | 93 => ⟨S600000, .i32⟩
  | 94 => ⟨S600000, .i1⟩
  | 95 => ⟨S_, .i32⟩
  | 96 => ⟨S600000, .i32⟩
  | 97 => ⟨S600000, .i32⟩
  | 98 => ⟨S600000, .i32⟩
  | 99 => ⟨S600000x1, .i32⟩
  | 100 => ⟨S600000, .f32⟩
  | 101 => ⟨S50000, .f32⟩
  | 102 => ⟨S_, .i32⟩
  | 103 => ⟨S600000, .i32⟩
  | 104 => ⟨S600000, .i1⟩
  | 105 => ⟨S_, .i32⟩
  | 106 => ⟨S600000, .i32⟩
  | 107 => ⟨S600000, .i32⟩
  | 108 => ⟨S600000, .i32⟩
  | 109 => ⟨S600000x1, .i32⟩
  | 110 => ⟨S600000, .f32⟩
  | 111 => ⟨S600000, .f32⟩
  | 112 => ⟨S200000x128, .f32⟩
  | 113 => ⟨S_, .i32⟩
  | 114 => ⟨S600000, .i32⟩
  | 115 => ⟨S600000, .i1⟩
  | 116 => ⟨S_, .i32⟩
  | 117 => ⟨S600000, .i32⟩
  | 118 => ⟨S600000, .i32⟩
  | 119 => ⟨S600000, .i32⟩
  | 120 => ⟨S600000x1, .i32⟩
  | 121 => ⟨S600000x128, .f32⟩
  | 122 => ⟨S600000x1, .f32⟩
  | 123 => ⟨S600000x128, .f32⟩
  | 124 => ⟨S600000x128, .f32⟩
  | 125 => ⟨S_, .f32⟩
  | 126 => ⟨S50000x128, .f32⟩
  | 127 => ⟨S600000x1, .i32⟩
  | _ => ⟨S50000x128, .f32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S_, .f32⟩
  | 5 => ⟨S50000x128, .f32⟩
  | 6 => ⟨S50000x128, .f32⟩
  | 7 => ⟨S_, .f32⟩
  | 8 => ⟨S200000x128, .f32⟩
  | 9 => ⟨S200000x128, .f32⟩
  | 10 => ⟨S_, .f32⟩
  | 11 => ⟨S600000, .f32⟩
  | 12 => ⟨S_, .f32⟩
  | 13 => ⟨S50000, .f32⟩
  | 14 => ⟨S600000x1, .i32⟩
  | 15 => ⟨S50000, .f32⟩
  | 16 => ⟨S_, .f32⟩
  | 17 => ⟨S_, .f32⟩
  | 18 => ⟨S50000, .f32⟩
  | 19 => ⟨S50000, .f32⟩
  | 20 => ⟨S_, .f32⟩
  | 21 => ⟨S200000, .f32⟩
  | 22 => ⟨S600000x1, .i32⟩
  | 23 => ⟨S200000, .f32⟩
  | 24 => ⟨S_, .f32⟩
  | 25 => ⟨S_, .f32⟩
  | 26 => ⟨S200000, .f32⟩
  | 27 => ⟨S200000, .f32⟩
  | 28 => ⟨S50000, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000, .f32⟩
  | 38 => ⟨S200000, .f32⟩
  | 39 => ⟨S_, .i32⟩
  | 40 => ⟨S600000, .i32⟩
  | 41 => ⟨S600000, .i1⟩
  | 42 => ⟨S_, .i32⟩
  | 43 => ⟨S600000, .i32⟩
  | 44 => ⟨S600000, .i32⟩
  | 45 => ⟨S600000, .i32⟩
  | 46 => ⟨S600000x1, .i32⟩
  | 47 => ⟨S600000, .f32⟩
  | 48 => ⟨S600000, .f32⟩
  | 49 => ⟨S50000x128, .f32⟩
  | 50 => ⟨S_, .i32⟩
  | 51 => ⟨S600000, .i32⟩
  | 52 => ⟨S600000, .i1⟩
  | 53 => ⟨S_, .i32⟩
  | 54 => ⟨S600000, .i32⟩
  | 55 => ⟨S600000, .i32⟩
  | 56 => ⟨S600000, .i32⟩
  | 57 => ⟨S600000x1, .i32⟩
  | 58 => ⟨S600000x128, .f32⟩
  | 59 => ⟨S600000x1, .f32⟩
  | 60 => ⟨S600000x128, .f32⟩
  | 61 => ⟨S600000x128, .f32⟩
  | 62 => ⟨S_, .f32⟩
  | 63 => ⟨S200000x128, .f32⟩
  | 64 => ⟨S600000x1, .i32⟩
  | 65 => ⟨S200000x128, .f32⟩
  | 66 => ⟨S1x128, .f32⟩
  | 67 => ⟨S200000x128, .f32⟩
  | 68 => ⟨S200000x128, .f32⟩
  | 69 => ⟨S_, .f32⟩
  | 70 => ⟨S600000, .f32⟩
  | 71 => ⟨S_, .f32⟩
  | 72 => ⟨S200000, .f32⟩
  | 73 => ⟨S600000x1, .i32⟩
  | 74 => ⟨S200000, .f32⟩
  | 75 => ⟨S_, .f32⟩
  | 76 => ⟨S_, .f32⟩
  | 77 => ⟨S200000, .f32⟩
  | 78 => ⟨S200000, .f32⟩
  | 79 => ⟨S_, .f32⟩
  | 80 => ⟨S50000, .f32⟩
  | 81 => ⟨S600000x1, .i32⟩
  | 82 => ⟨S50000, .f32⟩
  | 83 => ⟨S_, .f32⟩
  | 84 => ⟨S_, .f32⟩
  | 85 => ⟨S50000, .f32⟩
  | 86 => ⟨S50000, .f32⟩
  | 87 => ⟨S200000, .f32⟩
  | 88 => ⟨S_, .i32⟩
  | 89 => ⟨S600000, .i32⟩
  | 90 => ⟨S600000, .i1⟩
  | 91 => ⟨S_, .i32⟩
  | 92 => ⟨S600000, .i32⟩
  | 93 => ⟨S600000, .i32⟩
  | 94 => ⟨S600000, .i32⟩
  | 95 => ⟨S600000x1, .i32⟩
  | 96 => ⟨S600000, .f32⟩
  | 97 => ⟨S50000, .f32⟩
  | 98 => ⟨S_, .i32⟩
  | 99 => ⟨S600000, .i32⟩
  | 100 => ⟨S600000, .i1⟩
  | 101 => ⟨S_, .i32⟩
  | 102 => ⟨S600000, .i32⟩
  | 103 => ⟨S600000, .i32⟩
  | 104 => ⟨S600000, .i32⟩
  | 105 => ⟨S600000x1, .i32⟩
  | 106 => ⟨S600000, .f32⟩
  | 107 => ⟨S600000, .f32⟩
  | 108 => ⟨S200000x128, .f32⟩
  | 109 => ⟨S_, .i32⟩
  | 110 => ⟨S600000, .i32⟩
  | 111 => ⟨S600000, .i1⟩
  | 112 => ⟨S_, .i32⟩
  | 113 => ⟨S600000, .i32⟩
  | 114 => ⟨S600000, .i32⟩
  | 115 => ⟨S600000, .i32⟩
  | 116 => ⟨S600000x1, .i32⟩
  | 117 => ⟨S600000x128, .f32⟩
  | 118 => ⟨S600000x1, .f32⟩
  | 119 => ⟨S600000x128, .f32⟩
  | 120 => ⟨S600000x128, .f32⟩
  | 121 => ⟨S_, .f32⟩
  | 122 => ⟨S50000x128, .f32⟩
  | 123 => ⟨S600000x1, .i32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_2 (i : Nat) : BufTy := match i % 128 with
  | 0 => ⟨S_, .f32⟩
  | 1 => ⟨S50000x128, .f32⟩
  | 2 => ⟨S50000x128, .f32⟩
  | 3 => ⟨S_, .f32⟩
  | 4 => ⟨S200000x128, .f32⟩
  | 5 => ⟨S200000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v8 : Ref sig .tc := ⟨.hbm, 31, rfl⟩
abbrev main_v9 : Ref sig .tc := ⟨.hbm, 32, rfl⟩
abbrev main_c : Ref sig .tc := ⟨.hbm, 33, rfl⟩
abbrev main_v10 : Ref sig .tc := ⟨.hbm, 34, rfl⟩
abbrev main_v11 : Ref sig .tc := ⟨.hbm, 35, rfl⟩
abbrev main_c_4 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c_5 : Ref sig .tc := ⟨.hbm, 43, rfl⟩
abbrev main_v18 : Ref sig .tc := ⟨.hbm, 44, rfl⟩
abbrev main_v19 : Ref sig .tc := ⟨.hbm, 45, rfl⟩
abbrev main_c_6 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c_7 : Ref sig .tc := ⟨.hbm, 54, rfl⟩
abbrev main_v27 : Ref sig .tc := ⟨.hbm, 55, rfl⟩
abbrev main_v28 : Ref sig .tc := ⟨.hbm, 56, rfl⟩
abbrev main_c_8 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_9 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_10 : Ref sig .tc := ⟨.hbm, 73, rfl⟩
abbrev main_v43 : Ref sig .tc := ⟨.hbm, 74, rfl⟩
abbrev main_cst_11 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_12 : Ref sig .tc := ⟨.hbm, 79, rfl⟩
abbrev main_call2_v0 : Ref sig .tc := ⟨.hbm, 80, rfl⟩
abbrev main_call2_v1 : Ref sig .tc := ⟨.hbm, 81, rfl⟩
abbrev main_v47 : Ref sig .tc := ⟨.hbm, 82, rfl⟩
abbrev main_cst_13 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_14 : Ref sig .tc := ⟨.hbm, 87, rfl⟩
abbrev main_call3_v0 : Ref sig .tc := ⟨.hbm, 88, rfl⟩
abbrev main_call3_v1 : Ref sig .tc := ⟨.hbm, 89, rfl⟩
abbrev main_v51 : Ref sig .tc := ⟨.hbm, 90, rfl⟩
abbrev main_v52 : Ref sig .tc := ⟨.hbm, 91, rfl⟩
abbrev main_c_15 : Ref sig .tc := ⟨.hbm, 92, rfl⟩
abbrev main_v53 : Ref sig .tc := ⟨.hbm, 93, rfl⟩
abbrev main_v54 : Ref sig .tc := ⟨.hbm, 94, rfl⟩
abbrev main_c_16 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_c_17 : Ref sig .tc := ⟨.hbm, 102, rfl⟩
abbrev main_v61 : Ref sig .tc := ⟨.hbm, 103, rfl⟩
abbrev main_v62 : Ref sig .tc := ⟨.hbm, 104, rfl⟩
abbrev main_c_18 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_c_19 : Ref sig .tc := ⟨.hbm, 113, rfl⟩
abbrev main_v70 : Ref sig .tc := ⟨.hbm, 114, rfl⟩
abbrev main_v71 : Ref sig .tc := ⟨.hbm, 115, rfl⟩
abbrev main_c_20 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_cst_21 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_call4_cst : Ref sig .tc := ⟨.hbm, 132, rfl⟩
abbrev main_call4_v0 : Ref sig .tc := ⟨.hbm, 133, rfl⟩
abbrev main_v86 : Ref sig .tc := ⟨.hbm, 134, rfl⟩
abbrev main_call5_cst : Ref sig .tc := ⟨.hbm, 135, rfl⟩
abbrev main_call5_v0 : Ref sig .tc := ⟨.hbm, 136, rfl⟩
abbrev main_v87 : Ref sig .tc := ⟨.hbm, 137, rfl⟩
abbrev main_cst_22 : Ref sig .tc := ⟨.hbm, 138, rfl⟩
abbrev main_v88 : Ref sig .tc := ⟨.hbm, 139, rfl⟩
abbrev main_cst_23 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_cst_24 : Ref sig .tc := ⟨.hbm, 144, rfl⟩
abbrev main_call6_v0 : Ref sig .tc := ⟨.hbm, 145, rfl⟩
abbrev main_call6_v1 : Ref sig .tc := ⟨.hbm, 146, rfl⟩
abbrev main_v92 : Ref sig .tc := ⟨.hbm, 147, rfl⟩
abbrev main_cst_25 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_cst_26 : Ref sig .tc := ⟨.hbm, 152, rfl⟩
abbrev main_call7_v0 : Ref sig .tc := ⟨.hbm, 153, rfl⟩
abbrev main_call7_v1 : Ref sig .tc := ⟨.hbm, 154, rfl⟩
abbrev main_v96 : Ref sig .tc := ⟨.hbm, 155, rfl⟩
abbrev main_v97 : Ref sig .tc := ⟨.hbm, 156, rfl⟩
abbrev main_c_27 : Ref sig .tc := ⟨.hbm, 157, rfl⟩
abbrev main_v98 : Ref sig .tc := ⟨.hbm, 158, rfl⟩
abbrev main_v99 : Ref sig .tc := ⟨.hbm, 159, rfl⟩
abbrev main_c_28 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_c_29 : Ref sig .tc := ⟨.hbm, 167, rfl⟩
abbrev main_v106 : Ref sig .tc := ⟨.hbm, 168, rfl⟩
abbrev main_v107 : Ref sig .tc := ⟨.hbm, 169, rfl⟩
abbrev main_c_30 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_c_31 : Ref sig .tc := ⟨.hbm, 178, rfl⟩
abbrev main_v115 : Ref sig .tc := ⟨.hbm, 179, rfl⟩
abbrev main_v116 : Ref sig .tc := ⟨.hbm, 180, rfl⟩
abbrev main_c_32 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_cst_33 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_cst_34 : Ref sig .tc := ⟨.hbm, 197, rfl⟩
abbrev main_v131 : Ref sig .tc := ⟨.hbm, 198, rfl⟩
abbrev main_cst_35 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_cst_36 : Ref sig .tc := ⟨.hbm, 203, rfl⟩
abbrev main_call8_v0 : Ref sig .tc := ⟨.hbm, 204, rfl⟩
abbrev main_call8_v1 : Ref sig .tc := ⟨.hbm, 205, rfl⟩
abbrev main_v135 : Ref sig .tc := ⟨.hbm, 206, rfl⟩
abbrev main_cst_37 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_cst_38 : Ref sig .tc := ⟨.hbm, 211, rfl⟩
abbrev main_call9_v0 : Ref sig .tc := ⟨.hbm, 212, rfl⟩
abbrev main_call9_v1 : Ref sig .tc := ⟨.hbm, 213, rfl⟩
abbrev main_v139 : Ref sig .tc := ⟨.hbm, 214, rfl⟩
abbrev main_v140 : Ref sig .tc := ⟨.hbm, 215, rfl⟩
abbrev main_c_39 : Ref sig .tc := ⟨.hbm, 216, rfl⟩
abbrev main_v141 : Ref sig .tc := ⟨.hbm, 217, rfl⟩
abbrev main_v142 : Ref sig .tc := ⟨.hbm, 218, rfl⟩
abbrev main_c_40 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_c_41 : Ref sig .tc := ⟨.hbm, 226, rfl⟩
abbrev main_v149 : Ref sig .tc := ⟨.hbm, 227, rfl⟩
abbrev main_v150 : Ref sig .tc := ⟨.hbm, 228, rfl⟩
abbrev main_c_42 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_c_43 : Ref sig .tc := ⟨.hbm, 237, rfl⟩
abbrev main_v158 : Ref sig .tc := ⟨.hbm, 238, rfl⟩
abbrev main_v159 : Ref sig .tc := ⟨.hbm, 239, rfl⟩
abbrev main_c_44 : Ref sig .tc := ⟨.hbm, 240, rfl⟩
abbrev main_v160 : Ref sig .tc := ⟨.hbm, 241, rfl⟩
abbrev main_v161 : Ref sig .tc := ⟨.hbm, 242, rfl⟩
abbrev main_v162 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩
abbrev main_v166 : Ref sig .tc := ⟨.hbm, 247, rfl⟩
abbrev main_v167 : Ref sig .tc := ⟨.hbm, 248, rfl⟩
abbrev main_cst_45 : Ref sig .tc := ⟨.hbm, 249, rfl⟩
abbrev main_v168 : Ref sig .tc := ⟨.hbm, 250, rfl⟩
abbrev main_v169 : Ref sig .tc := ⟨.hbm, 251, rfl⟩
abbrev main_v170 : Ref sig .tc := ⟨.hbm, 252, rfl⟩
abbrev main_v171 : Ref sig .tc := ⟨.hbm, 253, rfl⟩
abbrev main_v172 : Ref sig .tc := ⟨.hbm, 254, rfl⟩
abbrev main_v173 : Ref sig .tc := ⟨.hbm, 255, rfl⟩
abbrev main_call10_cst : Ref sig .tc := ⟨.hbm, 256, rfl⟩
abbrev main_call10_v0 : Ref sig .tc := ⟨.hbm, 257, rfl⟩
abbrev main_v174 : Ref sig .tc := ⟨.hbm, 258, rfl⟩
abbrev main_call11_cst : Ref sig .tc := ⟨.hbm, 259, rfl⟩
abbrev main_call11_v0 : Ref sig .tc := ⟨.hbm, 260, rfl⟩
abbrev main_v175 : Ref sig .tc := ⟨.hbm, 261, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S_S200000 : S_.BroadcastsInDim S200000 (![] : Fin 0 → Fin S200000.rank)
  bcast_S600000x1_S600000x128_0_1 : S600000x1.BroadcastsInDim S600000x128 (![0, 1] : Fin 2 → Fin S600000x128.rank)
  bcast_S_S200000x128 : S_.BroadcastsInDim S200000x128 (![] : Fin 0 → Fin S200000x128.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  scatter_S50000_S600000x1_S600000_n_0_0_1_wf : ScatterDims.WF S50000 S600000x1 S600000 [] [0] [0] 1
  scatter_S200000_S600000x1_S600000_n_0_0_1_wf : ScatterDims.WF S200000 S600000x1 S600000 [] [0] [0] 1
  gather_S50000_S600000x1_S600000_n_0_n_n_0_1_1_wf : GatherDims.WF S50000 S600000x1 S600000 [] [0] [] [0] [] 1 ![1]
  gather_S200000_S600000x1_S600000_n_0_n_n_0_1_1_wf : GatherDims.WF S200000 S600000x1 S600000 [] [0] [] [0] [] 1 ![1]
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S200000x128_S600000x1_S600000x128_1_0_0_1_wf : ScatterDims.WF S200000x128 S600000x1 S600000x128 [1] [0] [0] 1
  dot_S200000x128_S128x128_S200000x128_1_0_0_1_n_n_wf : DotDims.WF S200000x128 S128x128 S200000x128 [1] [0] [0] [1] [] []
  gather_S200000x128_S600000x1_S600000x128_1_0_n_n_0_1_1128_wf : GatherDims.WF S200000x128 S600000x1 S600000x128 [1] [0] [] [0] [] 1 ![1, 128]
  scatter_S50000x128_S600000x1_S600000x128_1_0_0_1_wf : ScatterDims.WF S50000x128 S600000x1 S600000x128 [1] [0] [0] 1

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S200000_S600000x1_S600000_n_0_n_n_0_1_1 : GatherDims S200000 S600000x1 S600000 where
  offsetDims := []
  collapsedSliceDims := [0]
  operandBatchingDims := []
  startIndicesBatchingDims := []
  startIndexMap := [0]
  indexVectorDim := 1
  sliceSizes := ![1]
  wf := gather_S200000_S600000x1_S600000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.KRun.lean ====
/-
  The kernel program's run, with its two result arrays named.

  @main is eight launches among stretches of host operations.  The contents of the TensorCore's buffers at each of the
  24 segment boundaries are a fold from the launch memory: a host stretch applies its operations, a launch leaves each
  of its arrays at what its write-backs leave and every other buffer as it was.  At the last boundary every buffer holds
  the fold's value there; this module states the run with that value for the two result buffers (the second layer's two
  outputs) beside the unchanged argument arrays.
-/
import proofs.«147064_j29274497089997_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the two result buffers end at the last
    boundary's contents and the argument arrays as launched. -/
theorem run_vals : θ_run defs (onTc (τ := τ) (main (F := F))) ⟨m, fun _ => 0, ρ⟩ (fun r => ∀ c : Dev nD,
      r.2.mem ((c.tc : Thread nD τ).loc main_v77) = W24 m ρ c (Proc.devRef .tc main_v77)
      ∧ r.2.mem ((c.tc : Thread nD τ).loc main_v63) = W24 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c =>
      ⟨h c _ (mem_uc main_v77 (by decide)),
       h c _ (mem_uc main_v63 (by decide)),
       (h c _ (mem_uc main_arg0 (by decide))).trans (W24_main_arg0 m ρ c),
       (h c _ (mem_uc main_arg1 (by decide))).trans (W24_main_arg1 m ρ c),
       (h c _ (mem_uc main_arg2 (by decide))).trans (W24_main_arg2 m ρ c),
       (h c _ (mem_uc main_arg3 (by decide))).trans (W24_main_arg3 m ρ c),
       (h c _ (mem_uc main_arg4 (by decide))).trans (W24_main_arg4 m ρ c),
       (h c _ (mem_uc main_arg5 (by decide))).trans (W24_main_arg5 m ρ c),
       (h c _ (mem_uc main_arg6 (by decide))).trans (W24_main_arg6 m ρ c),
       (h c _ (mem_uc main_arg7 (by decide))).trans (W24_main_arg7 m ρ c),
       (h c _ (mem_uc main_arg8 (by decide))).trans (W24_main_arg8 m ρ c),
       (h c _ (mem_uc main_arg9 (by decide))).trans (W24_main_arg9 m ρ c),
       (h c _ (mem_uc main_arg10 (by decide))).trans (W24_main_arg10 m ρ c),
       (h c _ (mem_uc main_arg11 (by decide))).trans (W24_main_arg11 m ρ c),
       (h c _ (mem_uc main_arg12 (by decide))).trans (W24_main_arg12 m ρ c),
       (h c _ (mem_uc main_arg13 (by decide))).trans (W24_main_arg13 m ρ c)⟩)

end Cert.KernelIdeal.Run

end
-- ==== Proof.KFoldKeep.lean ====
/-
  Which buffers survive which segments of the kernel program.

  @main is in single-assignment form: every buffer is written by exactly one host operation or is the output array of
  exactly one launch.  So the contents of a buffer at a later segment boundary are its contents at the boundary right
  after the segment that produced it (for an argument array: the launch memory), provided no segment in between writes
  it — a host stretch writes only its operations' result buffers, a launch only its output array (its input arrays
  are read through their windows and left as they were).  This module records, for each buffer a later segment reads,
  that chain of "not written here" steps.
-/
import proofs.«147064_j29274497089997_2_alg».proof.Proof.Gen.KernelIdeal.Frame
import Idealize.ShloMosaic.Lib.StableHlo.Run
import Idealize.ShloMosaic.PureOps.Ideal

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- No operation of the named stretch has the buffer among its results. -/
macro "not_written_by" ops:ident : tactic => `(tactic| (
  refine List.forall_iff_forall_mem.mp ?_
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## Argument arrays, at the boundaries where a segment reads them -/

/-- The argument array is as launched at boundary 9. -/
theorem arg0_at9 (c : Dev nD) : W9 m ρ c (Proc.devRef .tc main_arg0) = m ((c : Thread nD τ).loc main_arg0) :=
  calc W9 m ρ c (Proc.devRef .tc main_arg0)
    _ = W8 m ρ c (Proc.devRef .tc main_arg0) := StableHlo.after_of_forall_not_mem (b := Proc.devRef .tc main_arg0) _ _ (by not_written_by hostOps0_8)
    _ = W7 m ρ c (Proc.devRef .tc main_arg0) := StableHlo.after_of_forall_not_mem (b := Proc.devRef .tc main_arg0) _ _ (by not_written_by hostOps0_7)
    _ = W6 m ρ c (Proc.devRef .tc main_arg0) := StableHlo.after_of_forall_not_mem (b := Proc.devRef .tc main_arg0) _ _ (by not_written_by hostOps0_6)
    _ = W5 m ρ c (Proc.devRef .tc main_arg0) := StableHlo.after_of_forall_not_mem (b := Proc.devRef .tc main_arg0) _ _ (by not_written_by hostOps0_5)
    _ = W4 m ρ c (Proc.devRef .tc main_arg0) := StableHlo.after_of_forall_not_mem (b := Proc.devRef .tc main_arg0) _ _ (by not_written_by hostOps0_4)
    _ = W3 m ρ c (Proc.devRef .tc main_arg0) := StableHlo.after_of_forall_not_mem (b := Proc.devRef .tc main_arg0) _ _ (by not_written_by hostOps0_3)
    _ = W2 m ρ c (Proc.devRef .tc main_arg0) := StableHlo.after_of_forall_not_mem (b := Proc.devRef .tc main_arg0) _ _ (by not_written_by hostOps0_2)
    _ = W1 m ρ c (Proc.devRef .tc main_arg0) := StableHlo.after_of_forall_not_mem (b := Proc.devRef .tc main_arg0) _ _ (by not_written_by hostOps0_1)
    _ = W0 m ρ c (Proc.devRef .tc main_arg0) := StableHlo.after_of_forall_not_mem (b := Proc.devRef .tc main_arg0) _ _ (by not_written_by hostOps0)
    _ = m ((c : Thread nD τ).loc main_arg0) := rfl

/-- The argument array is as launched at boundary 9. -/
theorem arg2_at9 (c : Dev nD) : W9 m ρ c (Proc.devRef .tc main_arg2) = m ((c : Thread nD τ).loc main_arg2) :=
  calc W9 m ρ c (Proc.devRef .tc main_arg2)
    _ = W8 m ρ c (Proc.devRef .tc main_arg2) := StableHlo.after_of_forall_not_mem (b := Proc.devRef .tc main_arg2) _ _ (by not_written_by hostOps0_8)
    _ = W7 m ρ c (Proc.devRef .tc main_arg2) := StableHlo.after_of_forall_not_mem (b := Proc.devRef .tc main_arg2) _ _ (by not_written_by hostOps0_7)
    _ = W6 m ρ c (Proc.devRef .tc main_arg2) := StableHlo.after_of_forall_not_mem (b := Proc.devRef .tc main_arg2) _ _ (by not_written_by hostOps0_6)
    _ = W5 m ρ c (Proc.devRef .tc main_arg2) := StableHlo.after_of_forall_not_mem (b := Proc.devRef .tc main_arg2) _ _ (by not_written_by hostOps0_5)
    _ = W4 m ρ c (Proc.devRef .tc main_arg2) := StableHlo.after_of_forall_not_mem (b := Proc.devRef .tc main_arg2) _ _ (by not_written_by hostOps0_4)
    _ = W3 m ρ c (Proc.devRef .tc main_arg2) := StableHlo.after_of_forall_not_mem (b := Proc.devRef .tc main_arg2) _ _ (by not_written_by hostOps0_3)
    _ = W2 m ρ c (Proc.devRef .tc main_arg2) := StableHlo.after_of_forall_not_mem (b := Proc.devRef .tc main_arg2) _ _ (by not_written_by hostOps0_2)
    _ = W1 m ρ c (Proc.devRef .tc main_arg2) := StableHlo.after_of_forall_not_mem (b := Proc.devRef .tc main_arg2) _ _ (by not_written_by hostOps0_1)
    _ = W0 m ρ c (Proc.devRef .tc main_arg2) := StableHlo.after_of_forall_not_mem (b := Proc.devRef .tc main_arg2) _ _ (by not_written_by hostOps0)
    _ = m ((c : Thread nD τ).loc main_arg2) := rfl

/-- The argument array is as launched at boundary 10. -/
theorem arg10_at10 (c : Dev nD) : W10 m ρ c (Proc.devRef .tc main_arg10) = m ((c : Thread nD τ).loc main_arg10) :=
  calc W10 m ρ c (Proc.devRef .tc main_arg10)
    _ = W9 m ρ c (Proc.devRef .tc main_arg10) := W10_of_ne m ρ c main_arg10 (by decide)
    _ = W8 m ρ c (Proc.devRef .tc main_arg10) := StableHlo.after_of_forall_not_mem (b := Proc.devRef .tc main_arg10) _ _ (by not_written_by hostOps0_8)
    _ = W7 m ρ c (Proc.devRef .tc main_arg10) := StableHlo.after_of_forall_not_mem (b := Proc.devRef .tc main_arg10) _ _ (by not_written_by hostOps0_7)
    _ = W6 m ρ c (Proc.devRef .tc main_arg10) := StableHlo.after_of_forall_not_mem (b := Proc.devRef .tc main_arg10) _ _ (by not_written_by hostOps0_6)
    _ = W5 m ρ c (Proc.devRef .tc main_arg10) := StableHlo.after_of_forall_not_mem (b := Proc.devRef .tc main_arg10) _ _ (by not_written_by hostOps0_5)
    _ = W4 m ρ c (Proc.devRef .tc main_arg10) := StableHlo.after_of_forall_not_mem (b := Proc.devRef .tc main_arg10) _ _ (by not_written_by hostOps0_4)
    _ = W3 m ρ c (Proc.devRef .tc main_arg10) := StableHlo.after_of_forall_not_mem (b := Proc.devRef .tc main_arg10) _ _ (by not_written_by hostOps0_3)
    _ = W2 m ρ c (Proc.devRef .tc main_arg10) := StableHlo.after_of_forall_not_mem (b := Proc.devRef .tc main_arg10) _ _ (by not_written_by hostOps0_2)
    _ = W1 m ρ c (Proc.devRef .tc main_arg10) := StableHlo.after_of_forall_not_mem (b := Proc.devRef .tc main_arg10) _ _ (by not_written_by hostOps0_1)
    _ = W0 m ρ c (Proc.devRef .tc main_arg10) := StableHlo.after_of_forall_not_mem (b := Proc.devRef .tc main_arg10) _ _ (by not_written_by hostOps0)
    _ = m ((c : Thread nD τ).loc main_arg10) := rfl

/-- The argument array is as launched at boundary 10. -/
theorem arg11_at10 (c : Dev nD) : W10 m ρ c (Proc.devRef .tc main_arg11) = m ((c : Thread nD τ).loc main_arg11) :=
  calc W10 m ρ c (Proc.devRef .tc main_arg11)
    _ = W9 m ρ c (Proc.devRef .tc main_arg11) := W10_of_ne m ρ c main_arg11 (by decide)
    _ = W8 m ρ c (Proc.devRef .tc main_arg11) := StableHlo.after_of_forall_not_mem (b := Proc.devRef .tc main_arg11) _ _ (by not_written_by hostOps0_8)
    _ = W7 m ρ c (Proc.devRef .tc main_arg11) := StableHlo.after_of_forall_not_mem (b := Proc.devRef .tc main_arg11) _ _ (by not_written_by hostOps0_7)
    _ = W6 m ρ c (Proc.devRef .tc main_arg11) := StableHlo.after_of_forall_not_mem (b := Proc.devRef .tc main_arg11) _ _ (by not_written_by hostOps0_6)
    _ = W5 m ρ c (Proc.devRef .tc main_arg11) := StableHlo.after_of_forall_not_mem (b := Proc.devRef .tc main_arg11) _ _ (by not_written_by hostOps0_5)
    _ = W4 m ρ c (Proc.devRef .tc main_arg11) := StableHlo.after_of_forall_not_mem (b := Proc.devRef .tc main_arg11) _ _ (by not_written_by hostOps0_4)
    _ = W3 m ρ c (Proc.devRef .tc main_arg11) := StableHlo.after_of_forall_not_mem (b := Proc.devRef .tc main_arg11) _ _ (by not_written_by hostOps0_3)
    _ = W2 m ρ c (Proc.devRef .tc main_arg11) := StableHlo.after_of_forall_not_mem (b := Proc.devRef .tc main_arg11) _ _ (by not_written_by hostOps0_2)
    _ = W1 m ρ c (Proc.devRef .tc main_arg11) := StableHlo.after_of_forall_not_mem (b := Proc.devRef .tc main_arg11) _ _ (by not_written_by hostOps0_1)
    _ = W0 m ρ c (Proc.devRef .tc main_arg11) := StableHlo.after_of_forall_not_mem (b := Proc.devRef .tc main_arg11) _ _ (by not_written_by hostOps0)
    _ = m ((c : Thread nD τ).loc main_arg11) := rfl

/-- The argument array is as launched at boundary 11. -/
theorem arg3_at11 (c : Dev nD) : W11 m ρ c (Proc.devRef .tc main_arg3) = m ((c : Thread nD τ).loc main_arg3) :=
  calc W11 m ρ c (Proc.devRef .tc main_arg3)
    _ = W10 m ρ c (Proc.devRef .tc main_arg3) := StableHlo.after_of_forall_not_mem (b := Proc.devRef .tc main_arg3) _ _ (by not_written_by hostOps1)
    _ = W9 m ρ c (Proc.devRef .tc main_arg3) := W10_of_ne m ρ c main_arg3 (by decide)
    _ = W8 m ρ c (Proc.devRef .tc main_arg3) := StableHlo.after_of_forall_not_mem (b := Proc.devRef .tc main_arg3) _ _ (by not_written_by hostOps0_8)
    _ = W7 m ρ c (Proc.devRef .tc main_arg3) := StableHlo.after_of_forall_not_mem (b := Proc.devRef .tc main_arg3) _ _ (by not_written_by hostOps0_7)
    _ = W6 m ρ c (Proc.devRef .tc main_arg3) := StableHlo.after_of_forall_not_mem (b := Proc.devRef .tc main_arg3) _ _ (by not_written_by hostOps0_6)
    _ = W5 m ρ c (Proc.devRef .tc main_arg3) := StableHlo.after_of_forall_not_mem (b := Proc.devRef .tc main_arg3) _ _ (by not_written_by hostOps0_5)
    _ = W4 m ρ c (Proc.devRef .tc main_arg3) := StableHlo.after_of_forall_not_mem (b := Proc.devRef .tc main_arg3) _ _ (by not_written_by hostOps0_4)
    _ = W3 m ρ c (Proc.devRef .tc main_arg3) := StableHlo.after_of_forall_not_mem (b := Proc.devRef .tc main_arg3) _ _ (by not_written_by hostOps0_3)
    _ = W2 m ρ c (Proc.devRef .tc main_arg3) := StableHlo.after_of_forall_not_mem (b := Proc.devRef .tc main_arg3) _ _ (by not_written_by hostOps0_2)
    _ = W1 m ρ c (Proc.devRef .tc main_arg3) := StableHlo.after_of_forall_not_mem (b := Proc.devRef .tc main_arg3) _ _ (by not_written_by hostOps0_1)
    _ = W0 m ρ c (Proc.devRef .tc main_arg3) := StableHlo.after_of_forall_not_mem (b := Proc.devRef .tc main_arg3) _ _ (by not_written_by hostOps0)
    _ = m ((c : Thread nD τ).loc main_arg3) := rfl

/-- The argument array is as launched at boundary 13. -/
theorem arg1_at13 (c : Dev nD) : W13 m ρ c (Proc.devRef .tc main_arg1) = m ((c : Thread nD τ).loc main_arg1) :=
  calc W13 m ρ c (Proc.devRef .tc main_arg1)
    _ = W12 m ρ c (Proc.devRef .tc main_arg1) := StableHlo.after_of_forall_not_mem (b := Proc.devRef .tc main_arg1) _ _ (by not_written_by hostOps2)
    _ = W11 m ρ c (Proc.devRef .tc main_arg1) := W12_of_ne m ρ c main_arg1 (by decide)
    _ = W10 m ρ c (Proc.devRef .tc main_arg1) := StableHlo.after_of_forall_not_mem (b := Proc.devRef .tc main_arg1) _ _ (by not_written_by hostOps1)
    _ = W9 m ρ c (Proc.devRef .tc main_arg1) := W10_of_ne m ρ c main_arg1 (by decide)
    _ = W8 m ρ c (Proc.devRef .tc main_arg1) := StableHlo.after_of_forall_not_mem (b := Proc.devRef .tc main_arg1) _ _ (by not_written_by hostOps0_8)
    _ = W7 m ρ c (Proc.devRef .tc main_arg1) := StableHlo.after_of_forall_not_mem (b := Proc.devRef .tc main_arg1) _ _ (by not_written_by hostOps0_7)
    _ = W6 m ρ c (Proc.devRef .tc main_arg1) := StableHlo.after_of_forall_not_mem (b := Proc.devRef .tc main_arg1) _ _ (by not_written_by hostOps0_6)
    _ = W5 m ρ c (Proc.devRef .tc main_arg1) := StableHlo.after_of_forall_not_mem (b := Proc.devRef .tc main_arg1) _ _ (by not_written_by hostOps0_5)
    _ = W4 m ρ c (Proc.devRef .tc main_arg1) := StableHlo.after_of_forall_not_mem (b := Proc.devRef .tc main_arg1) _ _ (by not_written_by hostOps0_4)
    _ = W3 m ρ c (Proc.devRef .tc main_arg1) := StableHlo.after_of_forall_not_mem (b := Proc.devRef .tc main_arg1) _ _ (by not_written_by hostOps0_3)
    _ = W2 m ρ c (Proc.devRef .tc main_arg1) := StableHlo.after_of_forall_not_mem (b := Proc.devRef .tc main_arg1) _ _ (by not_written_by hostOps0_2)
    _ = W1 m ρ c (Proc.devRef .tc main_arg1) := StableHlo.after_of_forall_not_mem (b := Proc.devRef .tc main_arg1) _ _ (by not_written_by hostOps0_1)
    _ = W0 m ρ c (Proc.devRef .tc main_arg1) := StableHlo.after_of_forall_not_mem (b := Proc.devRef .tc main_arg1) _ _ (by not_written_by hostOps0)
    _ = m ((c : Thread nD τ).loc main_arg1) := rfl

/-- The argument array is as launched at boundary 13. -/
theorem arg4_at13 (c : Dev nD) : W13 m ρ c (Proc.devRef .tc main_arg4) = m ((c : Thread nD τ).loc main_arg4) :=
  calc W13 m ρ c (Proc.devRef .tc main_arg4)
    _ = W12 m ρ c (Proc.devRef .tc main_arg4) := StableHlo.after_of_forall_not_mem (b := Proc.devRef .tc main_arg4) _ _ (by not_written_by hostOps2)
    _ = W11 m ρ c (Proc.devRef .tc main_arg4) := W12_of_ne m ρ c main_arg4 (by decide)
    _ = W10 m ρ c (Proc.devRef .tc main_arg4) := StableHlo.after_of_forall_not_mem (b := Proc.devRef .tc main_arg4) _ _ (by not_written_by hostOps1)
    _ = W9 m ρ c (Proc.devRef .tc main_arg4) := W10_of_ne m ρ c main_arg4 (by decide)
    _ = W8 m ρ c (Proc.devRef .tc main_arg4) := StableHlo.after_of_forall_not_mem (b := Proc.devRef .tc main_arg4) _ _ (by not_written_by hostOps0_8)
    _ = W7 m ρ c (Proc.devRef .tc main_arg4) := StableHlo.after_of_forall_not_mem (b := Proc.devRef .tc main_arg4) _ _ (by not_written_by hostOps0_7)
    _ = W6 m ρ c (Proc.devRef .tc main_arg4) := StableHlo.after_of_forall_not_mem (b := Proc.devRef .tc main_arg4) _ _ (by not_written_by hostOps0_6)
    _ = W5 m ρ c (Proc.devRef .tc main_arg4) := StableHlo.after_of_forall_not_mem (b := Proc.devRef .tc main_arg4) _ _ (by not_written_by hostOps0_5)
    _ = W4 m ρ c (Proc.devRef .tc main_arg4) := StableHlo.after_of_forall_not_mem (b := Proc.devRef .tc main_arg4) _ _ (by not_written_by hostOps0_4)
    _ = W3 m ρ c (Proc.devRef .tc main_arg4) := StableHlo.after_of_forall_not_mem (b := Proc.devRef .tc main_arg4) _ _ (by not_written_by hostOps0_3)
    _ = W2 m ρ c (Proc.devRef .tc main_arg4) := StableHlo.after_of_forall_not_mem (b := Proc.devRef .tc main_arg4) _ _ (by not_written_by hostOps0_2)
    _ = W1 m ρ c (Proc.devRef .tc main_arg4) := StableHlo.after_of_forall_not_mem (b := Proc.devRef .tc main_arg4) _ _ (by not_written_by hostOps0_1)
    _ = W0 m ρ c (Proc.devRef .tc main_arg4) := StableHlo.after_of_forall_not_mem (b := Proc.devRef .tc main_arg4) _ _ (by not_written_by hostOps0)
    _ = m ((c : Thread nD τ).loc main_arg4) := rfl

/-- The argument array is as launched at boundary 14. -/
theorem arg12_at14 (c : Dev nD) : W14 m ρ c (Proc.devRef .tc main_arg12) = m ((c : Thread nD τ).loc main_arg12) :=
  calc W14 m ρ c (Proc.devRef .tc main_arg12)
    _ = W13 m ρ c (Proc.devRef .tc main_arg12) := W14_of_ne m ρ c main_arg12 (by decide)
    _ = W12 m ρ c (Proc.devRef .tc main_arg12) := StableHlo.after_of_forall_not_mem (b := Proc.devRef .tc main_arg12) _ _ (by not_written_by hostOps2)
    _ = W11 m ρ c (Proc.devRef .tc main_arg12) := W12_of_ne m ρ c main_arg12 (by decide)
    _ = W10 m ρ c (Proc.devRef .tc main_arg12) := StableHlo.after_of_forall_not_mem (b := Proc.devRef .tc main_arg12) _ _ (by not_written_by hostOps1)
    _ = W9 m ρ c (Proc.devRef .tc main_arg12) := W10_of_ne m ρ c main_arg12 (by decide)
    _ = W8 m ρ c (Proc.devRef .tc main_arg12) := StableHlo.after_of_forall_not_mem (b := Proc.devRef .tc main_arg12) _ _ (by not_written_by hostOps0_8)
    _ = W7 m ρ c (Proc.devRef .tc main_arg12) := StableHlo.after_of_forall_not_mem (b := Proc.devRef .tc main_arg12) _ _ (by not_written_by hostOps0_7)
    _ = W6 m ρ c (Proc.devRef .tc main_arg12) := StableHlo.after_of_forall_not_mem (b := Proc.devRef .tc main_arg12) _ _ (by not_written_by hostOps0_6)
    _ = W5 m ρ c (Proc.devRef .tc main_arg12) := StableHlo.after_of_forall_not_mem (b := Proc.devRef .tc main_arg12) _ _ (by not_written_by hostOps0_5)
    _ = W4 m ρ c (Proc.devRef .tc main_arg12) := StableHlo.after_of_forall_not_mem (b := Proc.devRef .tc main_arg12) _ _ (by not_written_by hostOps0_4)
    _ = W3 m ρ c (Proc.devRef .tc main_arg12) := StableHlo.after_of_forall_not_mem (b := Proc.devRef .tc main_arg12) _ _ (by not_written_by hostOps0_3)
    _ = W2 m ρ c (Proc.devRef .tc main_arg12) := StableHlo.after_of_forall_not_mem (b := Proc.devRef .tc main_arg12) _ _ (by not_written_by hostOps0_2)
    _ = W1 m ρ c (Proc.devRef .tc main_arg12) := StableHlo.after_of_forall_not_mem (b := Proc.devRef .tc main_arg12) _ _ (by not_written_by hostOps0_1)
    _ = W0 m ρ c (Proc.devRef .tc main_arg12) := StableHlo.after_of_forall_not_mem (b := Proc.devRef .tc main_arg12) _ _ (by not_written_by hostOps0)
    _ = m ((c : Thread nD τ).loc main_arg12) := rfl

/-- The argument array is as launched at boundary 14. -/
theorem arg13_at14 (c : Dev nD) : W14 m ρ c (Proc.devRef .tc main_arg13) = m ((c : Thread nD τ).loc main_arg13) :=
  calc W14 m ρ c (Proc.devRef .tc main_arg13)
    _ = W13 m ρ c (Proc.devRef .tc main_arg13) := W14_of_ne m ρ c main_arg13 (by decide)
    _ = W12 m ρ c (Proc.devRef .tc main_arg13) := StableHlo.after_of_forall_not_mem (b := Proc.devRef .tc main_arg13) _ _ (by not_written_by hostOps2)
    _ = W11 m ρ c (Proc.devRef .tc main_arg13) := W12_of_ne m ρ c main_arg13 (by decide)
    _ = W10 m ρ c (Proc.devRef .tc main_arg13) := StableHlo.after_of_forall_not_mem (b := Proc.devRef .tc main_arg13) _ _ (by not_written_by hostOps1)
    _ = W9 m ρ c (Proc.devRef .tc main_arg13) := W10_of_ne m ρ c main_arg13 (by decide)
    _ = W8 m ρ c (Proc.devRef .tc main_arg13) := StableHlo.after_of_forall_not_mem (b := Proc.devRef .tc main_arg13) _ _ (by not_written_by hostOps0_8)
    _ = W7 m ρ c (Proc.devRef .tc main_arg13) := StableHlo.after_of_forall_not_mem (b := Proc.devRef .tc main_arg13) _ _ (by not_written_by hostOps0_7)
    _ = W6 m ρ c (Proc.devRef .tc main_arg13) := StableHlo.after_of_forall_not_mem (b := Proc.devRef .tc main_arg13) _ _ (by not_written_by hostOps0_6)
    _ = W5 m ρ c (Proc.devRef .tc main_arg13) := StableHlo.after_of_forall_not_mem (b := Proc.devRef .tc main_arg13) _ _ (by not_written_by hostOps0_5)
    _ = W4 m ρ c (Proc.devRef .tc main_arg13) := StableHlo.after_of_forall_not_mem (b := Proc.devRef .tc main_arg13) _ _ (by not_written_by hostOps0_4)
    _ = W3 m ρ c (Proc.devRef .tc main_arg13) := StableHlo.after_of_forall_not_mem (b := Proc.devRef .tc main_arg13) _ _ (by not_written_by hostOps0_3)
    _ = W2 m ρ c (Proc.devRef .tc main_arg13) := StableHlo.after_of_forall_not_mem (b := Proc.devRef .tc main_arg13) _ _ (by not_written_by hostOps0_2)
    _ = W1 m ρ c (Proc.devRef .tc main_arg13) := StableHlo.after_of_forall_not_mem (b := Proc.devRef .tc main_arg13) _ _ (by not_written_by hostOps0_1)
    _ = W0 m ρ c (Proc.devRef .tc main_arg13) := StableHlo.after_of_forall_not_mem (b := Proc.devRef .tc main_arg13) _ _ (by not_written_by hostOps0)
    _ = m ((c : Thread nD τ).loc main_arg13) := rfl

/-- The argument array is as launched at boundary 15. -/
theorem arg5_at15 (c : Dev nD) : W15 m ρ c (Proc.devRef .tc main_arg5) = m ((c : Thread nD τ).loc main_arg5) :=
  calc W15 m ρ c (Proc.devRef .tc main_arg5)
    _ = W14 m ρ c (Proc.devRef .tc main_arg5) := StableHlo.after_of_forall_not_mem (b := Proc.devRef .tc main_arg5) _ _ (by not_written_by hostOps3)
    _ = W13 m ρ c (Proc.devRef .tc main_arg5) := W14_of_ne m ρ c main_arg5 (by decide)
    _ = W12 m ρ c (Proc.devRef .tc main_arg5) := StableHlo.after_of_forall_not_mem (b := Proc.devRef .tc main_arg5) _ _ (by not_written_by hostOps2)
    _ = W11 m ρ c (Proc.devRef .tc main_arg5) := W12_of_ne m ρ c main_arg5 (by decide)
    _ = W10 m ρ c (Proc.devRef .tc main_arg5) := StableHlo.after_of_forall_not_mem (b := Proc.devRef .tc main_arg5) _ _ (by not_written_by hostOps1)
    _ = W9 m ρ c (Proc.devRef .tc main_arg5) := W10_of_ne m ρ c main_arg5 (by decide)
    _ = W8 m ρ c (Proc.devRef .tc main_arg5) := StableHlo.after_of_forall_not_mem (b := Proc.devRef .tc main_arg5) _ _ (by not_written_by hostOps0_8)
    _ = W7 m ρ c (Proc.devRef .tc main_arg5) := StableHlo.after_of_forall_not_mem (b := Proc.devRef .tc main_arg5) _ _ (by not_written_by hostOps0_7)
    _ = W6 m ρ c (Proc.devRef .tc main_arg5) := StableHlo.after_of_forall_not_mem (b := Proc.devRef .tc main_arg5) _ _ (by not_written_by hostOps0_6)
    _ = W5 m ρ c (Proc.devRef .tc main_arg5) := StableHlo.after_of_forall_not_mem (b := Proc.devRef .tc main_arg5) _ _ (by not_written_by hostOps0_5)
    _ = W4 m ρ c (Proc.devRef .tc main_arg5) := StableHlo.after_of_forall_not_mem (b := Proc.devRef .tc main_arg5) _ _ (by not_written_by hostOps0_4)
    _ = W3 m ρ c (Proc.devRef .tc main_arg5) := StableHlo.after_of_forall_not_mem (b := Proc.devRef .tc main_arg5) _ _ (by not_written_by hostOps0_3)
    _ = W2 m ρ c (Proc.devRef .tc main_arg5) := StableHlo.after_of_forall_not_mem (b := Proc.devRef .tc main_arg5) _ _ (by not_written_by hostOps0_2)
    _ = W1 m ρ c (Proc.devRef .tc main_arg5) := StableHlo.after_of_forall_not_mem (b := Proc.devRef .tc main_arg5) _ _ (by not_written_by hostOps0_1)
    _ = W0 m ρ c (Proc.devRef .tc main_arg5) := StableHlo.after_of_forall_not_mem (b := Proc.devRef .tc main_arg5) _ _ (by not_written_by hostOps0)
    _ = m ((c : Thread nD τ).loc main_arg5) := rfl

/-- The argument array is as launched at boundary 17. -/
theorem arg6_at17 (c : Dev nD) : W17 m ρ c (Proc.devRef .tc main_arg6) = m ((c : Thread nD τ).loc main_arg6) :=
  calc W17 m ρ c (Proc.devRef .tc main_arg6)
    _ = W16 m ρ c (Proc.devRef .tc main_arg6) := StableHlo.after_of_forall_not_mem (b := Proc.devRef .tc main_arg6) _ _ (by not_written_by hostOps4)
    _ = W15 m ρ c (Proc.devRef .tc main_arg6) := W16_of_ne m ρ c main_arg6 (by decide)
    _ = W14 m ρ c (Proc.devRef .tc main_arg6) := StableHlo.after_of_forall_not_mem (b := Proc.devRef .tc main_arg6) _ _ (by not_written_by hostOps3)
    _ = W13 m ρ c (Proc.devRef .tc main_arg6) := W14_of_ne m ρ c main_arg6 (by decide)
    _ = W12 m ρ c (Proc.devRef .tc main_arg6) := StableHlo.after_of_forall_not_mem (b := Proc.devRef .tc main_arg6) _ _ (by not_written_by hostOps2)
    _ = W11 m ρ c (Proc.devRef .tc main_arg6) := W12_of_ne m ρ c main_arg6 (by decide)
    _ = W10 m ρ c (Proc.devRef .tc main_arg6) := StableHlo.after_of_forall_not_mem (b := Proc.devRef .tc main_arg6) _ _ (by not_written_by hostOps1)
    _ = W9 m ρ c (Proc.devRef .tc main_arg6) := W10_of_ne m ρ c main_arg6 (by decide)
    _ = W8 m ρ c (Proc.devRef .tc main_arg6) := StableHlo.after_of_forall_not_mem (b := Proc.devRef .tc main_arg6) _ _ (by not_written_by hostOps0_8)
    _ = W7 m ρ c (Proc.devRef .tc main_arg6) := StableHlo.after_of_forall_not_mem (b := Proc.devRef .tc main_arg6) _ _ (by not_written_by hostOps0_7)
    _ = W6 m ρ c (Proc.devRef .tc main_arg6) := StableHlo.after_of_forall_not_mem (b := Proc.devRef .tc main_arg6) _ _ (by not_written_by hostOps0_6)
    _ = W5 m ρ c (Proc.devRef .tc main_arg6) := StableHlo.after_of_forall_not_mem (b := Proc.devRef .tc main_arg6) _ _ (by not_written_by hostOps0_5)
    _ = W4 m ρ c (Proc.devRef .tc main_arg6) := StableHlo.after_of_forall_not_mem (b := Proc.devRef .tc main_arg6) _ _ (by not_written_by hostOps0_4)
    _ = W3 m ρ c (Proc.devRef .tc main_arg6) := StableHlo.after_of_forall_not_mem (b := Proc.devRef .tc main_arg6) _ _ (by not_written_by hostOps0_3)
    _ = W2 m ρ c (Proc.devRef .tc main_arg6) := StableHlo.after_of_forall_not_mem (b := Proc.devRef .tc main_arg6) _ _ (by not_written_by hostOps0_2)
    _ = W1 m ρ c (Proc.devRef .tc main_arg6) := StableHlo.after_of_forall_not_mem (b := Proc.devRef .tc main_arg6) _ _ (by not_written_by hostOps0_1)
    _ = W0 m ρ c (Proc.devRef .tc main_arg6) := StableHlo.after_of_forall_not_mem (b := Proc.devRef .tc main_arg6) _ _ (by not_written_by hostOps0)
    _ = m ((c : Thread nD τ).loc main_arg6) := rfl

/-- The argument array is as launched at boundary 18. -/
theorem arg10_at18 (c : Dev nD) : W18 m ρ c (Proc.devRef .tc main_arg10) = m ((c : Thread nD τ).loc main_arg10) :=
  calc W18 m ρ c (Proc.devRef .tc main_arg10)
    _ = W17 m ρ c (Proc.devRef .tc main_arg10) := W18_of_ne m ρ c main_arg10 (by decide)
    _ = W16 m ρ c (Proc.devRef .tc main_arg10) := StableHlo.after_of_forall_not_mem (b := Proc.devRef .tc main_arg10) _ _ (by not_written_by hostOps4)
    _ = W15 m ρ c (Proc.devRef .tc main_arg10) := W16_of_ne m ρ c main_arg10 (by decide)
    _ = W14 m ρ c (Proc.devRef .tc main_arg10) := StableHlo.after_of_forall_not_mem (b := Proc.devRef .tc main_arg10) _ _ (by not_written_by hostOps3)
    _ = W13 m ρ c (Proc.devRef .tc main_arg10) := W14_of_ne m ρ c main_arg10 (by decide)
    _ = W12 m ρ c (Proc.devRef .tc main_arg10) := StableHlo.after_of_forall_not_mem (b := Proc.devRef .tc main_arg10) _ _ (by not_written_by hostOps2)
    _ = W11 m ρ c (Proc.devRef .tc main_arg10) := W12_of_ne m ρ c main_arg10 (by decide)
    _ = W10 m ρ c (Proc.devRef .tc main_arg10) := StableHlo.after_of_forall_not_mem (b := Proc.devRef .tc main_arg10) _ _ (by not_written_by hostOps1)
    _ = W9 m ρ c (Proc.devRef .tc main_arg10) := W10_of_ne m ρ c main_arg10 (by decide)
    _ = W8 m ρ c (Proc.devRef .tc main_arg10) := StableHlo.after_of_forall_not_mem (b := Proc.devRef .tc main_arg10) _ _ (by not_written_by hostOps0_8)
    _ = W7 m ρ c (Proc.devRef .tc main_arg10) := StableHlo.after_of_forall_not_mem (b := Proc.devRef .tc main_arg10) _ _ (by not_written_by hostOps0_7)
    _ = W6 m ρ c (Proc.devRef .tc main_arg10) := StableHlo.after_of_forall_not_mem (b := Proc.devRef .tc main_arg10) _ _ (by not_written_by hostOps0_6)
    _ = W5 m ρ c (Proc.devRef .tc main_arg10) := StableHlo.after_of_forall_not_mem (b := Proc.devRef .tc main_arg10) _ _ (by not_written_by hostOps0_5)
    _ = W4 m ρ c (Proc.devRef .tc main_arg10) := StableHlo.after_of_forall_not_mem (b := Proc.devRef .tc main_arg10) _ _ (by not_written_by hostOps0_4)
    _ = W3 m ρ c (Proc.devRef .tc main_arg10) := StableHlo.after_of_forall_not_mem (b := Proc.devRef .tc main_arg10) _ _ (by not_written_by hostOps0_3)
    _ = W2 m ρ c (Proc.devRef .tc main_arg10) := StableHlo.after_of_forall_not_mem (b := Proc.devRef .tc main_arg10) _ _ (by not_written_by hostOps0_2)
    _ = W1 m ρ c (Proc.devRef .tc main_arg10) := StableHlo.after_of_forall_not_mem (b := Proc.devRef .tc main_arg10) _ _ (by not_written_by hostOps0_1)
    _ = W0 m ρ c (Proc.devRef .tc main_arg10) := StableHlo.after_of_forall_not_mem (b := Proc.devRef .tc main_arg10) _ _ (by not_written_by hostOps0)
    _ = m ((c : Thread nD τ).loc main_arg10) := rfl

/-- The argument array is as launched at boundary 18. -/
theorem arg11_at18 (c : Dev nD) : W18 m ρ c (Proc.devRef .tc main_arg11) = m ((c : Thread nD τ).loc main_arg11) :=
  calc W18 m ρ c (Proc.devRef .tc main_arg11)
    _ = W17 m ρ c (Proc.devRef .tc main_arg11) := W18_of_ne m ρ c main_arg11 (by decide)
    _ = W16 m ρ c (Proc.devRef .tc main_arg11) := StableHlo.after_of_forall_not_mem (b := Proc.devRef .tc main_arg11) _ _ (by not_written_by hostOps4)
    _ = W15 m ρ c (Proc.devRef .tc main_arg11) := W16_of_ne m ρ c main_arg11 (by decide)
    _ = W14 m ρ c (Proc.devRef .tc main_arg11) := StableHlo.after_of_forall_not_mem (b := Proc.devRef .tc main_arg11) _ _ (by not_written_by hostOps3)
    _ = W13 m ρ c (Proc.devRef .tc main_arg11) := W14_of_ne m ρ c main_arg11 (by decide)
    _ = W12 m ρ c (Proc.devRef .tc main_arg11) := StableHlo.after_of_forall_not_mem (b := Proc.devRef .tc main_arg11) _ _ (by not_written_by hostOps2)
    _ = W11 m ρ c (Proc.devRef .tc main_arg11) := W12_of_ne m ρ c main_arg11 (by decide)
    _ = W10 m ρ c (Proc.devRef .tc main_arg11) := StableHlo.after_of_forall_not_mem (b := Proc.devRef .tc main_arg11) _ _ (by not_written_by hostOps1)
    _ = W9 m ρ c (Proc.devRef .tc main_arg11) := W10_of_ne m ρ c main_arg11 (by decide)
    _ = W8 m ρ c (Proc.devRef .tc main_arg11) := StableHlo.after_of_forall_not_mem (b := Proc.devRef .tc main_arg11) _ _ (by not_written_by hostOps0_8)
    _ = W7 m ρ c (Proc.devRef .tc main_arg11) := StableHlo.after_of_forall_not_mem (b := Proc.devRef .tc main_arg11) _ _ (by not_written_by hostOps0_7)
    _ = W6 m ρ c (Proc.devRef .tc main_arg11) := StableHlo.after_of_forall_not_mem (b := Proc.devRef .tc main_arg11) _ _ (by not_written_by hostOps0_6)
    _ = W5 m ρ c (Proc.devRef .tc main_arg11) := StableHlo.after_of_forall_not_mem (b := Proc.devRef .tc main_arg11) _ _ (by not_written_by hostOps0_5)
    _ = W4 m ρ c (Proc.devRef .tc main_arg11) := StableHlo.after_of_forall_not_mem (b := Proc.devRef .tc main_arg11) _ _ (by not_written_by hostOps0_4)
    _ = W3 m ρ c (Proc.devRef .tc main_arg11) := StableHlo.after_of_forall_not_mem (b := Proc.devRef .tc main_arg11) _ _ (by not_written_by hostOps0_3)
    _ = W2 m ρ c (Proc.devRef .tc main_arg11) := StableHlo.after_of_forall_not_mem (b := Proc.devRef .tc main_arg11) _ _ (by not_written_by hostOps0_2)
    _ = W1 m ρ c (Proc.devRef .tc main_arg11) := StableHlo.after_of_forall_not_mem (b := Proc.devRef .tc main_arg11) _ _ (by not_written_by hostOps0_1)
    _ = W0 m ρ c (Proc.devRef .tc main_arg11) := StableHlo.after_of_forall_not_mem (b := Proc.devRef .tc main_arg11) _ _ (by not_written_by hostOps0)
    _ = m ((c : Thread nD τ).loc main_arg11) := rfl

/-- The argument array is as launched at boundary 19. -/
theorem arg7_at19 (c : Dev nD) : W19 m ρ c (Proc.devRef .tc main_arg7) = m ((c : Thread nD τ).loc main_arg7) :=
  calc W19 m ρ c (Proc.devRef .tc main_arg7)
    _ = W18 m ρ c (Proc.devRef .tc main_arg7) := StableHlo.after_of_forall_not_mem (b := Proc.devRef .tc main_arg7) _ _ (by not_written_by hostOps5)
    _ = W17 m ρ c (Proc.devRef .tc main_arg7) := W18_of_ne m ρ c main_arg7 (by decide)
    _ = W16 m ρ c (Proc.devRef .tc main_arg7) := StableHlo.after_of_forall_not_mem (b := Proc.devRef .tc main_arg7) _ _ (by not_written_by hostOps4)
    _ = W15 m ρ c (Proc.devRef .tc main_arg7) := W16_of_ne m ρ c main_arg7 (by decide)
    _ = W14 m ρ c (Proc.devRef .tc main_arg7) := StableHlo.after_of_forall_not_mem (b := Proc.devRef .tc main_arg7) _ _ (by not_written_by hostOps3)
    _ = W13 m ρ c (Proc.devRef .tc main_arg7) := W14_of_ne m ρ c main_arg7 (by decide)
    _ = W12 m ρ c (Proc.devRef .tc main_arg7) := StableHlo.after_of_forall_not_mem (b := Proc.devRef .tc main_arg7) _ _ (by not_written_by hostOps2)
    _ = W11 m ρ c (Proc.devRef .tc main_arg7) := W12_of_ne m ρ c main_arg7 (by decide)
    _ = W10 m ρ c (Proc.devRef .tc main_arg7) := StableHlo.after_of_forall_not_mem (b := Proc.devRef .tc main_arg7) _ _ (by not_written_by hostOps1)
    _ = W9 m ρ c (Proc.devRef .tc main_arg7) := W10_of_ne m ρ c main_arg7 (by decide)
    _ = W8 m ρ c (Proc.devRef .tc main_arg7) := StableHlo.after_of_forall_not_mem (b := Proc.devRef .tc main_arg7) _ _ (by not_written_by hostOps0_8)
    _ = W7 m ρ c (Proc.devRef .tc main_arg7) := StableHlo.after_of_forall_not_mem (b := Proc.devRef .tc main_arg7) _ _ (by not_written_by hostOps0_7)
    _ = W6 m ρ c (Proc.devRef .tc main_arg7) := StableHlo.after_of_forall_not_mem (b := Proc.devRef .tc main_arg7) _ _ (by not_written_by hostOps0_6)
    _ = W5 m ρ c (Proc.devRef .tc main_arg7) := StableHlo.after_of_forall_not_mem (b := Proc.devRef .tc main_arg7) _ _ (by not_written_by hostOps0_5)
    _ = W4 m ρ c (Proc.devRef .tc main_arg7) := StableHlo.after_of_forall_not_mem (b := Proc.devRef .tc main_arg7) _ _ (by not_written_by hostOps0_4)
    _ = W3 m ρ c (Proc.devRef .tc main_arg7) := StableHlo.after_of_forall_not_mem (b := Proc.devRef .tc main_arg7) _ _ (by not_written_by hostOps0_3)
    _ = W2 m ρ c (Proc.devRef .tc main_arg7) := StableHlo.after_of_forall_not_mem (b := Proc.devRef .tc main_arg7) _ _ (by not_written_by hostOps0_2)
    _ = W1 m ρ c (Proc.devRef .tc main_arg7) := StableHlo.after_of_forall_not_mem (b := Proc.devRef .tc main_arg7) _ _ (by not_written_by hostOps0_1)
    _ = W0 m ρ c (Proc.devRef .tc main_arg7) := StableHlo.after_of_forall_not_mem (b := Proc.devRef .tc main_arg7) _ _ (by not_written_by hostOps0)
    _ = m ((c : Thread nD τ).loc main_arg7) := rfl

/-- The argument array is as launched at boundary 21. -/
theorem arg8_at21 (c : Dev nD) : W21 m ρ c (Proc.devRef .tc main_arg8) = m ((c : Thread nD τ).loc main_arg8) :=
  calc W21 m ρ c (Proc.devRef .tc main_arg8)
    _ = W20 m ρ c (Proc.devRef .tc main_arg8) := StableHlo.after_of_forall_not_mem (b := Proc.devRef .tc main_arg8) _ _ (by not_written_by hostOps6)
    _ = W19 m ρ c (Proc.devRef .tc main_arg8) := W20_of_ne m ρ c main_arg8 (by decide)
    _ = W18 m ρ c (Proc.devRef .tc main_arg8) := StableHlo.after_of_forall_not_mem (b := Proc.devRef .tc main_arg8) _ _ (by not_written_by hostOps5)
    _ = W17 m ρ c (Proc.devRef .tc main_arg8) := W18_of_ne m ρ c main_arg8 (by decide)
    _ = W16 m ρ c (Proc.devRef .tc main_arg8) := StableHlo.after_of_forall_not_mem (b := Proc.devRef .tc main_arg8) _ _ (by not_written_by hostOps4)
    _ = W15 m ρ c (Proc.devRef .tc main_arg8) := W16_of_ne m ρ c main_arg8 (by decide)
    _ = W14 m ρ c (Proc.devRef .tc main_arg8) := StableHlo.after_of_forall_not_mem (b := Proc.devRef .tc main_arg8) _ _ (by not_written_by hostOps3)
    _ = W13 m ρ c (Proc.devRef .tc main_arg8) := W14_of_ne m ρ c main_arg8 (by decide)
    _ = W12 m ρ c (Proc.devRef .tc main_arg8) := StableHlo.after_of_forall_not_mem (b := Proc.devRef .tc main_arg8) _ _ (by not_written_by hostOps2)
    _ = W11 m ρ c (Proc.devRef .tc main_arg8) := W12_of_ne m ρ c main_arg8 (by decide)
    _ = W10 m ρ c (Proc.devRef .tc main_arg8) := StableHlo.after_of_forall_not_mem (b := Proc.devRef .tc main_arg8) _ _ (by not_written_by hostOps1)
    _ = W9 m ρ c (Proc.devRef .tc main_arg8) := W10_of_ne m ρ c main_arg8 (by decide)
    _ = W8 m ρ c (Proc.devRef .tc main_arg8) := StableHlo.after_of_forall_not_mem (b := Proc.devRef .tc main_arg8) _ _ (by not_written_by hostOps0_8)
    _ = W7 m ρ c (Proc.devRef .tc main_arg8) := StableHlo.after_of_forall_not_mem (b := Proc.devRef .tc main_arg8) _ _ (by not_written_by hostOps0_7)
    _ = W6 m ρ c (Proc.devRef .tc main_arg8) := StableHlo.after_of_forall_not_mem (b := Proc.devRef .tc main_arg8) _ _ (by not_written_by hostOps0_6)
    _ = W5 m ρ c (Proc.devRef .tc main_arg8) := StableHlo.after_of_forall_not_mem (b := Proc.devRef .tc main_arg8) _ _ (by not_written_by hostOps0_5)
    _ = W4 m ρ c (Proc.devRef .tc main_arg8) := StableHlo.after_of_forall_not_mem (b := Proc.devRef .tc main_arg8) _ _ (by not_written_by hostOps0_4)
    _ = W3 m ρ c (Proc.devRef .tc main_arg8) := StableHlo.after_of_forall_not_mem (b := Proc.devRef .tc main_arg8) _ _ (by not_written_by hostOps0_3)
    _ = W2 m ρ c (Proc.devRef .tc main_arg8) := StableHlo.after_of_forall_not_mem (b := Proc.devRef .tc main_arg8) _ _ (by not_written_by hostOps0_2)
    _ = W1 m ρ c (Proc.devRef .tc main_arg8) := StableHlo.after_of_forall_not_mem (b := Proc.devRef .tc main_arg8) _ _ (by not_written_by hostOps0_1)
    _ = W0 m ρ c (Proc.devRef .tc main_arg8) := StableHlo.after_of_forall_not_mem (b := Proc.devRef .tc main_arg8) _ _ (by not_written_by hostOps0)
    _ = m ((c : Thread nD τ).loc main_arg8) := rfl

/-- The argument array is as launched at boundary 22. -/
theorem arg12_at22 (c : Dev nD) : W22 m ρ c (Proc.devRef .tc main_arg12) = m ((c : Thread nD τ).loc main_arg12) :=
  calc W22 m ρ c (Proc.devRef .tc main_arg12)
    _ = W21 m ρ c (Proc.devRef .tc main_arg12) := W22_of_ne m ρ c main_arg12 (by decide)
    _ = W20 m ρ c (Proc.devRef .tc main_arg12) := StableHlo.after_of_forall_not_mem (b := Proc.devRef .tc main_arg12) _ _ (by not_written_by hostOps6)
    _ = W19 m ρ c (Proc.devRef .tc main_arg12) := W20_of_ne m ρ c main_arg12 (by decide)
    _ = W18 m ρ c (Proc.devRef .tc main_arg12) := StableHlo.after_of_forall_not_mem (b := Proc.devRef .tc main_arg12) _ _ (by not_written_by hostOps5)
    _ = W17 m ρ c (Proc.devRef .tc main_arg12) := W18_of_ne m ρ c main_arg12 (by decide)
    _ = W16 m ρ c (Proc.devRef .tc main_arg12) := StableHlo.after_of_forall_not_mem (b := Proc.devRef .tc main_arg12) _ _ (by not_written_by hostOps4)
    _ = W15 m ρ c (Proc.devRef .tc main_arg12) := W16_of_ne m ρ c main_arg12 (by decide)
    _ = W14 m ρ c (Proc.devRef .tc main_arg12) := StableHlo.after_of_forall_not_mem (b := Proc.devRef .tc main_arg12) _ _ (by not_written_by hostOps3)
    _ = W13 m ρ c (Proc.devRef .tc main_arg12) := W14_of_ne m ρ c main_arg12 (by decide)
    _ = W12 m ρ c (Proc.devRef .tc main_arg12) := StableHlo.after_of_forall_not_mem (b := Proc.devRef .tc main_arg12) _ _ (by not_written_by hostOps2)
    _ = W11 m ρ c (Proc.devRef .tc main_arg12) := W12_of_ne m ρ c main_arg12 (by decide)
    _ = W10 m ρ c (Proc.devRef .tc main_arg12) := StableHlo.after_of_forall_not_mem (b := Proc.devRef .tc main_arg12) _ _ (by not_written_by hostOps1)
    _ = W9 m ρ c (Proc.devRef .tc main_arg12) := W10_of_ne m ρ c main_arg12 (by decide)
    _ = W8 m ρ c (Proc.devRef .tc main_arg12) := StableHlo.after_of_forall_not_mem (b := Proc.devRef .tc main_arg12) _ _ (by not_written_by hostOps0_8)
    _ = W7 m ρ c (Proc.devRef .tc main_arg12) := StableHlo.after_of_forall_not_mem (b := Proc.devRef .tc main_arg12) _ _ (by not_written_by hostOps0_7)
    _ = W6 m ρ c (Proc.devRef .tc main_arg12) := StableHlo.after_of_forall_not_mem (b := Proc.devRef .tc main_arg12) _ _ (by not_written_by hostOps0_6)
    _ = W5 m ρ c (Proc.devRef .tc main_arg12) := StableHlo.after_of_forall_not_mem (b := Proc.devRef .tc main_arg12) _ _ (by not_written_by hostOps0_5)
    _ = W4 m ρ c (Proc.devRef .tc main_arg12) := StableHlo.after_of_forall_not_mem (b := Proc.devRef .tc main_arg12) _ _ (by not_written_by hostOps0_4)
    _ = W3 m ρ c (Proc.devRef .tc main_arg12) := StableHlo.after_of_forall_not_mem (b := Proc.devRef .tc main_arg12) _ _ (by not_written_by hostOps0_3)
    _ = W2 m ρ c (Proc.devRef .tc main_arg12) := StableHlo.after_of_forall_not_mem (b := Proc.devRef .tc main_arg12) _ _ (by not_written_by hostOps0_2)
    _ = W1 m ρ c (Proc.devRef .tc main_arg12) := StableHlo.after_of_forall_not_mem (b := Proc.devRef .tc main_arg12) _ _ (by not_written_by hostOps0_1)
    _ = W0 m ρ c (Proc.devRef .tc main_arg12) := StableHlo.after_of_forall_not_mem (b := Proc.devRef .tc main_arg12) _ _ (by not_written_by hostOps0)
    _ = m ((c : Thread nD τ).loc main_arg12) := rfl

/-- The argument array is as launched at boundary 22. -/
theorem arg13_at22 (c : Dev nD) : W22 m ρ c (Proc.devRef .tc main_arg13) = m ((c : Thread nD τ).loc main_arg13) :=
  calc W22 m ρ c (Proc.devRef .tc main_arg13)
    _ = W21 m ρ c (Proc.devRef .tc main_arg13) := W22_of_ne m ρ c main_arg13 (by decide)
    _ = W20 m ρ c (Proc.devRef .tc main_arg13) := StableHlo.after_of_forall_not_mem (b := Proc.devRef .tc main_arg13) _ _ (by not_written_by hostOps6)
    _ = W19 m ρ c (Proc.devRef .tc main_arg13) := W20_of_ne m ρ c main_arg13 (by decide)
    _ = W18 m ρ c (Proc.devRef .tc main_arg13) := StableHlo.after_of_forall_not_mem (b := Proc.devRef .tc main_arg13) _ _ (by not_written_by hostOps5)
    _ = W17 m ρ c (Proc.devRef .tc main_arg13) := W18_of_ne m ρ c main_arg13 (by decide)
    _ = W16 m ρ c (Proc.devRef .tc main_arg13) := StableHlo.after_of_forall_not_mem (b := Proc.devRef .tc main_arg13) _ _ (by not_written_by hostOps4)
    _ = W15 m ρ c (Proc.devRef .tc main_arg13) := W16_of_ne m ρ c main_arg13 (by decide)
    _ = W14 m ρ c (Proc.devRef .tc main_arg13) := StableHlo.after_of_forall_not_mem (b := Proc.devRef .tc main_arg13) _ _ (by not_written_by hostOps3)
    _ = W13 m ρ c (Proc.devRef .tc main_arg13) := W14_of_ne m ρ c main_arg13 (by decide)
    _ = W12 m ρ c (Proc.devRef .tc main_arg13) := StableHlo.after_of_forall_not_mem (b := Proc.devRef .tc main_arg13) _ _ (by not_written_by hostOps2)
    _ = W11 m ρ c (Proc.devRef .tc main_arg13) := W12_of_ne m ρ c main_arg13 (by decide)
    _ = W10 m ρ c (Proc.devRef .tc main_arg13) := StableHlo.after_of_forall_not_mem (b := Proc.devRef .tc main_arg13) _ _ (by not_written_by hostOps1)
    _ = W9 m ρ c (Proc.devRef .tc main_arg13) := W10_of_ne m ρ c main_arg13 (by decide)
    _ = W8 m ρ c (Proc.devRef .tc main_arg13) := StableHlo.after_of_forall_not_mem (b := Proc.devRef .tc main_arg13) _ _ (by not_written_by hostOps0_8)
    _ = W7 m ρ c (Proc.devRef .tc main_arg13) := StableHlo.after_of_forall_not_mem (b := Proc.devRef .tc main_arg13) _ _ (by not_written_by hostOps0_7)
    _ = W6 m ρ c (Proc.devRef .tc main_arg13) := StableHlo.after_of_forall_not_mem (b := Proc.devRef .tc main_arg13) _ _ (by not_written_by hostOps0_6)
    _ = W5 m ρ c (Proc.devRef .tc main_arg13) := StableHlo.after_of_forall_not_mem (b := Proc.devRef .tc main_arg13) _ _ (by not_written_by hostOps0_5)
    _ = W4 m ρ c (Proc.devRef .tc main_arg13) := StableHlo.after_of_forall_not_mem (b := Proc.devRef .tc main_arg13) _ _ (by not_written_by hostOps0_4)
    _ = W3 m ρ c (Proc.devRef .tc main_arg13) := StableHlo.after_of_forall_not_mem (b := Proc.devRef .tc main_arg13) _ _ (by not_written_by hostOps0_3)
    _ = W2 m ρ c (Proc.devRef .tc main_arg13) := StableHlo.after_of_forall_not_mem (b := Proc.devRef .tc main_arg13) _ _ (by not_written_by hostOps0_2)
    _ = W1 m ρ c (Proc.devRef .tc main_arg13) := StableHlo.after_of_forall_not_mem (b := Proc.devRef .tc main_arg13) _ _ (by not_written_by hostOps0_1)
    _ = W0 m ρ c (Proc.devRef .tc main_arg13) := StableHlo.after_of_forall_not_mem (b := Proc.devRef .tc main_arg13) _ _ (by not_written_by hostOps0)
    _ = m ((c : Thread nD τ).loc main_arg13) := rfl

/-- The argument array is as launched at boundary 23. -/
theorem arg9_at23 (c : Dev nD) : W23 m ρ c (Proc.devRef .tc main_arg9) = m ((c : Thread nD τ).loc main_arg9) :=
  calc W23 m ρ c (Proc.devRef .tc main_arg9)
    _ = W22 m ρ c (Proc.devRef .tc main_arg9) := StableHlo.after_of_forall_not_mem (b := Proc.devRef .tc main_arg9) _ _ (by not_written_by hostOps7)
    _ = W21 m ρ c (Proc.devRef .tc main_arg9) := W22_of_ne m ρ c main_arg9 (by decide)
    _ = W20 m ρ c (Proc.devRef .tc main_arg9) := StableHlo.after_of_forall_not_mem (b := Proc.devRef .tc main_arg9) _ _ (by not_written_by hostOps6)
    _ = W19 m ρ c (Proc.devRef .tc main_arg9) := W20_of_ne m ρ c main_arg9 (by decide)
    _ = W18 m ρ c (Proc.devRef .tc main_arg9) := StableHlo.after_of_forall_not_mem (b := Proc.devRef .tc main_arg9) _ _ (by not_written_by hostOps5)
    _ = W17 m ρ c (Proc.devRef .tc main_arg9) := W18_of_ne m ρ c main_arg9 (by decide)
    _ = W16 m ρ c (Proc.devRef .tc main_arg9) := StableHlo.after_of_forall_not_mem (b := Proc.devRef .tc main_arg9) _ _ (by not_written_by hostOps4)
    _ = W15 m ρ c (Proc.devRef .tc main_arg9) := W16_of_ne m ρ c main_arg9 (by decide)
    _ = W14 m ρ c (Proc.devRef .tc main_arg9) := StableHlo.after_of_forall_not_mem (b := Proc.devRef .tc main_arg9) _ _ (by not_written_by hostOps3)
    _ = W13 m ρ c (Proc.devRef .tc main_arg9) := W14_of_ne m ρ c main_arg9 (by decide)
    _ = W12 m ρ c (Proc.devRef .tc main_arg9) := StableHlo.after_of_forall_not_mem (b := Proc.devRef .tc main_arg9) _ _ (by not_written_by hostOps2)
    _ = W11 m ρ c (Proc.devRef .tc main_arg9) := W12_of_ne m ρ c main_arg9 (by decide)
    _ = W10 m ρ c (Proc.devRef .tc main_arg9) := StableHlo.after_of_forall_not_mem (b := Proc.devRef .tc main_arg9) _ _ (by not_written_by hostOps1)
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (by not_written_by hostOps0_8)
    _ = W7 m ρ c (Proc.devRef .tc main_arg9) := StableHlo.after_of_forall_not_mem (b := Proc.devRef .tc main_arg9) _ _ (by not_written_by hostOps0_7)
    _ = W6 m ρ c (Proc.devRef .tc main_arg9) := StableHlo.after_of_forall_not_mem (b := Proc.devRef .tc main_arg9) _ _ (by not_written_by hostOps0_6)
    _ = W5 m ρ c (Proc.devRef .tc main_arg9) := StableHlo.after_of_forall_not_mem (b := Proc.devRef .tc main_arg9) _ _ (by not_written_by hostOps0_5)
    _ = W4 m ρ c (Proc.devRef .tc main_arg9) := StableHlo.after_of_forall_not_mem (b := Proc.devRef .tc main_arg9) _ _ (by not_written_by hostOps0_4)
    _ = W3 m ρ c (Proc.devRef .tc main_arg9) := StableHlo.after_of_forall_not_mem (b := Proc.devRef .tc main_arg9) _ _ (by not_written_by hostOps0_3)
    _ = W2 m ρ c (Proc.devRef .tc main_arg9) := StableHlo.after_of_forall_not_mem (b := Proc.devRef .tc main_arg9) _ _ (by not_written_by hostOps0_2)
    _ = W1 m ρ c (Proc.devRef .tc main_arg9) := StableHlo.after_of_forall_not_mem (b := Proc.devRef .tc main_arg9) _ _ (by not_written_by hostOps0_1)
    _ = W0 m ρ c (Proc.devRef .tc main_arg9) := StableHlo.after_of_forall_not_mem (b := Proc.devRef .tc main_arg9) _ _ (by not_written_by hostOps0)
    _ = m ((c : Thread nD τ).loc main_arg9) := rfl

/-! ## Intermediate arrays, from where they are read back to where they were produced -/

/-- Nothing between boundaries 5 and 8 writes this buffer. -/
theorem v9_keep8 (c : Dev nD) : W8 m ρ c (Proc.devRef .tc main_v9) = W5 m ρ c (Proc.devRef .tc main_v9) :=
  calc W8 m ρ c (Proc.devRef .tc main_v9)
    _ = W7 m ρ c (Proc.devRef .tc main_v9) := StableHlo.after_of_forall_not_mem (b := Proc.devRef .tc main_v9) _ _ (by not_written_by hostOps0_7)
    _ = W6 m ρ c (Proc.devRef .tc main_v9) := StableHlo.after_of_forall_not_mem (b := Proc.devRef .tc main_v9) _ _ (by not_written_by hostOps0_6)
    _ = W5 m ρ c (Proc.devRef .tc main_v9) := StableHlo.after_of_forall_not_mem (b := Proc.devRef .tc main_v9) _ _ (by not_written_by hostOps0_5)

/-- Nothing between boundaries 5 and 16 writes this buffer. -/
theorem v9_keep16 (c : Dev nD) : W16 m ρ c (Proc.devRef .tc main_v9) = W5 m ρ c (Proc.devRef .tc main_v9) :=
  calc W16 m ρ c (Proc.devRef .tc main_v9)
    _ = W15 m ρ c (Proc.devRef .tc main_v9) := W16_of_ne m ρ c main_v9 (by decide)
    _ = W14 m ρ c (Proc.devRef .tc main_v9) := StableHlo.after_of_forall_not_mem (b := Proc.devRef .tc main_v9) _ _ (by not_written_by hostOps3)
    _ = W13 m ρ c (Proc.devRef .tc main_v9) := W14_of_ne m ρ c main_v9 (by decide)
    _ = W12 m ρ c (Proc.devRef .tc main_v9) := StableHlo.after_of_forall_not_mem (b := Proc.devRef .tc main_v9) _ _ (by not_written_by hostOps2)
    _ = W11 m ρ c (Proc.devRef .tc main_v9) := W12_of_ne m ρ c main_v9 (by decide)
    _ = W10 m ρ c (Proc.devRef .tc main_v9) := StableHlo.after_of_forall_not_mem (b := Proc.devRef .tc main_v9) _ _ (by not_written_by hostOps1)
    _ = W9 m ρ c (Proc.devRef .tc main_v9) := W10_of_ne m ρ c main_v9 (by decide)
    _ = W8 m ρ c (Proc.devRef .tc main_v9) := StableHlo.after_of_forall_not_mem (b := Proc.devRef .tc main_v9) _ _ (by not_written_by hostOps0_8)
    _ = W7 m ρ c (Proc.devRef .tc main_v9) := StableHlo.after_of_forall_not_mem (b := Proc.devRef .tc main_v9) _ _ (by not_written_by hostOps0_7)
    _ = W6 m ρ c (Proc.devRef .tc main_v9) := StableHlo.after_of_forall_not_mem (b := Proc.devRef .tc main_v9) _ _ (by not_written_by hostOps0_6)
    _ = W5 m ρ c (Proc.devRef .tc main_v9) := StableHlo.after_of_forall_not_mem (b := Proc.devRef .tc main_v9) _ _ (by not_written_by hostOps0_5)

/-- Nothing between boundaries 5 and 10 writes this buffer. -/
theorem v10_keep10 (c : Dev nD) : W10 m ρ c (Proc.devRef .tc main_v10) = W5 m ρ c (Proc.devRef .tc main_v10) :=
  calc W10 m ρ c (Proc.devRef .tc main_v10)
    _ = W9 m ρ c (Proc.devRef .tc main_v10) := W10_of_ne m ρ c main_v10 (by decide)
    _ = W8 m ρ c (Proc.devRef .tc main_v10) := StableHlo.after_of_forall_not_mem (b := Proc.devRef .tc main_v10) _ _ (by not_written_by hostOps0_8)
    _ = W7 m ρ c (Proc.devRef .tc main_v10) := StableHlo.after_of_forall_not_mem (b := Proc.devRef .tc main_v10) _ _ (by not_written_by hostOps0_7)
    _ = W6 m ρ c (Proc.devRef .tc main_v10) := StableHlo.after_of_forall_not_mem (b := Proc.devRef .tc main_v10) _ _ (by not_written_by hostOps0_6)
    _ = W5 m ρ c (Proc.devRef .tc main_v10) := StableHlo.after_of_forall_not_mem (b := Proc.devRef .tc main_v10) _ _ (by not_written_by hostOps0_5)

/-- Nothing between boundaries 5 and 18 writes this buffer. -/
theorem v10_keep18 (c : Dev nD) : W18 m ρ c (Proc.devRef .tc main_v10) = W5 m ρ c (Proc.devRef .tc main_v10) :=
  calc W18 m ρ c (Proc.devRef .tc main_v10)
    _ = W17 m ρ c (Proc.devRef .tc main_v10) := W18_of_ne m ρ c main_v10 (by decide)
    _ = W16 m ρ c (Proc.devRef .tc main_v10) := StableHlo.after_of_forall_not_mem (b := Proc.devRef .tc main_v10) _ _ (by not_written_by hostOps4)
    _ = W15 m ρ c (Proc.devRef .tc main_v10) := W16_of_ne m ρ c main_v10 (by decide)
    _ = W14 m ρ c (Proc.devRef .tc main_v10) := StableHlo.after_of_forall_not_mem (b := Proc.devRef .tc main_v10) _ _ (by not_written_by hostOps3)
    _ = W13 m ρ c (Proc.devRef .tc main_v10) := W14_of_ne m ρ c main_v10 (by decide)
    _ = W12 m ρ c (Proc.devRef .tc main_v10) := StableHlo.after_of_forall_not_mem (b := Proc.devRef .tc main_v10) _ _ (by not_written_by hostOps2)
    _ = W11 m ρ c (Proc.devRef .tc main_v10) := W12_of_ne m ρ c main_v10 (by decide)
    _ = W10 m ρ c (Proc.devRef .tc main_v10) := StableHlo.after_of_forall_not_mem (b := Proc.devRef .tc main_v10) _ _ (by not_written_by hostOps1)
    _ = W9 m ρ c (Proc.devRef .tc main_v10) := W10_of_ne m ρ c main_v10 (by decide)
    _ = W8 m ρ c (Proc.devRef .tc main_v10) := StableHlo.after_of_forall_not_mem (b := Proc.devRef .tc main_v10) _ _ (by not_written_by hostOps0_8)
    _ = W7 m ρ c (Proc.devRef .tc main_v10) := StableHlo.after_of_forall_not_mem (b := Proc.devRef .tc main_v10) _ _ (by not_written_by hostOps0_7)
    _ = W6 m ρ c (Proc.devRef .tc main_v10) := StableHlo.after_of_forall_not_mem (b := Proc.devRef .tc main_v10) _ _ (by not_written_by hostOps0_6)
    _ = W5 m ρ c (Proc.devRef .tc main_v10) := StableHlo.after_of_forall_not_mem (b := Proc.devRef .tc main_v10) _ _ (by not_written_by hostOps0_5)

/-- Nothing between boundaries 9 and 12 writes this buffer. -/
theorem v20_keep12 (c : Dev nD) : W12 m ρ c (Proc.devRef .tc main_v20) = W9 m ρ c (Proc.devRef .tc main_v20) :=
  calc W12 m ρ c (Proc.devRef .tc main_v20)
    _ = W11 m ρ c (Proc.devRef .tc main_v20) := W12_of_ne m ρ c main_v20 (by decide)
    _ = W10 m ρ c (Proc.devRef .tc main_v20) := StableHlo.after_of_forall_not_mem (b := Proc.devRef .tc main_v20) _ _ (by not_written_by hostOps1)
    _ = W9 m ρ c (Proc.devRef .tc main_v20) := W10_of_ne m ρ c main_v20 (by decide)

/-- Nothing between boundaries 9 and 20 writes this buffer. -/
theorem v20_keep20 (c : Dev nD) : W20 m ρ c (Proc.devRef .tc main_v20) = W9 m ρ c (Proc.devRef .tc main_v20) :=
  calc W20 m ρ c (Proc.devRef .tc main_v20)
    _ = W19 m ρ c (Proc.devRef .tc main_v20) := W20_of_ne m ρ c main_v20 (by decide)
    _ = W18 m ρ c (Proc.devRef .tc main_v20) := StableHlo.after_of_forall_not_mem (b := Proc.devRef .tc main_v20) _ _ (by not_written_by hostOps5)
    _ = W17 m ρ c (Proc.devRef .tc main_v20) := W18_of_ne m ρ c main_v20 (by decide)
    _ = W16 m ρ c (Proc.devRef .tc main_v20) := StableHlo.after_of_forall_not_mem (b := Proc.devRef .tc main_v20) _ _ (by not_written_by hostOps4)
    _ = W15 m ρ c (Proc.devRef .tc main_v20) := W16_of_ne m ρ c main_v20 (by decide)
    _ = W14 m ρ c (Proc.devRef .tc main_v20) := StableHlo.after_of_forall_not_mem (b := Proc.devRef .tc main_v20) _ _ (by not_written_by hostOps3)
    _ = W13 m ρ c (Proc.devRef .tc main_v20) := W14_of_ne m ρ c main_v20 (by decide)
    _ = W12 m ρ c (Proc.devRef .tc main_v20) := StableHlo.after_of_forall_not_mem (b := Proc.devRef .tc main_v20) _ _ (by not_written_by hostOps2)
    _ = W11 m ρ c (Proc.devRef .tc main_v20) := W12_of_ne m ρ c main_v20 (by decide)
    _ = W10 m ρ c (Proc.devRef .tc main_v20) := StableHlo.after_of_forall_not_mem (b := Proc.devRef .tc main_v20) _ _ (by not_written_by hostOps1)
    _ = W9 m ρ c (Proc.devRef .tc main_v20) := W10_of_ne m ρ c main_v20 (by decide)

/-- Nothing between boundaries 9 and 14 writes this buffer. -/
theorem v21_keep14 (c : Dev nD) : W14 m ρ c (Proc.devRef .tc main_v21) = W9 m ρ c (Proc.devRef .tc main_v21) :=
  calc W14 m ρ c (Proc.devRef .tc main_v21)
    _ = W13 m ρ c (Proc.devRef .tc main_v21) := W14_of_ne m ρ c main_v21 (by decide)
    _ = W12 m ρ c (Proc.devRef .tc main_v21) := StableHlo.after_of_forall_not_mem (b := Proc.devRef .tc main_v21) _ _ (by not_written_by hostOps2)
    _ = W11 m ρ c (Proc.devRef .tc main_v21) := W12_of_ne m ρ c main_v21 (by decide)
    _ = W10 m ρ c (Proc.devRef .tc main_v21) := StableHlo.after_of_forall_not_mem (b := Proc.devRef .tc main_v21) _ _ (by not_written_by hostOps1)
    _ = W9 m ρ c (Proc.devRef .tc main_v21) := W10_of_ne m ρ c main_v21 (by decide)

/-- Nothing between boundaries 9 and 22 writes this buffer. -/
theorem v21_keep22 (c : Dev nD) : W22 m ρ c (Proc.devRef .tc main_v21) = W9 m ρ c (Proc.devRef .tc main_v21) :=
  calc W22 m ρ c (Proc.devRef .tc main_v21)
    _ = W21 m ρ c (Proc.devRef .tc main_v21) := W22_of_ne m ρ c main_v21 (by decide)
    _ = W20 m ρ c (Proc.devRef .tc main_v21) := StableHlo.after_of_forall_not_mem (b := Proc.devRef .tc main_v21) _ _ (by not_written_by hostOps6)
    _ = W19 m ρ c (Proc.devRef .tc main_v21) := W20_of_ne m ρ c main_v21 (by decide)
    _ = W18 m ρ c (Proc.devRef .tc main_v21) := StableHlo.after_of_forall_not_mem (b := Proc.devRef .tc main_v21) _ _ (by not_written_by hostOps5)
    _ = W17 m ρ c (Proc.devRef .tc main_v21) := W18_of_ne m ρ c main_v21 (by decide)
    _ = W16 m ρ c (Proc.devRef .tc main_v21) := StableHlo.after_of_forall_not_mem (b := Proc.devRef .tc main_v21) _ _ (by not_written_by hostOps4)
    _ = W15 m ρ c (Proc.devRef .tc main_v21) := W16_of_ne m ρ c main_v21 (by decide)
    _ = W14 m ρ c (Proc.devRef .tc main_v21) := StableHlo.after_of_forall_not_mem (b := Proc.devRef .tc main_v21) _ _ (by not_written_by hostOps3)
    _ = W13 m ρ c (Proc.devRef .tc main_v21) := W14_of_ne m ρ c main_v21 (by decide)
    _ = W12 m ρ c (Proc.devRef .tc main_v21) := StableHlo.after_of_forall_not_mem (b := Proc.devRef .tc main_v21) _ _ (by not_written_by hostOps2)
    _ = W11 m ρ c (Proc.devRef .tc main_v21) := W12_of_ne m ρ c main_v21 (by decide)
    _ = W10 m ρ c (Proc.devRef .tc main_v21) := StableHlo.after_of_forall_not_mem (b := Proc.devRef .tc main_v21) _ _ (by not_written_by hostOps1)
    _ = W9 m ρ c (Proc.devRef .tc main_v21) := W10_of_ne m ρ c main_v21 (by decide)

/-- Nothing between boundaries 12 and 21 writes this buffer. -/
theorem v35_keep21 (c : Dev nD) : W21 m ρ c (Proc.devRef .tc main_v35) = W12 m ρ c (Proc.devRef .tc main_v35) :=
  calc W21 m ρ c (Proc.devRef .tc main_v35)
    _ = W20 m ρ c (Proc.devRef .tc main_v35) := StableHlo.after_of_forall_not_mem (b := Proc.devRef .tc main_v35) _ _ (by not_written_by hostOps6)
    _ = W19 m ρ c (Proc.devRef .tc main_v35) := W20_of_ne m ρ c main_v35 (by decide)
    _ = W18 m ρ c (Proc.devRef .tc main_v35) := StableHlo.after_of_forall_not_mem (b := Proc.devRef .tc main_v35) _ _ (by not_written_by hostOps5)
    _ = W17 m ρ c (Proc.devRef .tc main_v35) := W18_of_ne m ρ c main_v35 (by decide)
    _ = W16 m ρ c (Proc.devRef .tc main_v35) := StableHlo.after_of_forall_not_mem (b := Proc.devRef .tc main_v35) _ _ (by not_written_by hostOps4)
    _ = W15 m ρ c (Proc.devRef .tc main_v35) := W16_of_ne m ρ c main_v35 (by decide)
    _ = W14 m ρ c (Proc.devRef .tc main_v35) := StableHlo.after_of_forall_not_mem (b := Proc.devRef .tc main_v35) _ _ (by not_written_by hostOps3)
    _ = W13 m ρ c (Proc.devRef .tc main_v35) := W14_of_ne m ρ c main_v35 (by decide)
    _ = W12 m ρ c (Proc.devRef .tc main_v35) := StableHlo.after_of_forall_not_mem (b := Proc.devRef .tc main_v35) _ _ (by not_written_by hostOps2)

/-- Nothing between boundaries 16 and 17 writes this buffer. -/
theorem v49_keep17 (c : Dev nD) : W17 m ρ c (Proc.devRef .tc main_v49) = W16 m ρ c (Proc.devRef .tc main_v49) :=
  calc W17 m ρ c (Proc.devRef .tc main_v49)
    _ = W16 m ρ c (Proc.devRef .tc main_v49) := StableHlo.after_of_forall_not_mem (b := Proc.devRef .tc main_v49) _ _ (by not_written_by hostOps4)

/-- Nothing between boundaries 20 and 24 writes this buffer. -/
theorem v63_keep24 (c : Dev nD) : W24 m ρ c (Proc.devRef .tc main_v63) = W20 m ρ c (Proc.devRef .tc main_v63) :=
  calc W24 m ρ c (Proc.devRef .tc main_v63)
    _ = W23 m ρ c (Proc.devRef .tc main_v63) := W24_of_ne m ρ c main_v63 (by decide)
    _ = W22 m ρ c (Proc.devRef .tc main_v63) := StableHlo.after_of_forall_not_mem (b := Proc.devRef .tc main_v63) _ _ (by not_written_by hostOps7)
    _ = W21 m ρ c (Proc.devRef .tc main_v63) := W22_of_ne m ρ c main_v63 (by decide)
    _ = W20 m ρ c (Proc.devRef .tc main_v63) := StableHlo.after_of_forall_not_mem (b := Proc.devRef .tc main_v63) _ _ (by not_written_by hostOps6)

end Cert.KernelIdeal.Fold

end
-- ==== Proof.Conv.lean ====
/-
  The vocabulary both sides of the certificate are stated in.

  One graph convolution takes node features X (one row per source node), a weight matrix W, a bias b and an edge list
  (src, dst) of 600000 index words, and returns one row per destination node:

      out(i, c) = max( Σ_{e : dst e = i}  (X·W)(σ e, c) · rs_s(σ e) · rs_d(i)  +  b(c),  0 )

  where σ e is the row the (normalised, clamped) word src e addresses, and rs_s / rs_d are the inverse square roots of the
  clipped out-degrees and in-degrees, themselves accumulating scatters of ones over the same edge lists.

  The two programs group this product differently.  The kernel scales row p of X·W by rs_s(p) BEFORE the rows are
  gathered (mmScale), sums the gathered rows per destination, and multiplies the SUM by rs_d(i) while adding the bias
  (biasRelu).  The reference gathers the plain rows of X·W, multiplies every gathered row by rs_s(σ e)·rs_d(δ e), with δ e
  the row the normalised word dst e addresses, and sums those.  Here both are written down as whole-array functions of
  the same operands, for the two directions the network uses (50000 source rows into 200000 destination rows, "LC", and
  the converse, "CL").
-/
import proofs.«147064_j29274497089997_2_alg».proof.Proof.Gen.KernelIdeal
import proofs.«147064_j29274497089997_2_alg».proof.Proof.Gen.ReferenceIdeal
import Idealize.ShloMosaic.Lib.ValueIdx

noncomputable section

namespace Cert.Conv

open Idealize.ShloMosaic Idealize.ShloMosaic.ValueIdx Cert.ReferenceIdeal Cert.ReferenceIdeal.Facts₀

/-! ## The kernel's two fused stages, as whole-array functions -/

/-- Row p of X·W scaled by s(p): entry (p, q) is (Σ_k X(p,k)·W(k,q)) · s(p,0).  50000 rows. -/
def mmScale50k (X : FVec Ideal ⟨2, ![50000, 128]⟩ .f32) (W : FVec Ideal ⟨2, ![128, 128]⟩ .f32)
    (s : FVec Ideal ⟨2, ![50000, 1]⟩ .f32) : FVec Ideal ⟨2, ![50000, 128]⟩ .f32 :=
  fun j => (∑ k : Fin 128, X (ix2 (j 0) k) * W (ix2 k (j 1))) * s (ix2 (j 0) 0)

/-- Row p of X·W scaled by s(p): entry (p, q) is (Σ_k X(p,k)·W(k,q)) · s(p,0).  200000 rows. -/
def mmScale200k (X : FVec Ideal ⟨2, ![200000, 128]⟩ .f32) (W : FVec Ideal ⟨2, ![128, 128]⟩ .f32)
    (s : FVec Ideal ⟨2, ![200000, 1]⟩ .f32) : FVec Ideal ⟨2, ![200000, 128]⟩ .f32 :=
  fun j => (∑ k : Fin 128, X (ix2 (j 0) k) * W (ix2 k (j 1))) * s (ix2 (j 0) 0)

/-- Entry (p, q) is max(A(p,q)·s(p,0) + b(q), 0).  50000 rows. -/
def biasRelu50k (A : FVec Ideal ⟨2, ![50000, 128]⟩ .f32) (b : FVec Ideal ⟨1, ![128]⟩ .f32)
    (s : FVec Ideal ⟨2, ![50000, 1]⟩ .f32) : FVec Ideal ⟨2, ![50000, 128]⟩ .f32 :=
  fun j => max (A j * s (ix2 (j 0) 0) + b (ix1 (j 1))) 0

/-- Entry (p, q) is max(A(p,q)·s(p,0) + b(q), 0).  200000 rows. -/
def biasRelu200k (A : FVec Ideal ⟨2, ![200000, 128]⟩ .f32) (b : FVec Ideal ⟨1, ![128]⟩ .f32)
    (s : FVec Ideal ⟨2, ![200000, 1]⟩ .f32) : FVec Ideal ⟨2, ![200000, 128]⟩ .f32 :=
  fun j => max (A j * s (ix2 (j 0) 0) + b (ix1 (j 1))) 0

/-! ## Index words -/

/-- An edge list's index words kept as a column. -/
def col (v : IVec S600000 32) : IVec S600000x1 32 := broadcastInDim S600000x1 ![0] bcast_S600000_S600000x1_0 v

/-- A word below zero (signed) moved up by the number of rows, 50000; any other word unchanged. -/
def nrm50k (v : IVec S600000 32) : IVec S600000 32 :=
  select (cmpi .slt v (broadcastInDim S600000 ![] bcast_S_S600000 (constantI S_ 32 0#32)))
    (addi v (broadcastInDim S600000 ![] bcast_S_S600000 (constantI S_ 32 50000#32))) v

/-- A word below zero (signed) moved up by the number of rows, 200000; any other word unchanged. -/
def nrm200k (v : IVec S600000 32) : IVec S600000 32 :=
  select (cmpi .slt v (broadcastInDim S600000 ![] bcast_S_S600000 (constantI S_ 32 0#32)))
    (addi v (broadcastInDim S600000 ![] bcast_S_S600000 (constantI S_ 32 200000#32))) v

/-! ## Inverse square roots of the clipped degrees -/

/-- rsqrt(max(1, number of edges whose word is the node)), one entry per node; 50000 nodes. -/
def rs50k (idx : IVec S600000 32) : FVec Ideal S50000 .f32 :=
  Host.rsqrt (F := Ideal) (maximumf (broadcastInDim S50000 ![] bcast_S_S50000 (id (constant (F := Ideal) S_ .f32 0x3F800000#32)))
    (Host.scatterAdd (F := Ideal) scatter_S50000_S600000x1_S600000_n_0_0_1
      (broadcastInDim S50000 ![] bcast_S_S50000 (constant (F := Ideal) S_ .f32 0x00000000#32)) (col idx)
      (broadcastInDim S600000 ![] bcast_S_S600000 (constant (F := Ideal) S_ .f32 0x3F800000#32))))

/-- rsqrt(max(1, number of edges whose word is the node)), one entry per node; 200000 nodes. -/
def rs200k (idx : IVec S600000 32) : FVec Ideal S200000 .f32 :=
  Host.rsqrt (F := Ideal) (maximumf (broadcastInDim S200000 ![] bcast_S_S200000 (id (constant (F := Ideal) S_ .f32 0x3F800000#32)))
    (Host.scatterAdd (F := Ideal) scatter_S200000_S600000x1_S600000_n_0_0_1
      (broadcastInDim S200000 ![] bcast_S_S200000 (constant (F := Ideal) S_ .f32 0x00000000#32)) (col idx)
      (broadcastInDim S600000 ![] bcast_S_S600000 (constant (F := Ideal) S_ .f32 0x3F800000#32))))

/-! ## One convolution, the reference's grouping -/

/-- 50000 source rows into 200000 destination rows. -/
def refConvLC (X : FVec Ideal S50000x128 .f32) (W : FVec Ideal S128x128 .f32) (b : FVec Ideal S128 .f32)
    (src dst : IVec S600000 32) : FVec Ideal S200000x128 .f32 :=
  maximumf (addf
      (Host.scatterAdd (F := Ideal) scatter_S200000x128_S600000x1_S600000x128_1_0_0_1
        (broadcastInDim S200000x128 ![] bcast_S_S200000x128 (constant (F := Ideal) S_ .f32 0x00000000#32)) (col dst)
        (mulf
          (Host.gather gather_S50000x128_S600000x1_S600000x128_1_0_n_n_0_1_1128
            (Host.dotGeneral (F := Ideal) dot_S50000x128_S128x128_S50000x128_1_0_0_1_n_n none X W) (col (nrm50k src)))
          (broadcastInDim S600000x128 ![0, 1] bcast_S600000x1_S600000x128_0_1
            (broadcastInDim S600000x1 ![0] bcast_S600000_S600000x1_0
              (mulf (Host.gather gather_S50000_S600000x1_S600000_n_0_n_n_0_1_1 (rs50k src) (col (nrm50k src)))
                (Host.gather gather_S200000_S600000x1_S600000_n_0_n_n_0_1_1 (rs200k dst) (col (nrm200k dst))))))))
      (broadcastInDim S200000x128 ![0, 1] bcast_S1x128_S200000x128_0_1 (broadcastInDim S1x128 ![1] bcast_S128_S1x128_1 b)))
    (broadcastInDim S200000x128 ![] bcast_S_S200000x128 (constant (F := Ideal) S_ .f32 0x00000000#32))

/-- 200000 source rows into 50000 destination rows. -/
def refConvCL (X : FVec Ideal S200000x128 .f32) (W : FVec Ideal S128x128 .f32) (b : FVec Ideal S128 .f32)
    (src dst : IVec S600000 32) : FVec Ideal S50000x128 .f32 :=
  maximumf (addf
      (Host.scatterAdd (F := Ideal) scatter_S50000x128_S600000x1_S600000x128_1_0_0_1
        (broadcastInDim S50000x128 ![] bcast_S_S50000x128 (constant (F := Ideal) S_ .f32 0x00000000#32)) (col dst)
        (mulf
          (Host.gather gather_S200000x128_S600000x1_S600000x128_1_0_n_n_0_1_1128
            (Host.dotGeneral (F := Ideal) dot_S200000x128_S128x128_S200000x128_1_0_0_1_n_n none X W) (col (nrm200k src)))
          (broadcastInDim S600000x128 ![0, 1] bcast_S600000x1_S600000x128_0_1
            (broadcastInDim S600000x1 ![0] bcast_S600000_S600000x1_0
              (mulf (Host.gather gather_S200000_S600000x1_S600000_n_0_n_n_0_1_1 (rs200k src) (col (nrm200k src)))
                (Host.gather gather_S50000_S600000x1_S600000_n_0_n_n_0_1_1 (rs50k dst) (col (nrm50k dst))))))))
      (broadcastInDim S50000x128 ![0, 1] bcast_S1x128_S50000x128_0_1 (broadcastInDim S1x128 ![1] bcast_S128_S1x128_1 b)))
    (broadcastInDim S50000x128 ![] bcast_S_S50000x128 (constant (F := Ideal) S_ .f32 0x00000000#32))

/-! ## One convolution, the kernel's grouping -/

/-- 50000 source rows into 200000 destination rows. -/
def kerConvLC (X : FVec Ideal S50000x128 .f32) (W : FVec Ideal S128x128 .f32) (b : FVec Ideal S128 .f32)
    (src dst : IVec S600000 32) : FVec Ideal S200000x128 .f32 :=
  biasRelu200k
    (Host.scatterAdd (F := Ideal) scatter_S200000x128_S600000x1_S600000x128_1_0_0_1
      (broadcastInDim S200000x128 ![] bcast_S_S200000x128 (constant (F := Ideal) S_ .f32 0x00000000#32)) (col dst)
      (Host.gather gather_S50000x128_S600000x1_S600000x128_1_0_n_n_0_1_1128
        (mmScale50k X W (shapeCast Cert.KernelIdeal.S50000x1 (rs50k src) Cert.KernelIdeal.Facts₀.shapeCasts_S50000_S50000x1))
        (col (nrm50k src))))
    b (shapeCast Cert.KernelIdeal.S200000x1 (rs200k dst) Cert.KernelIdeal.Facts₀.shapeCasts_S200000_S200000x1)

/-- 200000 source rows into 50000 destination rows. -/
def kerConvCL (X : FVec Ideal S200000x128 .f32) (W : FVec Ideal S128x128 .f32) (b : FVec Ideal S128 .f32)
    (src dst : IVec S600000 32) : FVec Ideal S50000x128 .f32 :=
  biasRelu50k
    (Host.scatterAdd (F := Ideal) scatter_S50000x128_S600000x1_S600000x128_1_0_0_1
      (broadcastInDim S50000x128 ![] bcast_S_S50000x128 (constant (F := Ideal) S_ .f32 0x00000000#32)) (col dst)
      (Host.gather gather_S200000x128_S600000x1_S600000x128_1_0_n_n_0_1_1128
        (mmScale200k X W (shapeCast Cert.KernelIdeal.S200000x1 (rs200k src) Cert.KernelIdeal.Facts₀.shapeCasts_S200000_S200000x1))
        (col (nrm200k src))))
    b (shapeCast Cert.KernelIdeal.S50000x1 (rs50k dst) Cert.KernelIdeal.Facts₀.shapeCasts_S50000_S50000x1)

end Cert.Conv

end
-- ==== Proof.KFoldPre.lean ====
/-
  The four degree factors, read off the kernel program's opening stretches.

  Before its first launch @main counts, for each of the four index lists, how many edges name each node (an accumulating
  scatter of ones into zeros), clips the count below at one (a call of the clip function: the larger of the broadcast
  constant 1 and the count), and takes the inverse square root.  The stretches are read one at a time, each over the
  contents the previous one leaves; the clip calls are read once over arbitrary entry contents.  The results are the
  vectors rs50k / rs200k of the argument lists, the very terms the reference forms.
-/
import proofs.«147064_j29274497089997_2_alg».proof.Proof.KFoldKeep
import proofs.«147064_j29274497089997_2_alg».proof.Proof.Conv

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Cert.Conv

variable (m : (ℓ : Loc nD τ sig) → Buf (Elt Ideal) ℓ) (ρ : Dev nD → PrngReg)

/-! ## What else the opening stretches leave alone -/

/-- Nothing between boundaries 2 and 4 writes the first clipped count. -/
theorem v4_keep4 (c : Dev nD) : W4 m ρ c (Proc.devRef .tc main_v4) = W2 m ρ c (Proc.devRef .tc main_v4) :=
  calc W4 m ρ c (Proc.devRef .tc main_v4)
    _ = W3 m ρ c (Proc.devRef .tc main_v4) := StableHlo.after_of_forall_not_mem (b := Proc.devRef .tc main_v4) _ _ (by not_written_by hostOps0_3)
    _ = W2 m ρ c (Proc.devRef .tc main_v4) := StableHlo.after_of_forall_not_mem (b := Proc.devRef .tc main_v4) _ _ (by not_written_by hostOps0_2)

/-- Nothing between boundaries 6 and 8 writes the third clipped count. -/
theorem v15_keep8 (c : Dev nD) : W8 m ρ c (Proc.devRef .tc main_v15) = W6 m ρ c (Proc.devRef .tc main_v15) :=
  calc W8 m ρ c (Proc.devRef .tc main_v15)
    _ = W7 m ρ c (Proc.devRef .tc main_v15) := StableHlo.after_of_forall_not_mem (b := Proc.devRef .tc main_v15) _ _ (by not_written_by hostOps0_7)
    _ = W6 m ρ c (Proc.devRef .tc main_v15) := StableHlo.after_of_forall_not_mem (b := Proc.devRef .tc main_v15) _ _ (by not_written_by hostOps0_6)

/-- The first vector of ones is still there at boundary 2. -/
theorem v0_keep2 (c : Dev nD) : W2 m ρ c (Proc.devRef .tc main_v0) = W1 m ρ c (Proc.devRef .tc main_v0) :=
  calc W2 m ρ c (Proc.devRef .tc main_v0)
    _ = W1 m ρ c (Proc.devRef .tc main_v0) := StableHlo.after_of_forall_not_mem (b := Proc.devRef .tc main_v0) _ _ (by not_written_by hostOps0_1)

/-- The second vector of ones is still there at boundary 6. -/
theorem v11_keep6 (c : Dev nD) : W6 m ρ c (Proc.devRef .tc main_v11) = W5 m ρ c (Proc.devRef .tc main_v11) :=
  calc W6 m ρ c (Proc.devRef .tc main_v11)
    _ = W5 m ρ c (Proc.devRef .tc main_v11) := StableHlo.after_of_forall_not_mem (b := Proc.devRef .tc main_v11) _ _ (by not_written_by hostOps0_5)

/-- The argument array is as launched at boundary 2. -/
theorem arg11_at2 (c : Dev nD) : W2 m ρ c (Proc.devRef .tc main_arg11) = m ((c : Thread nD τ).loc main_arg11) :=
  calc W2 m ρ c (Proc.devRef .tc main_arg11)
    _ = W1 m ρ c (Proc.devRef .tc main_arg11) := StableHlo.after_of_forall_not_mem (b := Proc.devRef .tc main_arg11) _ _ (by not_written_by hostOps0_1)
    _ = W0 m ρ c (Proc.devRef .tc main_arg11) := StableHlo.after_of_forall_not_mem (b := Proc.devRef .tc main_arg11) _ _ (by not_written_by hostOps0)
    _ = m ((c : Thread nD τ).loc main_arg11) := rfl

/-- The argument array is as launched at boundary 4. -/
theorem arg12_at4 (c : Dev nD) : W4 m ρ c (Proc.devRef .tc main_arg12) = m ((c : Thread nD τ).loc main_arg12) :=
  calc W4 m ρ c (Proc.devRef .tc main_arg12)
    _ = W3 m ρ c (Proc.devRef .tc main_arg12) := StableHlo.after_of_forall_not_mem (b := Proc.devRef .tc main_arg12) _ _ (by not_written_by hostOps0_3)
    _ = W2 m ρ c (Proc.devRef .tc main_arg12) := StableHlo.after_of_forall_not_mem (b := Proc.devRef .tc main_arg12) _ _ (by not_written_by hostOps0_2)
    _ = W1 m ρ c (Proc.devRef .tc main_arg12) := StableHlo.after_of_forall_not_mem (b := Proc.devRef .tc main_arg12) _ _ (by not_written_by hostOps0_1)
    _ = W0 m ρ c (Proc.devRef .tc main_arg12) := StableHlo.after_of_forall_not_mem (b := Proc.devRef .tc main_arg12) _ _ (by not_written_by hostOps0)
    _ = m ((c : Thread nD τ).loc main_arg12) := rfl

/-- The argument array is as launched at boundary 6. -/
theorem arg13_at6 (c : Dev nD) : W6 m ρ c (Proc.devRef .tc main_arg13) = m ((c : Thread nD τ).loc main_arg13) :=
  calc W6 m ρ c (Proc.devRef .tc main_arg13)
    _ = W5 m ρ c (Proc.devRef .tc main_arg13) := StableHlo.after_of_forall_not_mem (b := Proc.devRef .tc main_arg13) _ _ (by not_written_by hostOps0_5)
    _ = W4 m ρ c (Proc.devRef .tc main_arg13) := StableHlo.after_of_forall_not_mem (b := Proc.devRef .tc main_arg13) _ _ (by not_written_by hostOps0_4)
    _ = W3 m ρ c (Proc.devRef .tc main_arg13) := StableHlo.after_of_forall_not_mem (b := Proc.devRef .tc main_arg13) _ _ (by not_written_by hostOps0_3)
    _ = W2 m ρ c (Proc.devRef .tc main_arg13) := StableHlo.after_of_forall_not_mem (b := Proc.devRef .tc main_arg13) _ _ (by not_written_by hostOps0_2)
    _ = W1 m ρ c (Proc.devRef .tc main_arg13) := StableHlo.after_of_forall_not_mem (b := Proc.devRef .tc main_arg13) _ _ (by not_written_by hostOps0_1)
    _ = W0 m ρ c (Proc.devRef .tc main_arg13) := StableHlo.after_of_forall_not_mem (b := Proc.devRef .tc main_arg13) _ _ (by not_written_by hostOps0)
    _ = m ((c : Thread nD τ).loc main_arg13) := rfl

/-! ## The clip calls -/

/-- The clip call, over any contents at its entry: the larger of the broadcast constant and the count. -/
theorem clip0 (F : Valuation τ sig (Elt Ideal)) :
    StableHlo.after hostOps0_1 F (Proc.devRef .tc main_v4)
      = (maximumf (F := Ideal) (broadcastInDim S50000 ![] Facts₀.bcast_S_S50000 (id (F (Proc.devRef .tc main_cst_1)))) (F (Proc.devRef .tc main_v3)) : FVec Ideal S50000 .f32) := by
  simp only [hostOps0_1]
  after_results
  rfl

/-- The clip call, over any contents at its entry: the larger of the broadcast constant and the count. -/
theorem clip1 (F : Valuation τ sig (Elt Ideal)) :
    StableHlo.after hostOps0_3 F (Proc.devRef .tc main_v8)
      = (maximumf (F := Ideal) (broadcastInDim S200000 ![] Facts₀.bcast_S_S200000 (id (F (Proc.devRef .tc main_cst_3)))) (F (Proc.devRef .tc main_v7)) : FVec Ideal S200000 .f32) := by
  simp only [hostOps0_3]
  after_results
  rfl

/-- The clip call, over any contents at its entry: the larger of the broadcast constant and the count. -/
theorem clip2 (F : Valuation τ sig (Elt Ideal)) :
    StableHlo.after hostOps0_5 F (Proc.devRef .tc main_v15)
      = (maximumf (F := Ideal) (broadcastInDim S200000 ![] Facts₀.bcast_S_S200000 (id (F (Proc.devRef .tc main_cst_6)))) (F (Proc.devRef .tc main_v14)) : FVec Ideal S200000 .f32) := by
  simp only [hostOps0_5]
  after_results
  rfl

/-- The clip call, over any contents at its entry: the larger of the broadcast constant and the count. -/
theorem clip3 (F : Valuation τ sig (Elt Ideal)) :
    StableHlo.after hostOps0_7 F (Proc.devRef .tc main_v19)
      = (maximumf (F := Ideal) (broadcastInDim S50000 ![] Facts₀.bcast_S_S50000 (id (F (Proc.devRef .tc main_cst_8)))) (F (Proc.devRef .tc main_v18)) : FVec Ideal S50000 .f32) := by
  simp only [hostOps0_7]
  after_results
  rfl

/-! ## The counts, the constants and the inverse square roots: each stretch over any contents at its entry -/

/-- The constant the first clip call takes. -/
theorem rd_cst1 (F : Valuation τ sig (Elt Ideal)) :
    StableHlo.after hostOps0 F (Proc.devRef .tc main_cst_1) = (constant (F := Ideal) S_ .f32 0x3F800000#32 : FVec Ideal S_ .f32) := by
  simp only [hostOps0]
  after_results <;> rfl

/-- The first vector of ones. -/
theorem rd_v0 (F : Valuation τ sig (Elt Ideal)) :
    StableHlo.after hostOps0 F (Proc.devRef .tc main_v0) = (broadcastInDim S600000 ![] Facts₀.bcast_S_S600000 (constant (F := Ideal) S_ .f32 0x3F800000#32) : FVec Ideal S600000 .f32) := by
  simp only [hostOps0]
  after_results <;> rfl

/-- The count of the edges naming each of the 50000 nodes in the first list. -/
theorem rd_v3 (F : Valuation τ sig (Elt Ideal)) :
    StableHlo.after hostOps0 F (Proc.devRef .tc main_v3) = (Host.scatterAdd (F := Ideal) scatter_S50000_S600000x1_S600000_n_0_0_1
        (broadcastInDim S50000 ![] Facts₀.bcast_S_S50000 (constant (F := Ideal) S_ .f32 0x00000000#32))
        (broadcastInDim S600000x1 ![0] Facts₀.bcast_S600000_S600000x1_0 (F (Proc.devRef .tc main_arg10)))
        (broadcastInDim S600000 ![] Facts₀.bcast_S_S600000 (constant (F := Ideal) S_ .f32 0x3F800000#32)) : FVec Ideal S50000 .f32) := by
  simp only [hostOps0]
  after_results <;> rfl

/-- The constant the second clip call takes. -/
theorem rd_cst3 (F : Valuation τ sig (Elt Ideal)) :
    StableHlo.after hostOps0_2 F (Proc.devRef .tc main_cst_3) = (constant (F := Ideal) S_ .f32 0x3F800000#32 : FVec Ideal S_ .f32) := by
  simp only [hostOps0_2]
  after_results <;> rfl

/-- The count of the edges naming each of the 200000 nodes in the second list. -/
theorem rd_v7 (F : Valuation τ sig (Elt Ideal)) :
    StableHlo.after hostOps0_2 F (Proc.devRef .tc main_v7) = (Host.scatterAdd (F := Ideal) scatter_S200000_S600000x1_S600000_n_0_0_1
        (broadcastInDim S200000 ![] Facts₀.bcast_S_S200000 (constant (F := Ideal) S_ .f32 0x00000000#32))
        (broadcastInDim S600000x1 ![0] Facts₀.bcast_S600000_S600000x1_0 (F (Proc.devRef .tc main_arg11)))
        (F (Proc.devRef .tc main_v0)) : FVec Ideal S200000 .f32) := by
  simp only [hostOps0_2]
  after_results <;> rfl

/-- The constant the third clip call takes. -/
theorem rd_cst6 (F : Valuation τ sig (Elt Ideal)) :
    StableHlo.after hostOps0_4 F (Proc.devRef .tc main_cst_6) = (constant (F := Ideal) S_ .f32 0x3F800000#32 : FVec Ideal S_ .f32) := by
  simp only [hostOps0_4]
  after_results <;> rfl

/-- The second vector of ones. -/
theorem rd_v11 (F : Valuation τ sig (Elt Ideal)) :
    StableHlo.after hostOps0_4 F (Proc.devRef .tc main_v11) = (broadcastInDim S600000 ![] Facts₀.bcast_S_S600000 (constant (F := Ideal) S_ .f32 0x3F800000#32) : FVec Ideal S600000 .f32) := by
  simp only [hostOps0_4]
  after_results <;> rfl

/-- The count of the edges naming each of the 200000 nodes in the third list. -/
theorem rd_v14 (F : Valuation τ sig (Elt Ideal)) :
    StableHlo.after hostOps0_4 F (Proc.devRef .tc main_v14) = (Host.scatterAdd (F := Ideal) scatter_S200000_S600000x1_S600000_n_0_0_1
        (broadcastInDim S200000 ![] Facts₀.bcast_S_S200000 (constant (F := Ideal) S_ .f32 0x00000000#32))
        (broadcastInDim S600000x1 ![0] Facts₀.bcast_S600000_S600000x1_0 (F (Proc.devRef .tc main_arg12)))
        (broadcastInDim S600000 ![] Facts₀.bcast_S_S600000 (constant (F := Ideal) S_ .f32 0x3F800000#32)) : FVec Ideal S200000 .f32) := by
  simp only [hostOps0_4]
  after_results <;> rfl

/-- The constant the fourth clip call takes. -/
theorem rd_cst8 (F : Valuation τ sig (Elt Ideal)) :
    StableHlo.after hostOps0_6 F (Proc.devRef .tc main_cst_8) = (constant (F := Ideal) S_ .f32 0x3F800000#32 : FVec Ideal S_ .f32) := by
  simp only [hostOps0_6]
  after_results <;> rfl

/-- The count of the edges naming each of the 50000 nodes in the fourth list. -/
theorem rd_v18 (F : Valuation τ sig (Elt Ideal)) :
    StableHlo.after hostOps0_6 F (Proc.devRef .tc main_v18) = (Host.scatterAdd (F := Ideal) scatter_S50000_S600000x1_S600000_n_0_0_1
        (broadcastInDim S50000 ![] Facts₀.bcast_S_S50000 (constant (F := Ideal) S_ .f32 0x00000000#32))
        (broadcastInDim S600000x1 ![0] Facts₀.bcast_S600000_S600000x1_0 (F (Proc.devRef .tc main_arg13)))
        (F (Proc.devRef .tc main_v11)) : FVec Ideal S50000 .f32) := by
  simp only [hostOps0_6]
  after_results <;> rfl

/-- The first factor is the inverse square root of the first clipped count. -/
theorem rd_v9 (F : Valuation τ sig (Elt Ideal)) :
    StableHlo.after hostOps0_4 F (Proc.devRef .tc main_v9) = (Host.rsqrt (F := Ideal) (F (Proc.devRef .tc main_v4) : FVec Ideal S50000 .f32) : FVec Ideal S50000 .f32) := by
  simp only [hostOps0_4]
  after_results <;> rfl

/-- The second factor is the inverse square root of the second clipped count. -/
theorem rd_v10 (F : Valuation τ sig (Elt Ideal)) :
    StableHlo.after hostOps0_4 F (Proc.devRef .tc main_v10) = (Host.rsqrt (F := Ideal) (F (Proc.devRef .tc main_v8) : FVec Ideal S200000 .f32) : FVec Ideal S200000 .f32) := by
  simp only [hostOps0_4]
  after_results <;> rfl

/-- The third factor is the inverse square root of the third clipped count. -/
theorem rd_v20 (F : Valuation τ sig (Elt Ideal)) :
    StableHlo.after hostOps0_8 F (Proc.devRef .tc main_v20) = (Host.rsqrt (F := Ideal) (F (Proc.devRef .tc main_v15) : FVec Ideal S200000 .f32) : FVec Ideal S200000 .f32) := by
  simp only [hostOps0_8]
  after_results <;> rfl

/-- The fourth factor is the inverse square root of the fourth clipped count. -/
theorem rd_v21 (F : Valuation τ sig (Elt Ideal)) :
    StableHlo.after hostOps0_8 F (Proc.devRef .tc main_v21) = (Host.rsqrt (F := Ideal) (F (Proc.devRef .tc main_v19) : FVec Ideal S50000 .f32) : FVec Ideal S50000 .f32) := by
  simp only [hostOps0_8]
  after_results <;> rfl

/-! ## The four factors -/

/-- At the launch the buffers hold the launch memory. -/
theorem w0_arg10 (c : Dev nD) : W0 m ρ c (Proc.devRef .tc main_arg10) = m ((c : Thread nD τ).loc main_arg10) := rfl

/-- The source-side factor of the 50000-to-200000 direction: rs50k of the first index list. -/
theorem pre_v9 (c : Dev nD) : W5 m ρ c (Proc.devRef .tc main_v9) = rs50k (m ((c : Thread nD τ).loc main_arg10)) := by
  rw [show W5 m ρ c (Proc.devRef .tc main_v9) = _ from rd_v9 (W4 m ρ c), v4_keep4, show W2 m ρ c (Proc.devRef .tc main_v4) = _ from clip0 (W1 m ρ c),
    show W1 m ρ c (Proc.devRef .tc main_cst_1) = _ from rd_cst1 (W0 m ρ c), show W1 m ρ c (Proc.devRef .tc main_v3) = _ from rd_v3 (W0 m ρ c), w0_arg10]
  unfold rs50k col
  rfl

/-- The destination-side factor of the 50000-to-200000 direction: rs200k of the second index list. -/
theorem pre_v10 (c : Dev nD) : W5 m ρ c (Proc.devRef .tc main_v10) = rs200k (m ((c : Thread nD τ).loc main_arg11)) := by
  rw [show W5 m ρ c (Proc.devRef .tc main_v10) = _ from rd_v10 (W4 m ρ c), show W4 m ρ c (Proc.devRef .tc main_v8) = _ from clip1 (W3 m ρ c),
    show W3 m ρ c (Proc.devRef .tc main_cst_3) = _ from rd_cst3 (W2 m ρ c), show W3 m ρ c (Proc.devRef .tc main_v7) = _ from rd_v7 (W2 m ρ c), arg11_at2, v0_keep2,
    show W1 m ρ c (Proc.devRef .tc main_v0) = _ from rd_v0 (W0 m ρ c)]
  unfold rs200k col
  rfl

/-- The source-side factor of the 200000-to-50000 direction: rs200k of the third index list. -/
theorem pre_v20 (c : Dev nD) : W9 m ρ c (Proc.devRef .tc main_v20) = rs200k (m ((c : Thread nD τ).loc main_arg12)) := by
  rw [show W9 m ρ c (Proc.devRef .tc main_v20) = _ from rd_v20 (W8 m ρ c), v15_keep8, show W6 m ρ c (Proc.devRef .tc main_v15) = _ from clip2 (W5 m ρ c),
    show W5 m ρ c (Proc.devRef .tc main_cst_6) = _ from rd_cst6 (W4 m ρ c), show W5 m ρ c (Proc.devRef .tc main_v14) = _ from rd_v14 (W4 m ρ c), arg12_at4]
  unfold rs200k col
  rfl

/-- The destination-side factor of the 200000-to-50000 direction: rs50k of the fourth index list. -/
theorem pre_v21 (c : Dev nD) : W9 m ρ c (Proc.devRef .tc main_v21) = rs50k (m ((c : Thread nD τ).loc main_arg13)) := by
  rw [show W9 m ρ c (Proc.devRef .tc main_v21) = _ from rd_v21 (W8 m ρ c), show W8 m ρ c (Proc.devRef .tc main_v19) = _ from clip3 (W7 m ρ c),
    show W7 m ρ c (Proc.devRef .tc main_cst_8) = _ from rd_cst8 (W6 m ρ c), show W7 m ρ c (Proc.devRef .tc main_v18) = _ from rd_v18 (W6 m ρ c), arg13_at6, v11_keep6,
    show W5 m ρ c (Proc.devRef .tc main_v11) = _ from rd_v11 (W4 m ρ c)]
  unfold rs50k col
  rfl

end Cert.KernelIdeal.Fold

end
-- ==== Proof.ConvParts.lean ====
/-
  The kernel's grouping of one convolution, cut at the places where the program stores an intermediate array:
  the degree factors reshaped to columns, the gathered rows summed per destination node, and the two fused stages
  around them.  Each piece is a name for a sub-term of kerConvLC / kerConvCL; nothing is proved beyond that.
-/
import proofs.«147064_j29274497089997_2_alg».proof.Proof.Conv

noncomputable section

namespace Cert.Conv

open Idealize.ShloMosaic Idealize.ShloMosaic.ValueIdx Cert.ReferenceIdeal Cert.ReferenceIdeal.Facts₀

/-- A vector of 50000 entries as a column. -/
def asCol50k (v : FVec Ideal S50000 .f32) : FVec Ideal Cert.KernelIdeal.S50000x1 .f32 :=
  shapeCast Cert.KernelIdeal.S50000x1 v Cert.KernelIdeal.Facts₀.shapeCasts_S50000_S50000x1

/-- A vector of 200000 entries as a column. -/
def asCol200k (v : FVec Ideal S200000 .f32) : FVec Ideal Cert.KernelIdeal.S200000x1 .f32 :=
  shapeCast Cert.KernelIdeal.S200000x1 v Cert.KernelIdeal.Facts₀.shapeCasts_S200000_S200000x1

/-- Rows of a 50000-row table gathered along the edges' source words and summed into the 200000 rows the destination
    words name, from zero. -/
def gsLC (H : FVec Ideal S50000x128 .f32) (src dst : IVec S600000 32) : FVec Ideal S200000x128 .f32 :=
  Host.scatterAdd (F := Ideal) scatter_S200000x128_S600000x1_S600000x128_1_0_0_1
    (broadcastInDim S200000x128 ![] bcast_S_S200000x128 (constant (F := Ideal) S_ .f32 0x00000000#32)) (col dst)
    (Host.gather gather_S50000x128_S600000x1_S600000x128_1_0_n_n_0_1_1128 H (col (nrm50k src)))

/-- Rows of a 200000-row table gathered along the edges' source words and summed into the 50000 rows the destination
    words name, from zero. -/
def gsCL (H : FVec Ideal S200000x128 .f32) (src dst : IVec S600000 32) : FVec Ideal S50000x128 .f32 :=
  Host.scatterAdd (F := Ideal) scatter_S50000x128_S600000x1_S600000x128_1_0_0_1
    (broadcastInDim S50000x128 ![] bcast_S_S50000x128 (constant (F := Ideal) S_ .f32 0x00000000#32)) (col dst)
    (Host.gather gather_S200000x128_S600000x1_S600000x128_1_0_n_n_0_1_1128 H (col (nrm200k src)))

theorem kerConvLC_eq (X : FVec Ideal S50000x128 .f32) (W : FVec Ideal S128x128 .f32) (b : FVec Ideal S128 .f32)
    (src dst : IVec S600000 32) :
    kerConvLC X W b src dst
      = biasRelu200k (gsLC (mmScale50k X W (asCol50k (rs50k src))) src dst) b (asCol200k (rs200k dst)) := rfl

theorem kerConvCL_eq (X : FVec Ideal S200000x128 .f32) (W : FVec Ideal S128x128 .f32) (b : FVec Ideal S128 .f32)
    (src dst : IVec S600000 32) :
    kerConvCL X W b src dst
      = biasRelu50k (gsCL (mmScale200k X W (asCol200k (rs200k src))) src dst) b (asCol50k (rs50k dst)) := rfl

end Cert.Conv

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.LibKeepdimsColumn.lean ====
/-
  A column kept beside a matrix. A vector of a entries reshaped to an a×1 column reads its entry i at (i, 0); an a×1
  column broadcast along its unit axis to an a×b matrix reads, at (p, c), the column's entry p. Together they are how a
  per-row quantity (a row's maximum, a row's sum) is put back beside every entry of its row.
-/
import Idealize.ShloMosaic.Lib.ValueLayout

namespace KeepdimsColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsColumn
-- ==== Proof.DensePayload.lean ====
/-
  The dense stage's block computation, read at an entry.

  One grid point of a dense launch holds a 5000 × 128 block x of the features, the whole 128 × 128 weight matrix w and a
  5000 × 1 block s of per-row factors, and leaves in the output block, at (p, q),

      (Σ_k x(p, k) · w(k, q)) · s(p, 0).

  Over the extended reals the narrowing of both operands to half precision before the product is the identity, the
  product into a zero accumulator is the plain sum of products, a cast to the same shape is the identity, and the column
  of factors copied along the 128 lanes reads, at (p, q), the column's entry p.

  The whole-array functions mmScale50k / mmScale200k say the same of a whole array of rows; the last lemmas read them at
  an index whose two coordinates are known as numbers, which is how a block's entry is placed in its array.
-/
import proofs.«147064_j29274497089997_2_alg».proof.Proof.Gen.KernelIdeal.Skeleton
import proofs.«147064_j29274497089997_2_alg».proof.Proof.Conv
import proofs.«147064_j29274497089997_2_alg».proof.Proof.LibPlainMatmul
import proofs.«147064_j29274497089997_2_alg».proof.Proof.LibKeepdimsColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense

open Cert.KernelIdeal Cert.KernelIdeal.Gen Idealize.ShloMosaic Idealize.ShloMosaic.ValueIdx

/-- The zero offsets of a whole-block access, however they are spelt. -/
theorem hz : (![0, 0] : Fin 2 → Nat) = fun _ => 0 := funext fun a => by fin_cases a <;> rfl

/-- The printed contraction record (left axis 1 against right axis 0, no batch axis) is the plain matrix product's. -/
theorem dot_plain : dot_S5000x128_S128x128_S5000x128_1_0_0_1_n_n = DotDims.plain 5000 128 128 := rfl

/-- The block computation at (p, q): the row of x against the column of w, times the row's factor. -/
theorem pay_apply (x0 : Vec Ideal S5000x128 .f32) (x1 : Vec Ideal S128x128 .f32) (x2 : Vec Ideal S5000x1 .f32)
    (p : Fin 5000) (q : Fin 128) :
    k0_pay1 (F := Ideal) x0 x1 x2 (ix2 p q) = (∑ k : Fin 128, x0 (ix2 p k) * x1 (ix2 k q)) * x2 (ix2 p 0) := by
  unfold k0_pay1
  rw [mulf_apply]
  congr 1
  · refine (PlainMatmul.apply_zero (M := 5000) (K := 128) (N := 128)
      (truncf .bf16 x0 bitsLt_bf16_f32) (truncf .bf16 x1 bitsLt_bf16_f32) p q).trans ?_
    rfl
  · rw [shapeCast_self]
    exact KeepdimsColumn.broadcastTo_a1_ab_apply x2 broadcasts_S5000x1_S5000x128 p q

/-- The second dense launch runs the same block computation as the first. -/
theorem pay2_eq : k2_pay1 (F := Ideal) = k0_pay1 (F := Ideal) := rfl

/-- The third dense launch casts its feature block to its own shape first, which changes nothing. -/
theorem pay4_eq (x0 : Vec Ideal S5000x128 .f32) (x1 : Vec Ideal S128x128 .f32) (x2 : Vec Ideal S5000x1 .f32) :
    k4_pay1 (F := Ideal) x0 x1 x2 = k0_pay1 (F := Ideal) x0 x1 x2 := by
  unfold k4_pay1 k0_pay1
  rw [shapeCast_self]

/-- The fourth dense launch runs the same block computation as the third. -/
theorem pay6_eq : k6_pay1 (F := Ideal) = k4_pay1 (F := Ideal) := rfl

/-- The block computation IS a function G of the block index as soon as G has the product's value at every (p, q). -/
theorem pay_eq (x0 : Vec Ideal S5000x128 .f32) (x1 : Vec Ideal S128x128 .f32) (x2 : Vec Ideal S5000x1 .f32)
    (G : S5000x128.Idx → Elt Ideal .f32)
    (hG : ∀ (p : Fin 5000) (q : Fin 128), G (ix2 p q) = (∑ k : Fin 128, x0 (ix2 p k) * x1 (ix2 k q)) * x2 (ix2 p 0)) :
    k0_pay1 (F := Ideal) x0 x1 x2 = G := by
  funext y
  obtain ⟨p, q, rfl⟩ : ∃ (p : Fin 5000) (q : Fin 128), y = ix2 p q := ⟨y 0, y 1, eq_ix2 y⟩
  rw [pay_apply, hG]

/-- The 50000-row stage at an index whose row and column are known as numbers. -/
theorem mmScale50k_at (X : FVec Ideal S50000x128 .f32) (W : FVec Ideal S128x128 .f32) (s : FVec Ideal S50000x1 .f32)
    (j : S50000x128.Idx) (r : Fin 50000) (q : Fin 128) (h0 : (j 0).val = r.val) (h1 : (j 1).val = q.val) :
    Cert.Conv.mmScale50k X W s j = (∑ k : Fin 128, X (ix2 r k) * W (ix2 k q)) * s (ix2 r 0) := by
  obtain rfl : j = ix2 r q := funext fun a => Fin.ext (by
    match a with
    | ⟨0, _⟩ => exact h0
    | ⟨1, _⟩ => exact h1)
  rfl

/-- The 200000-row stage at an index whose row and column are known as numbers. -/
theorem mmScale200k_at (X : FVec Ideal S200000x128 .f32) (W : FVec Ideal S128x128 .f32) (s : FVec Ideal S200000x1 .f32)
    (j : S200000x128.Idx) (r : Fin 200000) (q : Fin 128) (h0 : (j 0).val = r.val) (h1 : (j 1).val = q.val) :
    Cert.Conv.mmScale200k X W s j = (∑ k : Fin 128, X (ix2 r k) * W (ix2 k q)) * s (ix2 r 0) := by
  obtain rfl : j = ix2 r q := funext fun a => Fin.ext (by
    match a with
    | ⟨0, _⟩ => exact h0
    | ⟨1, _⟩ => exact h1)
  rfl

/-- One grid point's block computation is its block of the 50000-row stage: if the point's feature block is rows
    5000·n … of X, its weight block is W and its factor block is rows 5000·n … of s, then the entry at block index y is
    the stage's entry at the array index j that y names (row 5000·n + y's row, y's column). -/
theorem block50k (X : FVec Ideal S50000x128 .f32) (W : FVec Ideal S128x128 .f32) (s : FVec Ideal S50000x1 .f32)
    (n : ℕ) (hn : n < 10)
    (x0 : Vec Ideal S5000x128 .f32) (x1 : Vec Ideal S128x128 .f32) (x2 : Vec Ideal S5000x1 .f32)
    (h0 : ∀ (p : Fin 5000) (k : Fin 128),
      x0 (ix2 p k) = X (ix2 (⟨n * 5000 + p.val, by have := p.isLt; omega⟩ : Fin 50000) k))
    (h1 : x1 = W)
    (h2 : ∀ p : Fin 5000,
      x2 (ix2 p (0 : Fin 1)) = s (ix2 (⟨n * 5000 + p.val, by have := p.isLt; omega⟩ : Fin 50000) (0 : Fin 1)))
    (y : S5000x128.Idx) (j : S50000x128.Idx)
    (hj0 : (j 0).val = n * 5000 + (y 0).val) (hj1 : (j 1).val = (y 1).val) :
    k0_pay1 (F := Ideal) x0 x1 x2 y = Cert.Conv.mmScale50k X W s j := by
  obtain ⟨p, q, rfl⟩ : ∃ (p : Fin 5000) (q : Fin 128), y = ix2 p q := ⟨y 0, y 1, eq_ix2 y⟩
  rw [pay_apply, mmScale50k_at X W s j ⟨n * 5000 + p.val, by have := p.isLt; omega⟩ q hj0 hj1, h1, h2]
  congr 1
  exact Finset.sum_congr rfl fun k _ => by rw [h0]

/-- One grid point's block computation is its block of the 200000-row stage: if the point's feature block is rows
    5000·n … of X, its weight block is W and its factor block is rows 5000·n … of s, then the entry at block index y is
    the stage's entry at the array index j that y names (row 5000·n + y's row, y's column). -/
theorem block200k (X : FVec Ideal S200000x128 .f32) (W : FVec Ideal S128x128 .f32) (s : FVec Ideal S200000x1 .f32)
    (n : ℕ) (hn : n < 40)
    (x0 : Vec Ideal S5000x128 .f32) (x1 : Vec Ideal S128x128 .f32) (x2 : Vec Ideal S5000x1 .f32)
    (h0 : ∀ (p : Fin 5000) (k : Fin 128),
      x0 (ix2 p k) = X (ix2 (⟨n * 5000 + p.val, by have := p.isLt; omega⟩ : Fin 200000) k))
    (h1 : x1 = W)
    (h2 : ∀ p : Fin 5000,
      x2 (ix2 p (0 : Fin 1)) = s (ix2 (⟨n * 5000 + p.val, by have := p.isLt; omega⟩ : Fin 200000) (0 : Fin 1)))
    (y : S5000x128.Idx) (j : S200000x128.Idx)
    (hj0 : (j 0).val = n * 5000 + (y 0).val) (hj1 : (j 1).val = (y 1).val) :
    k0_pay1 (F := Ideal) x0 x1 x2 y = Cert.Conv.mmScale200k X W s j := by
  obtain ⟨p, q, rfl⟩ : ∃ (p : Fin 5000) (q : Fin 128), y = ix2 p q := ⟨y 0, y 1, eq_ix2 y⟩
  rw [pay_apply, mmScale200k_at X W s j ⟨n * 5000 + p.val, by have := p.isLt; omega⟩ q hj0 hj1, h1, h2]
  congr 1
  exact Finset.sum_congr rfl fun k _ => by rw [h0]

end Cert.KernelIdeal.Dense

end
-- ==== Proof.Region0.lean ====
/-
  Launch 0 (the dense stage with the source-side factor, 50000 rows in blocks of 5000): the output array after the launch, as one function of the three operand arrays as the launch finds them.

  Grid point t reads rows 5000·t … 5000·t + 4999 of the features and of the column of factors, and the whole weight
  matrix, and writes rows 5000·t … 5000·t + 4999 of the output. So what it writes back is its block of the whole-array
  function (Σ_k x(p,k)·w(k,q))·s(p,0), and the 10 blocks cover the 50000 rows: row r lies in block r / 5000.
-/
import proofs.«147064_j29274497089997_2_alg».proof.Proof.Gen.KernelIdeal.Frame
import proofs.«147064_j29274497089997_2_alg».proof.Proof.Conv
import proofs.«147064_j29274497089997_2_alg».proof.Proof.DensePayload
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Closed

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: the features', the factors' and the output's block at point t is block (t, 0);
    the weights' is always block (0, 0). -/
theorem blockIdx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature block at point t is rows 5000·t … of the feature array. -/
theorem feat0_apply (c : Dev nD) (t : Fin cfg0.N) (ht : t.val < 10) (p : Fin 5000) (k : Fin 128) :
    (iblk0 V c 0 t : Vec Ideal S5000x128 .f32) (ix2 p k)
      = (V c main_arg0 : S50000x128.Idx → Elt Ideal .f32) (ix2 (⟨t.val * 5000 + p.val, by have := p.isLt; omega⟩ : Fin 50000) k) := by
  obtain ⟨e0, e1, -⟩ := blockIdx0 t
  unfold iblk0
  rw [View.read_apply]
  show V c main_arg0 _ = V c main_arg0 _
  congr 1
  funext a
  apply Fin.ext
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The weight block at every point is the whole weight matrix. -/
theorem wts0_eq (c : Dev nD) (t : Fin cfg0.N) :
    (iblk0 V c 1 t : Vec Ideal S128x128 .f32) = (V c main_arg2 : S128x128.Idx → Elt Ideal .f32) := by
  obtain ⟨-, -, e0, e1, -⟩ := blockIdx0 t
  funext x
  unfold iblk0
  rw [View.read_apply]
  show V c main_arg2 _ = V c main_arg2 _
  congr 1
  funext a
  apply Fin.ext
  match a with
  | ⟨0, _⟩ => show win0_1.index t (0 : Fin 2) * 128 + 1 * (x 0).val = (x 0).val; rw [e0]; omega
  | ⟨1, _⟩ => show win0_1.index t (1 : Fin 2) * 128 + 1 * (x 1).val = (x 1).val; rw [e1]; omega

/-- The factor block at point t is rows 5000·t … of the column of factors. -/
theorem fac0_apply (c : Dev nD) (t : Fin cfg0.N) (ht : t.val < 10) (p : Fin 5000) :
    (iblk0 V c 2 t : Vec Ideal S5000x1 .f32) (ix2 p (0 : Fin 1))
      = (V c main_v22 : S50000x1.Idx → Elt Ideal .f32) (ix2 (⟨t.val * 5000 + p.val, by have := p.isLt; omega⟩ : Fin 50000) (0 : Fin 1)) := by
  obtain ⟨-, -, -, -, e0, e1, -⟩ := blockIdx0 t
  unfold iblk0
  rw [View.read_apply]
  show V c main_v22 _ = V c main_v22 _
  congr 1
  funext a
  apply Fin.ext
  match a with
  | ⟨0, _⟩ => show win0_2.index t (0 : Fin 2) * 5000 + 1 * p.val = t.val * 5000 + p.val; rw [e0]; omega
  | ⟨1, _⟩ => show win0_2.index t (1 : Fin 2) * 1 + 1 * 0 = 0; rw [e1]

/-- What point t writes back is block t of the whole-array stage of the operand arrays as the launch finds them. -/
theorem flushed0_eq (c : Dev nD) (t : Fin cfg0.N) :
    (dat0 (F := Ideal) V c).flushed 3 t = ((cfg0.win 3).blk t).view.read (Elt Ideal)
      (Cert.Conv.mmScale50k (V c main_arg0) (V c main_arg2) (V c main_v22)) := by
  have ht : t.val < 10 := lt_of_lt_of_eq t.isLt N_0
  obtain ⟨-, -, -, -, -, -, e0, e1⟩ := blockIdx0 t
  show (cfg0.win 3).cut (grid0.coords t) ((dat0 (F := Ideal) V c).after 3 t) = _
  rw [after0_3]
  unfold out0_3
  rw [View.canon_unit_zero Dense.hz]
  simp only [View.ld_unit_zero (S := S5000x128) Dense.hz, View.ld_unit_zero (S := S128x128) Dense.hz,
    View.ld_unit_zero (S := S5000x1) Dense.hz]
  funext y
  show k0_pay1 (F := Ideal) (iblk0 V c 0 t) (iblk0 V c 1 t) (iblk0 V c 2 t) y
    = Cert.Conv.mmScale50k (V c main_arg0) (V c main_arg2) (V c main_v22) (((cfg0.win 3).blk t).view.emb y)
  refine Dense.block50k (V c main_arg0) (V c main_arg2) (V c main_v22) t.val ht _ _ _
    (fun p k => feat0_apply V c t ht p k) (wts0_eq V c t) (fun p => fac0_apply V c t ht p) y _ ?_ ?_
  · show win0_3.index t (0 : Fin 2) * 5000 + 1 * (y 0).val = t.val * 5000 + (y 0).val
    rw [e0]; omega
  · show win0_3.index t (1 : Fin 2) * 128 + 1 * (y 1).val = (y 1).val
    rw [e1]; omega

/-- An index of the output array is in point t's block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v23).slice (win0_3.rect t)).set ↔ _
  rw [View.set_slice_whole, Rect.mem_set_unit]
  exact Iff.rfl

/-- Every index of the output array is in the block of the point its row, divided by 5000, names. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hlt : (i 0).val / 5000 < cfg0.N := lt_of_lt_of_eq (show (i 0).val / 5000 < 10 by omega) N_0.symm
  obtain ⟨-, -, -, -, -, -, e0, e1⟩ := blockIdx0 ⟨(i 0).val / 5000, hlt⟩
  have e0' : win0_3.index ⟨(i 0).val / 5000, hlt⟩ (0 : Fin 2) = (i 0).val / 5000 := e0
  refine ⟨⟨(i 0).val / 5000, hlt⟩, flush0_3 _, ?_⟩
  rw [mem_blk0]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    rw [e0']; omega
  | ⟨1, _⟩ =>
    show win0_3.index ⟨(i 0).val / 5000, hlt⟩ (1 : Fin 2) * 128 ≤ (i 1).val
      ∧ (i 1).val < win0_3.index ⟨(i 0).val / 5000, hlt⟩ (1 : Fin 2) * 128 + 128
    rw [e1]; omega

/-- After launch 0 its output array holds, at (p, q), (Σ_k x(p,k)·w(k,q)) · s(p,0) of the arrays it was entered with. -/
theorem arr0 (c : Dev nD) :
    (dat0 (F := Ideal) V c).arrAt 3 cfg0.N = Cert.Conv.mmScale50k (V c main_arg0) (V c main_arg2) (V c main_v22) :=
  (dat0 (F := Ideal) V c).arrAt_eq_of_cover 3 _ (fun t _ => flushed0_eq V c t) cover0

end Cert.KernelIdeal.Closed

end
-- ==== Proof.RectifierPayload.lean ====
/-
  The arithmetic the four rectifier launches share, read entry by entry.

  Each of these launches works on a block of 5000 rows of 128 entries: it multiplies row p of the block by the one
  entry of a 5000 × 1 column that belongs to that row, adds a vector of 128 entries to every row, and replaces whatever
  is negative by zero.  Entry (p, q) of the result therefore depends on entry (p, q) of the block, entry (p, 0) of the
  column and entry q of the vector only:

      result(p, q) = max( block(p, q) · column(p, 0) + vector(q), 0 ).

  The casts to the same shape change nothing, the column is copied along its unit axis, and the vector is first given a
  leading unit axis and then copied over the 5000 rows.
-/
import proofs.«147064_j29274497089997_2_alg».proof.Proof.Gen.KernelIdeal.Skeleton
import proofs.«147064_j29274497089997_2_alg».proof.Proof.LibKeepdimsColumn
import proofs.«147064_j29274497089997_2_alg».proof.Proof.Conv
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Closed

open Cert.KernelIdeal Cert.KernelIdeal.Gen Idealize.ShloMosaic Idealize.ShloMosaic.ValueIdx

/-- The four launches run one and the same arithmetic. -/
theorem rectifier_same3 : k3_pay1 (F := Ideal) = k1_pay1 (F := Ideal) := rfl
theorem rectifier_same5 : k5_pay1 (F := Ideal) = k1_pay1 (F := Ideal) := rfl
theorem rectifier_same7 : k7_pay1 (F := Ideal) = k1_pay1 (F := Ideal) := rfl

/-- Entry (p, q) of the block the body stores: the block's entry scaled by its row's factor, plus the vector's entry
    q, cut off below at zero. -/
theorem rectifier_at (v0 : Vec Ideal S5000x128 .f32) (v2 : Vec Ideal S5000x1 .f32) (v6 : Vec Ideal S128 .f32)
    (p : Fin 5000) (q : Fin 128) :
    k1_pay1 v0 v2 v6 (ix2 p q) = max (v0 (ix2 p q) * v2 (ix2 p 0) + v6 (ix1 q)) 0 := by
  unfold k1_pay1
  rw [maximumf_apply, addf_apply, mulf_apply, broadcast_apply, shapeCast_self, shapeCast_self,
    KeepdimsColumn.broadcastTo_a1_ab_apply, broadcastTo_1b_ab_apply, shapeCast_a_1a_apply]
  show max _ (Ideal.ofBits .f32 0x00000000#32) = _
  rw [Ideal.ofBits_zero_f32]

/-! ## A block's entry as an entry of the whole array

  The launches cut the rows into blocks of 5000.  If entry (p, q) of the loaded block is entry i of the whole array, the
  loaded column's entry (p, 0) is the whole column's entry for the row of i, and the loaded vector is the whole vector,
  then the stored entry (p, q) is the whole-array function's entry i.  One statement per number of rows. -/

/-- 200000 rows. -/
theorem rectifier_entry200k (A : FVec Ideal S200000x128 .f32) (b : FVec Ideal S128 .f32) (s : FVec Ideal S200000x1 .f32)
    (x0 : Vec Ideal S5000x128 .f32) (x1 : Vec Ideal S128 .f32) (x2 : Vec Ideal S5000x1 .f32)
    (p : Fin 5000) (q : Fin 128) (i : S200000x128.Idx)
    (h0 : x0 (ix2 p q) = A i) (h1 : x1 (ix1 q) = b (ix1 (i 1))) (h2 : x2 (ix2 p 0) = s (ix2 (i 0) 0)) :
    k1_pay1 x0 x2 x1 (ix2 p q) = Cert.Conv.biasRelu200k A b s i := by
  rw [rectifier_at, h0, h1, h2]
  rfl

/-- 50000 rows. -/
theorem rectifier_entry50k (A : FVec Ideal S50000x128 .f32) (b : FVec Ideal S128 .f32) (s : FVec Ideal S50000x1 .f32)
    (x0 : Vec Ideal S5000x128 .f32) (x1 : Vec Ideal S128 .f32) (x2 : Vec Ideal S5000x1 .f32)
    (p : Fin 5000) (q : Fin 128) (i : S50000x128.Idx)
    (h0 : x0 (ix2 p q) = A i) (h1 : x1 (ix1 q) = b (ix1 (i 1))) (h2 : x2 (ix2 p 0) = s (ix2 (i 0) 0)) :
    k1_pay1 x0 x2 x1 (ix2 p q) = Cert.Conv.biasRelu50k A b s i := by
  rw [rectifier_at, h0, h1, h2]
  rfl

/-! ## Zero offsets, however they are spelt -/

theorem zeroOffsets2 : (![0, 0] : Fin 2 → Nat) = fun _ => 0 := funext fun a => by fin_cases a <;> rfl
theorem zeroOffsets1 : (![0] : Fin 1 → Nat) = fun _ => 0 := funext fun a => by fin_cases a; rfl

end Cert.KernelIdeal.Closed

end
-- ==== Proof.Region1.lean ====
/-
  Launch 1 (destination-side factor, bias and rectifier, 200000 rows in blocks of 5000): the output array after the launch, as one function of the three operand arrays as the launch finds them.

  Grid point t works on rows 5000·t … 5000·t + 4999: it is handed those rows of the summed features and of the column of
  row factors, and the whole bias vector, and writes its result back to the same rows of the output.  The 40 points
  together write every row once, so the output ends as the one function max(a(p,q)·s(p,0) + b(q), 0) of the three arrays.
-/
import proofs.«147064_j29274497089997_2_alg».proof.Proof.Gen.KernelIdeal.Frame
import proofs.«147064_j29274497089997_2_alg».proof.Proof.Conv
import proofs.«147064_j29274497089997_2_alg».proof.Proof.RectifierPayload
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Closed

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Which block each window shows at grid point t: block t of the rows for the summed features, the column of factors
    and the output; the bias vector whole. -/
theorem blockIndex1 : ∀ t : Fin cfg1.N,
    win1_0.index t (0 : Fin 2) = t.val ∧ win1_0.index t (1 : Fin 2) = 0
    ∧ win1_1.index t (0 : Fin 1) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The block of summed features at point t is rows 5000·t … of the array. -/
theorem aggBlock1 (c : Dev nD) (t : Fin cfg1.N) (x : S5000x128.Idx) (k : S200000x128.Idx)
    (hk0 : (k 0).val = t.val * 5000 + (x 0).val) (hk1 : (k 1).val = (x 1).val) :
    (iblk1 (F := Ideal) V c 0 t : Vec Ideal S5000x128 .f32) x = (V c main_v33 : S200000x128.Idx → EReal) k := by
  obtain ⟨e0, e1, -⟩ := blockIndex1 t
  unfold iblk1
  rw [View.read_apply]
  show V c main_v33 _ = V c main_v33 _
  congr 1
  funext a
  apply Fin.ext
  match a with
  | ⟨0, _⟩ => show win1_0.index t (0 : Fin 2) * 5000 + 1 * (x 0).val = (k 0).val; rw [e0, hk0]; omega
  | ⟨1, _⟩ => show win1_0.index t (1 : Fin 2) * 128 + 1 * (x 1).val = (k 1).val; rw [e1, hk1]; omega

/-- The bias window shows the whole vector at every point. -/
theorem biasBlock1 (c : Dev nD) (t : Fin cfg1.N) (x : S128.Idx) (k : S128.Idx) (hk : (k 0).val = (x 0).val) :
    (iblk1 (F := Ideal) V c 1 t : Vec Ideal S128 .f32) x = (V c main_arg3 : S128.Idx → EReal) k := by
  obtain ⟨-, -, e, -⟩ := blockIndex1 t
  unfold iblk1
  rw [View.read_apply]
  show V c main_arg3 _ = V c main_arg3 _
  congr 1
  funext a
  apply Fin.ext
  match a with
  | ⟨0, _⟩ => show win1_1.index t (0 : Fin 1) * 128 + 1 * (x 0).val = (k 0).val; rw [e, hk]; omega

/-- The block of row factors at point t is rows 5000·t … of the column. -/
theorem scaleBlock1 (c : Dev nD) (t : Fin cfg1.N) (x : S5000x1.Idx) (k : S200000x1.Idx)
    (hk0 : (k 0).val = t.val * 5000 + (x 0).val) (hk1 : (k 1).val = (x 1).val) :
    (iblk1 (F := Ideal) V c 2 t : Vec Ideal S5000x1 .f32) x = (V c main_v34 : S200000x1.Idx → EReal) k := by
  obtain ⟨-, -, -, e0, e1, -⟩ := blockIndex1 t
  unfold iblk1
  rw [View.read_apply]
  show V c main_v34 _ = V c main_v34 _
  congr 1
  funext a
  apply Fin.ext
  match a with
  | ⟨0, _⟩ => show win1_2.index t (0 : Fin 2) * 5000 + 1 * (x 0).val = (k 0).val; rw [e0, hk0]; omega
  | ⟨1, _⟩ => show win1_2.index t (1 : Fin 2) * 1 + 1 * (x 1).val = (k 1).val; rw [e1, hk1]; omega

/-- What point t writes back is block t of the whole-array function. -/
theorem flushed1 (c : Dev nD) (t : Fin cfg1.N) :
    (dat1 (F := Ideal) V c).flushed 3 t
      = ((cfg1.win 3).blk t).view.read (Elt Ideal) (Cert.Conv.biasRelu200k (V c main_v33) (V c main_arg3) (V c main_v34)) := by
  show (cfg1.win 3).cut (grid1.coords t) ((dat1 V c).after 3 t) = _
  rw [after1_3]
  unfold out1_3
  rw [View.canon_unit_zero zeroOffsets2]
  simp only [View.ld_unit_zero (S := S5000x128) zeroOffsets2, View.ld_unit_zero (S := S5000x1) zeroOffsets2,
    View.ld_unit_zero (S := S128) zeroOffsets1]
  obtain ⟨-, -, -, -, -, e0, e1⟩ := blockIndex1 t
  funext y
  obtain ⟨p, q, rfl⟩ : ∃ (p : Fin 5000) (q : Fin 128), y = ix2 p q := ⟨y 0, y 1, eq_ix2 y⟩
  have hp : p.val < 5000 := p.isLt
  have c0 : ((((cfg1.win 3).blk t).view.emb (ix2 p q)) 0).val = t.val * 5000 + p.val := by
    show win1_3.index t (0 : Fin 2) * 5000 + 1 * p.val = _; rw [e0]; omega
  have c1 : ((((cfg1.win 3).blk t).view.emb (ix2 p q)) 1).val = q.val := by
    show win1_3.index t (1 : Fin 2) * 128 + 1 * q.val = _; rw [e1]; omega
  show k1_pay1 (iblk1 V c 0 t) (iblk1 V c 2 t) (iblk1 V c 1 t) (ix2 p q)
    = Cert.Conv.biasRelu200k (V c main_v33) (V c main_arg3) (V c main_v34) (((cfg1.win 3).blk t).view.emb (ix2 p q))
  refine rectifier_entry200k _ _ _ _ _ _ p q _ ?_ ?_ ?_
  · exact aggBlock1 V c t (ix2 p q) _ c0 c1
  · exact biasBlock1 V c t (ix1 q) _ c1
  · exact scaleBlock1 V c t (ix2 p 0) _ c0 rfl

/-- An index of the array is in point t's block iff each coordinate is in the block's range on its axis. -/
theorem memBlock1 (t : Fin cfg1.N) (i : S200000x128.Idx) :
    i ∈ ((cfg1.win 3).blk t).view.set
      ↔ ∀ a : Fin 2, win1_3.index t a * S5000x128.size a ≤ (i a).val
          ∧ (i a).val < win1_3.index t a * S5000x128.size a + S5000x128.size a := by
  show i ∈ ((View.whole main_v35).slice (win1_3.rect t)).set ↔ _
  rw [View.set_slice_whole, Rect.mem_set_unit]
  exact Iff.rfl

/-- Every row lies in the block of exactly the point numbered by the row divided by 5000. -/
theorem covered1 (i : S200000x128.Idx) :
    ∃ t : Fin cfg1.N, (cfg1.win 3).flush t = true ∧ i ∈ ((cfg1.win 3).blk t).view.set := by
  have hi0 : (i 0).val < 200000 := (i 0).isLt
  have hi1 : (i 1).val < 128 := (i 1).isLt
  have hN : cfg1.N = 40 := N_1
  let t : Fin cfg1.N := ⟨(i 0).val / 5000, by rw [hN]; omega⟩
  have ht : t.val = (i 0).val / 5000 := rfl
  obtain ⟨-, -, -, -, -, e0, e1⟩ := blockIndex1 t
  refine ⟨t, flush1_3 t, ?_⟩
  rw [memBlock1]
  intro a
  match a with
  | ⟨0, _⟩ =>
    show win1_3.index t (0 : Fin 2) * 5000 ≤ (i 0).val ∧ (i 0).val < win1_3.index t (0 : Fin 2) * 5000 + 5000
    rw [e0, ht]; omega
  | ⟨1, _⟩ =>
    show win1_3.index t (1 : Fin 2) * 128 ≤ (i 1).val ∧ (i 1).val < win1_3.index t (1 : Fin 2) * 128 + 128
    rw [e1]; omega

/-- After launch 1 its output array holds, at (p, q), max(a(p,q)·s(p,0) + b(q), 0) of the arrays it was entered with. -/
theorem arr1 (c : Dev nD) :
    (dat1 (F := Ideal) V c).arrAt 3 cfg1.N = Cert.Conv.biasRelu200k (V c main_v33) (V c main_arg3) (V c main_v34) :=
  (dat1 (F := Ideal) V c).arrAt_eq_of_cover 3 _ (fun t _ => flushed1 V c t) (covered1)

end Cert.KernelIdeal.Closed

end
-- ==== Proof.Region2.lean ====
/-
  Launch 2 (the dense stage with the source-side factor, 200000 rows in blocks of 5000): the output array after the launch, as one function of the three operand arrays as the launch finds them.

  Grid point t reads rows 5000·t … 5000·t + 4999 of the features and of the column of factors, and the whole weight
  matrix, and writes rows 5000·t … 5000·t + 4999 of the output. So what it writes back is its block of the whole-array
  function (Σ_k x(p,k)·w(k,q))·s(p,0), and the 40 blocks cover the 200000 rows: row r lies in block r / 5000.
-/
import proofs.«147064_j29274497089997_2_alg».proof.Proof.Gen.KernelIdeal.Frame
import proofs.«147064_j29274497089997_2_alg».proof.Proof.Conv
import proofs.«147064_j29274497089997_2_alg».proof.Proof.DensePayload
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Closed

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: the features', the factors' and the output's block at point t is block (t, 0);
    the weights' is always block (0, 0). -/
theorem blockIdx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The feature block at point t is rows 5000·t … of the feature array. -/
theorem feat2_apply (c : Dev nD) (t : Fin cfg2.N) (ht : t.val < 40) (p : Fin 5000) (k : Fin 128) :
    (iblk2 V c 0 t : Vec Ideal S5000x128 .f32) (ix2 p k)
      = (V c main_arg1 : S200000x128.Idx → Elt Ideal .f32) (ix2 (⟨t.val * 5000 + p.val, by have := p.isLt; omega⟩ : Fin 200000) k) := by
  obtain ⟨e0, e1, -⟩ := blockIdx2 t
  unfold iblk2
  rw [View.read_apply]
  show V c main_arg1 _ = V c main_arg1 _
  congr 1
  funext a
  apply Fin.ext
  match a with
  | ⟨0, _⟩ => show win2_0.index t (0 : Fin 2) * 5000 + 1 * p.val = t.val * 5000 + p.val; rw [e0]; omega
  | ⟨1, _⟩ => show win2_0.index t (1 : Fin 2) * 128 + 1 * k.val = k.val; rw [e1]; omega

/-- The weight block at every point is the whole weight matrix. -/
theorem wts2_eq (c : Dev nD) (t : Fin cfg2.N) :
    (iblk2 V c 1 t : Vec Ideal S128x128 .f32) = (V c main_arg4 : S128x128.Idx → Elt Ideal .f32) := by
  obtain ⟨-, -, e0, e1, -⟩ := blockIdx2 t
  funext x
  unfold iblk2
  rw [View.read_apply]
  show V c main_arg4 _ = V c main_arg4 _
  congr 1
  funext a
  apply Fin.ext
  match a with
  | ⟨0, _⟩ => show win2_1.index t (0 : Fin 2) * 128 + 1 * (x 0).val = (x 0).val; rw [e0]; omega
  | ⟨1, _⟩ => show win2_1.index t (1 : Fin 2) * 128 + 1 * (x 1).val = (x 1).val; rw [e1]; omega

/-- The factor block at point t is rows 5000·t … of the column of factors. -/
theorem fac2_apply (c : Dev nD) (t : Fin cfg2.N) (ht : t.val < 40) (p : Fin 5000) :
    (iblk2 V c 2 t : Vec Ideal S5000x1 .f32) (ix2 p (0 : Fin 1))
      = (V c main_v36 : S200000x1.Idx → Elt Ideal .f32) (ix2 (⟨t.val * 5000 + p.val, by have := p.isLt; omega⟩ : Fin 200000) (0 : Fin 1)) := by
  obtain ⟨-, -, -, -, e0, e1, -⟩ := blockIdx2 t
  unfold iblk2
  rw [View.read_apply]
  show V c main_v36 _ = V c main_v36 _
  congr 1
  funext a
  apply Fin.ext
  match a with
  | ⟨0, _⟩ => show win2_2.index t (0 : Fin 2) * 5000 + 1 * p.val = t.val * 5000 + p.val; rw [e0]; omega
  | ⟨1, _⟩ => show win2_2.index t (1 : Fin 2) * 1 + 1 * 0 = 0; rw [e1]

/-- What point t writes back is block t of the whole-array stage of the operand arrays as the launch finds them. -/
theorem flushed2_eq (c : Dev nD) (t : Fin cfg2.N) :
    (dat2 (F := Ideal) V c).flushed 3 t = ((cfg2.win 3).blk t).view.read (Elt Ideal)
      (Cert.Conv.mmScale200k (V c main_arg1) (V c main_arg4) (V c main_v36)) := by
  have ht : t.val < 40 := lt_of_lt_of_eq t.isLt N_2
  obtain ⟨-, -, -, -, -, -, e0, e1⟩ := blockIdx2 t
  show (cfg2.win 3).cut (grid2.coords t) ((dat2 (F := Ideal) V c).after 3 t) = _
  rw [after2_3]
  unfold out2_3
  rw [View.canon_unit_zero Dense.hz]
  simp only [View.ld_unit_zero (S := S5000x128) Dense.hz, View.ld_unit_zero (S := S128x128) Dense.hz,
    View.ld_unit_zero (S := S5000x1) Dense.hz]
  funext y
  show k2_pay1 (F := Ideal) (iblk2 V c 0 t) (iblk2 V c 1 t) (iblk2 V c 2 t) y
    = Cert.Conv.mmScale200k (V c main_arg1) (V c main_arg4) (V c main_v36) (((cfg2.win 3).blk t).view.emb y)
  rw [Dense.pay2_eq]
  refine Dense.block200k (V c main_arg1) (V c main_arg4) (V c main_v36) t.val ht _ _ _
    (fun p k => feat2_apply V c t ht p k) (wts2_eq V c t) (fun p => fac2_apply V c t ht p) y _ ?_ ?_
  · show win2_3.index t (0 : Fin 2) * 5000 + 1 * (y 0).val = t.val * 5000 + (y 0).val
    rw [e0]; omega
  · show win2_3.index t (1 : Fin 2) * 128 + 1 * (y 1).val = (y 1).val
    rw [e1]; omega

/-- An index of the output array is in point t's block iff each coordinate is in the block's range on its axis. -/
theorem mem_blk2 (t : Fin cfg2.N) (i : S200000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v37).slice (win2_3.rect t)).set ↔ _
  rw [View.set_slice_whole, Rect.mem_set_unit]
  exact Iff.rfl

/-- Every index of the output array is in the block of the point its row, divided by 5000, names. -/
theorem cover2 (i : S200000x128.Idx) :
    ∃ t : Fin cfg2.N, (cfg2.win 3).flush t = true ∧ i ∈ ((cfg2.win 3).blk t).view.set := by
  have hi0 : (i 0).val < 200000 := (i 0).isLt
  have hi1 : (i 1).val < 128 := (i 1).isLt
  have hlt : (i 0).val / 5000 < cfg2.N := lt_of_lt_of_eq (show (i 0).val / 5000 < 40 by omega) N_2.symm
  obtain ⟨-, -, -, -, -, -, e0, e1⟩ := blockIdx2 ⟨(i 0).val / 5000, hlt⟩
  have e0' : win2_3.index ⟨(i 0).val / 5000, hlt⟩ (0 : Fin 2) = (i 0).val / 5000 := e0
  refine ⟨⟨(i 0).val / 5000, hlt⟩, flush2_3 _, ?_⟩
  rw [mem_blk2]
  intro a
  match a with
  | ⟨0, _⟩ =>
    show win2_3.index ⟨(i 0).val / 5000, hlt⟩ (0 : Fin 2) * 5000 ≤ (i 0).val
      ∧ (i 0).val < win2_3.index ⟨(i 0).val / 5000, hlt⟩ (0 : Fin 2) * 5000 + 5000
    rw [e0']; omega
  | ⟨1, _⟩ =>
    show win2_3.index ⟨(i 0).val / 5000, hlt⟩ (1 : Fin 2) * 128 ≤ (i 1).val
      ∧ (i 1).val < win2_3.index ⟨(i 0).val / 5000, hlt⟩ (1 : Fin 2) * 128 + 128
    rw [e1]; omega

/-- After launch 2 its output array holds, at (p, q), (Σ_k x(p,k)·w(k,q)) · s(p,0) of the arrays it was entered with. -/
theorem arr2 (c : Dev nD) :
    (dat2 (F := Ideal) V c).arrAt 3 cfg2.N = Cert.Conv.mmScale200k (V c main_arg1) (V c main_arg4) (V c main_v36) :=
  (dat2 (F := Ideal) V c).arrAt_eq_of_cover 3 _ (fun t _ => flushed2_eq V c t) cover2

end Cert.KernelIdeal.Closed

end
-- ==== Proof.Region3.lean ====
/-
  Launch 3 (destination-side factor, bias and rectifier, 50000 rows in blocks of 5000): the output array after the launch, as one function of the three operand arrays as the launch finds them.

  Grid point t works on rows 5000·t … 5000·t + 4999: it is handed those rows of the summed features and of the column of
  row factors, and the whole bias vector, and writes its result back to the same rows of the output.  The 10 points
  together write every row once, so the output ends as the one function max(a(p,q)·s(p,0) + b(q), 0) of the three arrays.
-/
import proofs.«147064_j29274497089997_2_alg».proof.Proof.Gen.KernelIdeal.Frame
import proofs.«147064_j29274497089997_2_alg».proof.Proof.Conv
import proofs.«147064_j29274497089997_2_alg».proof.Proof.RectifierPayload
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Closed

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Which block each window shows at grid point t: block t of the rows for the summed features, the column of factors
    and the output; the bias vector whole. -/
theorem blockIndex3 : ∀ t : Fin cfg3.N,
    win3_0.index t (0 : Fin 2) = t.val ∧ win3_0.index t (1 : Fin 2) = 0
    ∧ win3_1.index t (0 : Fin 1) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- The block of summed features at point t is rows 5000·t … of the array. -/
theorem aggBlock3 (c : Dev nD) (t : Fin cfg3.N) (x : S5000x128.Idx) (k : S50000x128.Idx)
    (hk0 : (k 0).val = t.val * 5000 + (x 0).val) (hk1 : (k 1).val = (x 1).val) :
    (iblk3 (F := Ideal) V c 0 t : Vec Ideal S5000x128 .f32) x = (V c main_v47 : S50000x128.Idx → EReal) k := by
  obtain ⟨e0, e1, -⟩ := blockIndex3 t
  unfold iblk3
  rw [View.read_apply]
  show V c main_v47 _ = V c main_v47 _
  congr 1
  funext a
  apply Fin.ext
  match a with
  | ⟨0, _⟩ => show win3_0.index t (0 : Fin 2) * 5000 + 1 * (x 0).val = (k 0).val; rw [e0, hk0]; omega
  | ⟨1, _⟩ => show win3_0.index t (1 : Fin 2) * 128 + 1 * (x 1).val = (k 1).val; rw [e1, hk1]; omega

/-- The bias window shows the whole vector at every point. -/
theorem biasBlock3 (c : Dev nD) (t : Fin cfg3.N) (x : S128.Idx) (k : S128.Idx) (hk : (k 0).val = (x 0).val) :
    (iblk3 (F := Ideal) V c 1 t : Vec Ideal S128 .f32) x = (V c main_arg5 : S128.Idx → EReal) k := by
  obtain ⟨-, -, e, -⟩ := blockIndex3 t
  unfold iblk3
  rw [View.read_apply]
  show V c main_arg5 _ = V c main_arg5 _
  congr 1
  funext a
  apply Fin.ext
  match a with
  | ⟨0, _⟩ => show win3_1.index t (0 : Fin 1) * 128 + 1 * (x 0).val = (k 0).val; rw [e, hk]; omega

/-- The block of row factors at point t is rows 5000·t … of the column. -/
theorem scaleBlock3 (c : Dev nD) (t : Fin cfg3.N) (x : S5000x1.Idx) (k : S50000x1.Idx)
    (hk0 : (k 0).val = t.val * 5000 + (x 0).val) (hk1 : (k 1).val = (x 1).val) :
    (iblk3 (F := Ideal) V c 2 t : Vec Ideal S5000x1 .f32) x = (V c main_v48 : S50000x1.Idx → EReal) k := by
  obtain ⟨-, -, -, e0, e1, -⟩ := blockIndex3 t
  unfold iblk3
  rw [View.read_apply]
  show V c main_v48 _ = V c main_v48 _
  congr 1
  funext a
  apply Fin.ext
  match a with
  | ⟨0, _⟩ => show win3_2.index t (0 : Fin 2) * 5000 + 1 * (x 0).val = (k 0).val; rw [e0, hk0]; omega
  | ⟨1, _⟩ => show win3_2.index t (1 : Fin 2) * 1 + 1 * (x 1).val = (k 1).val; rw [e1, hk1]; omega

/-- What point t writes back is block t of the whole-array function. -/
theorem flushed3 (c : Dev nD) (t : Fin cfg3.N) :
    (dat3 (F := Ideal) V c).flushed 3 t
      = ((cfg3.win 3).blk t).view.read (Elt Ideal) (Cert.Conv.biasRelu50k (V c main_v47) (V c main_arg5) (V c main_v48)) := by
  show (cfg3.win 3).cut (grid3.coords t) ((dat3 V c).after 3 t) = _
  rw [after3_3]
  unfold out3_3
  rw [View.canon_unit_zero zeroOffsets2]
  simp only [View.ld_unit_zero (S := S5000x128) zeroOffsets2, View.ld_unit_zero (S := S5000x1) zeroOffsets2,
    View.ld_unit_zero (S := S128) zeroOffsets1]
  obtain ⟨-, -, -, -, -, e0, e1⟩ := blockIndex3 t
  funext y
  obtain ⟨p, q, rfl⟩ : ∃ (p : Fin 5000) (q : Fin 128), y = ix2 p q := ⟨y 0, y 1, eq_ix2 y⟩
  have hp : p.val < 5000 := p.isLt
  have c0 : ((((cfg3.win 3).blk t).view.emb (ix2 p q)) 0).val = t.val * 5000 + p.val := by
    show win3_3.index t (0 : Fin 2) * 5000 + 1 * p.val = _; rw [e0]; omega
  have c1 : ((((cfg3.win 3).blk t).view.emb (ix2 p q)) 1).val = q.val := by
    show win3_3.index t (1 : Fin 2) * 128 + 1 * q.val = _; rw [e1]; omega
  show k3_pay1 (iblk3 V c 0 t) (iblk3 V c 2 t) (iblk3 V c 1 t) (ix2 p q)
    = Cert.Conv.biasRelu50k (V c main_v47) (V c main_arg5) (V c main_v48) (((cfg3.win 3).blk t).view.emb (ix2 p q))
  refine rectifier_entry50k _ _ _ _ _ _ p q _ ?_ ?_ ?_
  · exact aggBlock3 V c t (ix2 p q) _ c0 c1
  · exact biasBlock3 V c t (ix1 q) _ c1
  · exact scaleBlock3 V c t (ix2 p 0) _ c0 rfl

/-- An index of the array is in point t's block iff each coordinate is in the block's range on its axis. -/
theorem memBlock3 (t : Fin cfg3.N) (i : S50000x128.Idx) :
    i ∈ ((cfg3.win 3).blk t).view.set
      ↔ ∀ a : Fin 2, win3_3.index t a * S5000x128.size a ≤ (i a).val
          ∧ (i a).val < win3_3.index t a * S5000x128.size a + S5000x128.size a := by
  show i ∈ ((View.whole main_v49).slice (win3_3.rect t)).set ↔ _
  rw [View.set_slice_whole, Rect.mem_set_unit]
  exact Iff.rfl

/-- Every row lies in the block of exactly the point numbered by the row divided by 5000. -/
theorem covered3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  have ht : t.val = (i 0).val / 5000 := rfl
  obtain ⟨-, -, -, -, -, e0, e1⟩ := blockIndex3 t
  refine ⟨t, flush3_3 t, ?_⟩
  rw [memBlock3]
  intro a
  match a with
  | ⟨0, _⟩ =>
    show win3_3.index t (0 : Fin 2) * 5000 ≤ (i 0).val ∧ (i 0).val < win3_3.index t (0 : Fin 2) * 5000 + 5000
    rw [e0, ht]; omega
  | ⟨1, _⟩ =>
    show win3_3.index t (1 : Fin 2) * 128 ≤ (i 1).val ∧ (i 1).val < win3_3.index t (1 : Fin 2) * 128 + 128
    rw [e1]; omega

/-- After launch 3 its output array holds, at (p, q), max(a(p,q)·s(p,0) + b(q), 0) of the arrays it was entered with. -/
theorem arr3 (c : Dev nD) :
    (dat3 (F := Ideal) V c).arrAt 3 cfg3.N = Cert.Conv.biasRelu50k (V c main_v47) (V c main_arg5) (V c main_v48) :=
  (dat3 (F := Ideal) V c).arrAt_eq_of_cover 3 _ (fun t _ => flushed3 V c t) (covered3)

end Cert.KernelIdeal.Closed

end
-- ==== Proof.Region4.lean ====
/-
  Launch 4 (the dense stage with the source-side factor, 50000 rows in blocks of 5000): the output array after the launch, as one function of the three operand arrays as the launch finds them.

  Grid point t reads rows 5000·t … 5000·t + 4999 of the features and of the column of factors, and the whole weight
  matrix, and writes rows 5000·t … 5000·t + 4999 of the output. So what it writes back is its block of the whole-array
  function (Σ_k x(p,k)·w(k,q))·s(p,0), and the 10 blocks cover the 50000 rows: row r lies in block r / 5000.
-/
import proofs.«147064_j29274497089997_2_alg».proof.Proof.Gen.KernelIdeal.Frame
import proofs.«147064_j29274497089997_2_alg».proof.Proof.Conv
import proofs.«147064_j29274497089997_2_alg».proof.Proof.DensePayload
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Closed

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: the features', the factors' and the output's block at point t is block (t, 0);
    the weights' is always block (0, 0). -/
theorem blockIdx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- The feature block at point t is rows 5000·t … of the feature array. -/
theorem feat4_apply (c : Dev nD) (t : Fin cfg4.N) (ht : t.val < 10) (p : Fin 5000) (k : Fin 128) :
    (iblk4 V c 0 t : Vec Ideal S5000x128 .f32) (ix2 p k)
      = (V c main_v49 : S50000x128.Idx → Elt Ideal .f32) (ix2 (⟨t.val * 5000 + p.val, by have := p.isLt; omega⟩ : Fin 50000) k) := by
  obtain ⟨e0, e1, -⟩ := blockIdx4 t
  unfold iblk4
  rw [View.read_apply]
  show V c main_v49 _ = V c main_v49 _
  congr 1
  funext a
  apply Fin.ext
  match a with
  | ⟨0, _⟩ => show win4_0.index t (0 : Fin 2) * 5000 + 1 * p.val = t.val * 5000 + p.val; rw [e0]; omega
  | ⟨1, _⟩ => show win4_0.index t (1 : Fin 2) * 128 + 1 * k.val = k.val; rw [e1]; omega

/-- The weight block at every point is the whole weight matrix. -/
theorem wts4_eq (c : Dev nD) (t : Fin cfg4.N) :
    (iblk4 V c 1 t : Vec Ideal S128x128 .f32) = (V c main_arg6 : S128x128.Idx → Elt Ideal .f32) := by
  obtain ⟨-, -, e0, e1, -⟩ := blockIdx4 t
  funext x
  unfold iblk4
  rw [View.read_apply]
  show V c main_arg6 _ = V c main_arg6 _
  congr 1
  funext a
  apply Fin.ext
  match a with
  | ⟨0, _⟩ => show win4_1.index t (0 : Fin 2) * 128 + 1 * (x 0).val = (x 0).val; rw [e0]; omega
  | ⟨1, _⟩ => show win4_1.index t (1 : Fin 2) * 128 + 1 * (x 1).val = (x 1).val; rw [e1]; omega

/-- The factor block at point t is rows 5000·t … of the column of factors. -/
theorem fac4_apply (c : Dev nD) (t : Fin cfg4.N) (ht : t.val < 10) (p : Fin 5000) :
    (iblk4 V c 2 t : Vec Ideal S5000x1 .f32) (ix2 p (0 : Fin 1))
      = (V c main_v50 : S50000x1.Idx → Elt Ideal .f32) (ix2 (⟨t.val * 5000 + p.val, by have := p.isLt; omega⟩ : Fin 50000) (0 : Fin 1)) := by
  obtain ⟨-, -, -, -, e0, e1, -⟩ := blockIdx4 t
  unfold iblk4
  rw [View.read_apply]
  show V c main_v50 _ = V c main_v50 _
  congr 1
  funext a
  apply Fin.ext
  match a with
  | ⟨0, _⟩ => show win4_2.index t (0 : Fin 2) * 5000 + 1 * p.val = t.val * 5000 + p.val; rw [e0]; omega
  | ⟨1, _⟩ => show win4_2.index t (1 : Fin 2) * 1 + 1 * 0 = 0; rw [e1]

/-- What point t writes back is block t of the whole-array stage of the operand arrays as the launch finds them. -/
theorem flushed4_eq (c : Dev nD) (t : Fin cfg4.N) :
    (dat4 (F := Ideal) V c).flushed 3 t = ((cfg4.win 3).blk t).view.read (Elt Ideal)
      (Cert.Conv.mmScale50k (V c main_v49) (V c main_arg6) (V c main_v50)) := by
  have ht : t.val < 10 := lt_of_lt_of_eq t.isLt N_4
  obtain ⟨-, -, -, -, -, -, e0, e1⟩ := blockIdx4 t
  show (cfg4.win 3).cut (grid4.coords t) ((dat4 (F := Ideal) V c).after 3 t) = _
  rw [after4_3]
  unfold out4_3
  rw [View.canon_unit_zero Dense.hz]
  simp only [View.ld_unit_zero (S := S5000x128) Dense.hz, View.ld_unit_zero (S := S128x128) Dense.hz,
    View.ld_unit_zero (S := S5000x1) Dense.hz]
  funext y
  show k4_pay1 (F := Ideal) (iblk4 V c 0 t) (iblk4 V c 1 t) (iblk4 V c 2 t) y
    = Cert.Conv.mmScale50k (V c main_v49) (V c main_arg6) (V c main_v50) (((cfg4.win 3).blk t).view.emb y)
  refine (congrFun (Dense.pay4_eq _ _ _) y).trans ?_
  refine Dense.block50k (V c main_v49) (V c main_arg6) (V c main_v50) t.val ht _ _ _
    (fun p k => feat4_apply V c t ht p k) (wts4_eq V c t) (fun p => fac4_apply V c t ht p) y _ ?_ ?_
  · show win4_3.index t (0 : Fin 2) * 5000 + 1 * (y 0).val = t.val * 5000 + (y 0).val
    rw [e0]; omega
  · show win4_3.index t (1 : Fin 2) * 128 + 1 * (y 1).val = (y 1).val
    rw [e1]; omega

/-- An index of the output array is in point t's block iff each coordinate is in the block's range on its axis. -/
theorem mem_blk4 (t : Fin cfg4.N) (i : S50000x128.Idx) :
    i ∈ ((cfg4.win 3).blk t).view.set ↔ ∀ a : Fin 2, win4_3.index t a * S5000x128.size a ≤ (i a).val
      ∧ (i a).val < win4_3.index t a * S5000x128.size a + S5000x128.size a := by
  show i ∈ ((View.whole main_v51).slice (win4_3.rect t)).set ↔ _
  rw [View.set_slice_whole, Rect.mem_set_unit]
  exact Iff.rfl

/-- Every index of the output array is in the block of the point its row, divided by 5000, names. -/
theorem cover4 (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  have hlt : (i 0).val / 5000 < cfg4.N := lt_of_lt_of_eq (show (i 0).val / 5000 < 10 by omega) N_4.symm
  obtain ⟨-, -, -, -, -, -, e0, e1⟩ := blockIdx4 ⟨(i 0).val / 5000, hlt⟩
  have e0' : win4_3.index ⟨(i 0).val / 5000, hlt⟩ (0 : Fin 2) = (i 0).val / 5000 := e0
  refine ⟨⟨(i 0).val / 5000, hlt⟩, flush4_3 _, ?_⟩
  rw [mem_blk4]
  intro a
  match a with
  | ⟨0, _⟩ =>
    show win4_3.index ⟨(i 0).val / 5000, hlt⟩ (0 : Fin 2) * 5000 ≤ (i 0).val
      ∧ (i 0).val < win4_3.index ⟨(i 0).val / 5000, hlt⟩ (0 : Fin 2) * 5000 + 5000
    rw [e0']; omega
  | ⟨1, _⟩ =>
    show win4_3.index ⟨(i 0).val / 5000, hlt⟩ (1 : Fin 2) * 128 ≤ (i 1).val
      ∧ (i 1).val < win4_3.index ⟨(i 0).val / 5000, hlt⟩ (1 : Fin 2) * 128 + 128
    rw [e1]; omega

/-- After launch 4 its output array holds, at (p, q), (Σ_k x(p,k)·w(k,q)) · s(p,0) of the arrays it was entered with. -/
theorem arr4 (c : Dev nD) :
    (dat4 (F := Ideal) V c).arrAt 3 cfg4.N = Cert.Conv.mmScale50k (V c main_v49) (V c main_arg6) (V c main_v50) :=
  (dat4 (F := Ideal) V c).arrAt_eq_of_cover 3 _ (fun t _ => flushed4_eq V c t) cover4

end Cert.KernelIdeal.Closed

end
-- ==== Proof.Region5.lean ====
/-
  Launch 5 (destination-side factor, bias and rectifier, 200000 rows in blocks of 5000): the output array after the launch, as one function of the three operand arrays as the launch finds them.

  Grid point t works on rows 5000·t … 5000·t + 4999: it is handed those rows of the summed features and of the column of
  row factors, and the whole bias vector, and writes its result back to the same rows of the output.  The 40 points
  together write every row once, so the output ends as the one function max(a(p,q)·s(p,0) + b(q), 0) of the three arrays.
-/
import proofs.«147064_j29274497089997_2_alg».proof.Proof.Gen.KernelIdeal.Frame
import proofs.«147064_j29274497089997_2_alg».proof.Proof.Conv
import proofs.«147064_j29274497089997_2_alg».proof.Proof.RectifierPayload
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Closed

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Which block each window shows at grid point t: block t of the rows for the summed features, the column of factors
    and the output; the bias vector whole. -/
theorem blockIndex5 : ∀ t : Fin cfg5.N,
    win5_0.index t (0 : Fin 2) = t.val ∧ win5_0.index t (1 : Fin 2) = 0
    ∧ win5_1.index t (0 : Fin 1) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

/-- The block of summed features at point t is rows 5000·t … of the array. -/
theorem aggBlock5 (c : Dev nD) (t : Fin cfg5.N) (x : S5000x128.Idx) (k : S200000x128.Idx)
    (hk0 : (k 0).val = t.val * 5000 + (x 0).val) (hk1 : (k 1).val = (x 1).val) :
    (iblk5 (F := Ideal) V c 0 t : Vec Ideal S5000x128 .f32) x = (V c main_v61 : S200000x128.Idx → EReal) k := by
  obtain ⟨e0, e1, -⟩ := blockIndex5 t
  unfold iblk5
  rw [View.read_apply]
  show V c main_v61 _ = V c main_v61 _
  congr 1
  funext a
  apply Fin.ext
  match a with
  | ⟨0, _⟩ => show win5_0.index t (0 : Fin 2) * 5000 + 1 * (x 0).val = (k 0).val; rw [e0, hk0]; omega
  | ⟨1, _⟩ => show win5_0.index t (1 : Fin 2) * 128 + 1 * (x 1).val = (k 1).val; rw [e1, hk1]; omega

/-- The bias window shows the whole vector at every point. -/
theorem biasBlock5 (c : Dev nD) (t : Fin cfg5.N) (x : S128.Idx) (k : S128.Idx) (hk : (k 0).val = (x 0).val) :
    (iblk5 (F := Ideal) V c 1 t : Vec Ideal S128 .f32) x = (V c main_arg7 : S128.Idx → EReal) k := by
  obtain ⟨-, -, e, -⟩ := blockIndex5 t
  unfold iblk5
  rw [View.read_apply]
  show V c main_arg7 _ = V c main_arg7 _
  congr 1
  funext a
  apply Fin.ext
  match a with
  | ⟨0, _⟩ => show win5_1.index t (0 : Fin 1) * 128 + 1 * (x 0).val = (k 0).val; rw [e, hk]; omega

/-- The block of row factors at point t is rows 5000·t … of the column. -/
theorem scaleBlock5 (c : Dev nD) (t : Fin cfg5.N) (x : S5000x1.Idx) (k : S200000x1.Idx)
    (hk0 : (k 0).val = t.val * 5000 + (x 0).val) (hk1 : (k 1).val = (x 1).val) :
    (iblk5 (F := Ideal) V c 2 t : Vec Ideal S5000x1 .f32) x = (V c main_v62 : S200000x1.Idx → EReal) k := by
  obtain ⟨-, -, -, e0, e1, -⟩ := blockIndex5 t
  unfold iblk5
  rw [View.read_apply]
  show V c main_v62 _ = V c main_v62 _
  congr 1
  funext a
  apply Fin.ext
  match a with
  | ⟨0, _⟩ => show win5_2.index t (0 : Fin 2) * 5000 + 1 * (x 0).val = (k 0).val; rw [e0, hk0]; omega
  | ⟨1, _⟩ => show win5_2.index t (1 : Fin 2) * 1 + 1 * (x 1).val = (k 1).val; rw [e1, hk1]; omega

/-- What point t writes back is block t of the whole-array function. -/
theorem flushed5 (c : Dev nD) (t : Fin cfg5.N) :
    (dat5 (F := Ideal) V c).flushed 3 t
      = ((cfg5.win 3).blk t).view.read (Elt Ideal) (Cert.Conv.biasRelu200k (V c main_v61) (V c main_arg7) (V c main_v62)) := by
  show (cfg5.win 3).cut (grid5.coords t) ((dat5 V c).after 3 t) = _
  rw [after5_3]
  unfold out5_3
  rw [View.canon_unit_zero zeroOffsets2]
  simp only [View.ld_unit_zero (S := S5000x128) zeroOffsets2, View.ld_unit_zero (S := S5000x1) zeroOffsets2,
    View.ld_unit_zero (S := S128) zeroOffsets1]
  obtain ⟨-, -, -, -, -, e0, e1⟩ := blockIndex5 t
  funext y
  obtain ⟨p, q, rfl⟩ : ∃ (p : Fin 5000) (q : Fin 128), y = ix2 p q := ⟨y 0, y 1, eq_ix2 y⟩
  have hp : p.val < 5000 := p.isLt
  have c0 : ((((cfg5.win 3).blk t).view.emb (ix2 p q)) 0).val = t.val * 5000 + p.val := by
    show win5_3.index t (0 : Fin 2) * 5000 + 1 * p.val = _; rw [e0]; omega
  have c1 : ((((cfg5.win 3).blk t).view.emb (ix2 p q)) 1).val = q.val := by
    show win5_3.index t (1 : Fin 2) * 128 + 1 * q.val = _; rw [e1]; omega
  show k5_pay1 (iblk5 V c 0 t) (iblk5 V c 2 t) (iblk5 V c 1 t) (ix2 p q)
    = Cert.Conv.biasRelu200k (V c main_v61) (V c main_arg7) (V c main_v62) (((cfg5.win 3).blk t).view.emb (ix2 p q))
  refine rectifier_entry200k _ _ _ _ _ _ p q _ ?_ ?_ ?_
  · exact aggBlock5 V c t (ix2 p q) _ c0 c1
  · exact biasBlock5 V c t (ix1 q) _ c1
  · exact scaleBlock5 V c t (ix2 p 0) _ c0 rfl

/-- An index of the array is in point t's block iff each coordinate is in the block's range on its axis. -/
theorem memBlock5 (t : Fin cfg5.N) (i : S200000x128.Idx) :
    i ∈ ((cfg5.win 3).blk t).view.set
      ↔ ∀ a : Fin 2, win5_3.index t a * S5000x128.size a ≤ (i a).val
          ∧ (i a).val < win5_3.index t a * S5000x128.size a + S5000x128.size a := by
  show i ∈ ((View.whole main_v63).slice (win5_3.rect t)).set ↔ _
  rw [View.set_slice_whole, Rect.mem_set_unit]
  exact Iff.rfl

/-- Every row lies in the block of exactly the point numbered by the row divided by 5000. -/
theorem covered5 (i : S200000x128.Idx) :
    ∃ t : Fin cfg5.N, (cfg5.win 3).flush t = true ∧ i ∈ ((cfg5.win 3).blk t).view.set := by
  have hi0 : (i 0).val < 200000 := (i 0).isLt
  have hi1 : (i 1).val < 128 := (i 1).isLt
  have hN : cfg5.N = 40 := N_5
  let t : Fin cfg5.N := ⟨(i 0).val / 5000, by rw [hN]; omega⟩
  have ht : t.val = (i 0).val / 5000 := rfl
  obtain ⟨-, -, -, -, -, e0, e1⟩ := blockIndex5 t
  refine ⟨t, flush5_3 t, ?_⟩
  rw [memBlock5]
  intro a
  match a with
  | ⟨0, _⟩ =>
    show win5_3.index t (0 : Fin 2) * 5000 ≤ (i 0).val ∧ (i 0).val < win5_3.index t (0 : Fin 2) * 5000 + 5000
    rw [e0, ht]; omega
  | ⟨1, _⟩ =>
    show win5_3.index t (1 : Fin 2) * 128 ≤ (i 1).val ∧ (i 1).val < win5_3.index t (1 : Fin 2) * 128 + 128
    rw [e1]; omega

/-- After launch 5 its output array holds, at (p, q), max(a(p,q)·s(p,0) + b(q), 0) of the arrays it was entered with. -/
theorem arr5 (c : Dev nD) :
    (dat5 (F := Ideal) V c).arrAt 3 cfg5.N = Cert.Conv.biasRelu200k (V c main_v61) (V c main_arg7) (V c main_v62) :=
  (dat5 (F := Ideal) V c).arrAt_eq_of_cover 3 _ (fun t _ => flushed5 V c t) (covered5)

end Cert.KernelIdeal.Closed

end
-- ==== Proof.Region6.lean ====
/-
  Launch 6 (the dense stage with the source-side factor, 200000 rows in blocks of 5000): the output array after the launch, as one function of the three operand arrays as the launch finds them.

  Grid point t reads rows 5000·t … 5000·t + 4999 of the features and of the column of factors, and the whole weight
  matrix, and writes rows 5000·t … 5000·t + 4999 of the output. So what it writes back is its block of the whole-array
  function (Σ_k x(p,k)·w(k,q))·s(p,0), and the 40 blocks cover the 200000 rows: row r lies in block r / 5000.
-/
import proofs.«147064_j29274497089997_2_alg».proof.Proof.Gen.KernelIdeal.Frame
import proofs.«147064_j29274497089997_2_alg».proof.Proof.Conv
import proofs.«147064_j29274497089997_2_alg».proof.Proof.DensePayload
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Closed

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: the features', the factors' and the output's block at point t is block (t, 0);
    the weights' is always block (0, 0). -/
theorem blockIdx6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 :=
  (by decide +kernel : ∀ t : Fin grid6.N, _)

/-- The feature block at point t is rows 5000·t … of the feature array. -/
theorem feat6_apply (c : Dev nD) (t : Fin cfg6.N) (ht : t.val < 40) (p : Fin 5000) (k : Fin 128) :
    (iblk6 V c 0 t : Vec Ideal S5000x128 .f32) (ix2 p k)
      = (V c main_v35 : S200000x128.Idx → Elt Ideal .f32) (ix2 (⟨t.val * 5000 + p.val, by have := p.isLt; omega⟩ : Fin 200000) k) := by
  obtain ⟨e0, e1, -⟩ := blockIdx6 t
  unfold iblk6
  rw [View.read_apply]
  show V c main_v35 _ = V c main_v35 _
  congr 1
  funext a
  apply Fin.ext
  match a with
  | ⟨0, _⟩ => show win6_0.index t (0 : Fin 2) * 5000 + 1 * p.val = t.val * 5000 + p.val; rw [e0]; omega
  | ⟨1, _⟩ => show win6_0.index t (1 : Fin 2) * 128 + 1 * k.val = k.val; rw [e1]; omega

/-- The weight block at every point is the whole weight matrix. -/
theorem wts6_eq (c : Dev nD) (t : Fin cfg6.N) :
    (iblk6 V c 1 t : Vec Ideal S128x128 .f32) = (V c main_arg8 : S128x128.Idx → Elt Ideal .f32) := by
  obtain ⟨-, -, e0, e1, -⟩ := blockIdx6 t
  funext x
  unfold iblk6
  rw [View.read_apply]
  show V c main_arg8 _ = V c main_arg8 _
  congr 1
  funext a
  apply Fin.ext
  match a with
  | ⟨0, _⟩ => show win6_1.index t (0 : Fin 2) * 128 + 1 * (x 0).val = (x 0).val; rw [e0]; omega
  | ⟨1, _⟩ => show win6_1.index t (1 : Fin 2) * 128 + 1 * (x 1).val = (x 1).val; rw [e1]; omega

/-- The factor block at point t is rows 5000·t … of the column of factors. -/
theorem fac6_apply (c : Dev nD) (t : Fin cfg6.N) (ht : t.val < 40) (p : Fin 5000) :
    (iblk6 V c 2 t : Vec Ideal S5000x1 .f32) (ix2 p (0 : Fin 1))
      = (V c main_v64 : S200000x1.Idx → Elt Ideal .f32) (ix2 (⟨t.val * 5000 + p.val, by have := p.isLt; omega⟩ : Fin 200000) (0 : Fin 1)) := by
  obtain ⟨-, -, -, -, e0, e1, -⟩ := blockIdx6 t
  unfold iblk6
  rw [View.read_apply]
  show V c main_v64 _ = V c main_v64 _
  congr 1
  funext a
  apply Fin.ext
  match a with
  | ⟨0, _⟩ => show win6_2.index t (0 : Fin 2) * 5000 + 1 * p.val = t.val * 5000 + p.val; rw [e0]; omega
  | ⟨1, _⟩ => show win6_2.index t (1 : Fin 2) * 1 + 1 * 0 = 0; rw [e1]

/-- What point t writes back is block t of the whole-array stage of the operand arrays as the launch finds them. -/
theorem flushed6_eq (c : Dev nD) (t : Fin cfg6.N) :
    (dat6 (F := Ideal) V c).flushed 3 t = ((cfg6.win 3).blk t).view.read (Elt Ideal)
      (Cert.Conv.mmScale200k (V c main_v35) (V c main_arg8) (V c main_v64)) := by
  have ht : t.val < 40 := lt_of_lt_of_eq t.isLt N_6
  obtain ⟨-, -, -, -, -, -, e0, e1⟩ := blockIdx6 t
  show (cfg6.win 3).cut (grid6.coords t) ((dat6 (F := Ideal) V c).after 3 t) = _
  rw [after6_3]
  unfold out6_3
  rw [View.canon_unit_zero Dense.hz]
  simp only [View.ld_unit_zero (S := S5000x128) Dense.hz, View.ld_unit_zero (S := S128x128) Dense.hz,
    View.ld_unit_zero (S := S5000x1) Dense.hz]
  funext y
  show k6_pay1 (F := Ideal) (iblk6 V c 0 t) (iblk6 V c 1 t) (iblk6 V c 2 t) y
    = Cert.Conv.mmScale200k (V c main_v35) (V c main_arg8) (V c main_v64) (((cfg6.win 3).blk t).view.emb y)
  rw [Dense.pay6_eq]
  refine (congrFun (Dense.pay4_eq _ _ _) y).trans ?_
  refine Dense.block200k (V c main_v35) (V c main_arg8) (V c main_v64) t.val ht _ _ _
    (fun p k => feat6_apply V c t ht p k) (wts6_eq V c t) (fun p => fac6_apply V c t ht p) y _ ?_ ?_
  · show win6_3.index t (0 : Fin 2) * 5000 + 1 * (y 0).val = t.val * 5000 + (y 0).val
    rw [e0]; omega
  · show win6_3.index t (1 : Fin 2) * 128 + 1 * (y 1).val = (y 1).val
    rw [e1]; omega

/-- An index of the output array is in point t's block iff each coordinate is in the block's range on its axis. -/
theorem mem_blk6 (t : Fin cfg6.N) (i : S200000x128.Idx) :
    i ∈ ((cfg6.win 3).blk t).view.set ↔ ∀ a : Fin 2, win6_3.index t a * S5000x128.size a ≤ (i a).val
      ∧ (i a).val < win6_3.index t a * S5000x128.size a + S5000x128.size a := by
  show i ∈ ((View.whole main_v65).slice (win6_3.rect t)).set ↔ _
  rw [View.set_slice_whole, Rect.mem_set_unit]
  exact Iff.rfl

/-- Every index of the output array is in the block of the point its row, divided by 5000, names. -/
theorem cover6 (i : S200000x128.Idx) :
    ∃ t : Fin cfg6.N, (cfg6.win 3).flush t = true ∧ i ∈ ((cfg6.win 3).blk t).view.set := by
  have hi0 : (i 0).val < 200000 := (i 0).isLt
  have hi1 : (i 1).val < 128 := (i 1).isLt
  have hlt : (i 0).val / 5000 < cfg6.N := lt_of_lt_of_eq (show (i 0).val / 5000 < 40 by omega) N_6.symm
  obtain ⟨-, -, -, -, -, -, e0, e1⟩ := blockIdx6 ⟨(i 0).val / 5000, hlt⟩
  have e0' : win6_3.index ⟨(i 0).val / 5000, hlt⟩ (0 : Fin 2) = (i 0).val / 5000 := e0
  refine ⟨⟨(i 0).val / 5000, hlt⟩, flush6_3 _, ?_⟩
  rw [mem_blk6]
  intro a
  match a with
  | ⟨0, _⟩ =>
    show win6_3.index ⟨(i 0).val / 5000, hlt⟩ (0 : Fin 2) * 5000 ≤ (i 0).val
      ∧ (i 0).val < win6_3.index ⟨(i 0).val / 5000, hlt⟩ (0 : Fin 2) * 5000 + 5000
    rw [e0']; omega
  | ⟨1, _⟩ =>
    show win6_3.index ⟨(i 0).val / 5000, hlt⟩ (1 : Fin 2) * 128 ≤ (i 1).val
      ∧ (i 1).val < win6_3.index ⟨(i 0).val / 5000, hlt⟩ (1 : Fin 2) * 128 + 128
    rw [e1]; omega

/-- After launch 6 its output array holds, at (p, q), (Σ_k x(p,k)·w(k,q)) · s(p,0) of the arrays it was entered with. -/
theorem arr6 (c : Dev nD) :
    (dat6 (F := Ideal) V c).arrAt 3 cfg6.N = Cert.Conv.mmScale200k (V c main_v35) (V c main_arg8) (V c main_v64) :=
  (dat6 (F := Ideal) V c).arrAt_eq_of_cover 3 _ (fun t _ => flushed6_eq V c t) cover6

end Cert.KernelIdeal.Closed

end
-- ==== Proof.Region7.lean ====
/-
  Launch 7 (destination-side factor, bias and rectifier, 50000 rows in blocks of 5000): the output array after the launch, as one function of the three operand arrays as the launch finds them.

  Grid point t works on rows 5000·t … 5000·t + 4999: it is handed those rows of the summed features and of the column of
  row factors, and the whole bias vector, and writes its result back to the same rows of the output.  The 10 points
  together write every row once, so the output ends as the one function max(a(p,q)·s(p,0) + b(q), 0) of the three arrays.
-/
import proofs.«147064_j29274497089997_2_alg».proof.Proof.Gen.KernelIdeal.Frame
import proofs.«147064_j29274497089997_2_alg».proof.Proof.Conv
import proofs.«147064_j29274497089997_2_alg».proof.Proof.RectifierPayload
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Closed

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Which block each window shows at grid point t: block t of the rows for the summed features, the column of factors
    and the output; the bias vector whole. -/
theorem blockIndex7 : ∀ t : Fin cfg7.N,
    win7_0.index t (0 : Fin 2) = t.val ∧ win7_0.index t (1 : Fin 2) = 0
    ∧ win7_1.index t (0 : Fin 1) = 0
    ∧ win7_2.index t (0 : Fin 2) = t.val ∧ win7_2.index t (1 : Fin 2) = 0
    ∧ win7_3.index t (0 : Fin 2) = t.val ∧ win7_3.index t (1 : Fin 2) = 0 :=
  (by decide +kernel : ∀ t : Fin grid7.N, _)

/-- The block of summed features at point t is rows 5000·t … of the array. -/
theorem aggBlock7 (c : Dev nD) (t : Fin cfg7.N) (x : S5000x128.Idx) (k : S50000x128.Idx)
    (hk0 : (k 0).val = t.val * 5000 + (x 0).val) (hk1 : (k 1).val = (x 1).val) :
    (iblk7 (F := Ideal) V c 0 t : Vec Ideal S5000x128 .f32) x = (V c main_v75 : S50000x128.Idx → EReal) k := by
  obtain ⟨e0, e1, -⟩ := blockIndex7 t
  unfold iblk7
  rw [View.read_apply]
  show V c main_v75 _ = V c main_v75 _
  congr 1
  funext a
  apply Fin.ext
  match a with
  | ⟨0, _⟩ => show win7_0.index t (0 : Fin 2) * 5000 + 1 * (x 0).val = (k 0).val; rw [e0, hk0]; omega
  | ⟨1, _⟩ => show win7_0.index t (1 : Fin 2) * 128 + 1 * (x 1).val = (k 1).val; rw [e1, hk1]; omega

/-- The bias window shows the whole vector at every point. -/
theorem biasBlock7 (c : Dev nD) (t : Fin cfg7.N) (x : S128.Idx) (k : S128.Idx) (hk : (k 0).val = (x 0).val) :
    (iblk7 (F := Ideal) V c 1 t : Vec Ideal S128 .f32) x = (V c main_arg9 : S128.Idx → EReal) k := by
  obtain ⟨-, -, e, -⟩ := blockIndex7 t
  unfold iblk7
  rw [View.read_apply]
  show V c main_arg9 _ = V c main_arg9 _
  congr 1
  funext a
  apply Fin.ext
  match a with
  | ⟨0, _⟩ => show win7_1.index t (0 : Fin 1) * 128 + 1 * (x 0).val = (k 0).val; rw [e, hk]; omega

/-- The block of row factors at point t is rows 5000·t … of the column. -/
theorem scaleBlock7 (c : Dev nD) (t : Fin cfg7.N) (x : S5000x1.Idx) (k : S50000x1.Idx)
    (hk0 : (k 0).val = t.val * 5000 + (x 0).val) (hk1 : (k 1).val = (x 1).val) :
    (iblk7 (F := Ideal) V c 2 t : Vec Ideal S5000x1 .f32) x = (V c main_v76 : S50000x1.Idx → EReal) k := by
  obtain ⟨-, -, -, e0, e1, -⟩ := blockIndex7 t
  unfold iblk7
  rw [View.read_apply]
  show V c main_v76 _ = V c main_v76 _
  congr 1
  funext a
  apply Fin.ext
  match a with
  | ⟨0, _⟩ => show win7_2.index t (0 : Fin 2) * 5000 + 1 * (x 0).val = (k 0).val; rw [e0, hk0]; omega
  | ⟨1, _⟩ => show win7_2.index t (1 : Fin 2) * 1 + 1 * (x 1).val = (k 1).val; rw [e1, hk1]; omega

/-- What point t writes back is block t of the whole-array function. -/
theorem flushed7 (c : Dev nD) (t : Fin cfg7.N) :
    (dat7 (F := Ideal) V c).flushed 3 t
      = ((cfg7.win 3).blk t).view.read (Elt Ideal) (Cert.Conv.biasRelu50k (V c main_v75) (V c main_arg9) (V c main_v76)) := by
  show (cfg7.win 3).cut (grid7.coords t) ((dat7 V c).after 3 t) = _
  rw [after7_3]
  unfold out7_3
  rw [View.canon_unit_zero zeroOffsets2]
  simp only [View.ld_unit_zero (S := S5000x128) zeroOffsets2, View.ld_unit_zero (S := S5000x1) zeroOffsets2,
    View.ld_unit_zero (S := S128) zeroOffsets1]
  obtain ⟨-, -, -, -, -, e0, e1⟩ := blockIndex7 t
  funext y
  obtain ⟨p, q, rfl⟩ : ∃ (p : Fin 5000) (q : Fin 128), y = ix2 p q := ⟨y 0, y 1, eq_ix2 y⟩
  have hp : p.val < 5000 := p.isLt
  have c0 : ((((cfg7.win 3).blk t).view.emb (ix2 p q)) 0).val = t.val * 5000 + p.val := by
    show win7_3.index t (0 : Fin 2) * 5000 + 1 * p.val = _; rw [e0]; omega
  have c1 : ((((cfg7.win 3).blk t).view.emb (ix2 p q)) 1).val = q.val := by
    show win7_3.index t (1 : Fin 2) * 128 + 1 * q.val = _; rw [e1]; omega
  show k7_pay1 (iblk7 V c 0 t) (iblk7 V c 2 t) (iblk7 V c 1 t) (ix2 p q)
    = Cert.Conv.biasRelu50k (V c main_v75) (V c main_arg9) (V c main_v76) (((cfg7.win 3).blk t).view.emb (ix2 p q))
  refine rectifier_entry50k _ _ _ _ _ _ p q _ ?_ ?_ ?_
  · exact aggBlock7 V c t (ix2 p q) _ c0 c1
  · exact biasBlock7 V c t (ix1 q) _ c1
  · exact scaleBlock7 V c t (ix2 p 0) _ c0 rfl

/-- An index of the array is in point t's block iff each coordinate is in the block's range on its axis. -/
theorem memBlock7 (t : Fin cfg7.N) (i : S50000x128.Idx) :
    i ∈ ((cfg7.win 3).blk t).view.set
      ↔ ∀ a : Fin 2, win7_3.index t a * S5000x128.size a ≤ (i a).val
          ∧ (i a).val < win7_3.index t a * S5000x128.size a + S5000x128.size a := by
  show i ∈ ((View.whole main_v77).slice (win7_3.rect t)).set ↔ _
  rw [View.set_slice_whole, Rect.mem_set_unit]
  exact Iff.rfl

/-- Every row lies in the block of exactly the point numbered by the row divided by 5000. -/
theorem covered7 (i : S50000x128.Idx) :
    ∃ t : Fin cfg7.N, (cfg7.win 3).flush t = true ∧ i ∈ ((cfg7.win 3).blk t).view.set := by
  have hi0 : (i 0).val < 50000 := (i 0).isLt
  have hi1 : (i 1).val < 128 := (i 1).isLt
  have hN : cfg7.N = 10 := N_7
  let t : Fin cfg7.N := ⟨(i 0).val / 5000, by rw [hN]; omega⟩
  have ht : t.val = (i 0).val / 5000 := rfl
  obtain ⟨-, -, -, -, -, e0, e1⟩ := blockIndex7 t
  refine ⟨t, flush7_3 t, ?_⟩
  rw [memBlock7]
  intro a
  match a with
  | ⟨0, _⟩ =>
    show win7_3.index t (0 : Fin 2) * 5000 ≤ (i 0).val ∧ (i 0).val < win7_3.index t (0 : Fin 2) * 5000 + 5000
    rw [e0, ht]; omega
  | ⟨1, _⟩ =>
    show win7_3.index t (1 : Fin 2) * 128 ≤ (i 1).val ∧ (i 1).val < win7_3.index t (1 : Fin 2) * 128 + 128
    rw [e1]; omega

/-- After launch 7 its output array holds, at (p, q), max(a(p,q)·s(p,0) + b(q), 0) of the arrays it was entered with. -/
theorem arr7 (c : Dev nD) :
    (dat7 (F := Ideal) V c).arrAt 3 cfg7.N = Cert.Conv.biasRelu50k (V c main_v75) (V c main_arg9) (V c main_v76) :=
  (dat7 (F := Ideal) V c).arrAt_eq_of_cover 3 _ (fun t _ => flushed7 V c t) (covered7)

end Cert.KernelIdeal.Closed

end
-- ==== Proof.KFold.lean ====
/-
  The kernel program's two results, read as nested convolutions.

  Each of the four convolutions of the network is, in the kernel program, a dense launch (rows of X·W scaled by the
  source-side degree factor), a stretch of host operations (the scaled rows gathered along the edges' source words and
  summed per destination word; the destination-side factor reshaped to a column) and a rectifier launch (the sums
  scaled by that column, the bias added, the negative part removed).  A launch leaves its output array at one
  whole-array function of the arrays it was entered with; a stretch is a composition of its operations; every other
  buffer a segment reads is still what an earlier segment left.  Following the program from its two results back to
  its arguments gives kerConvCL after kerConvLC for the first result and kerConvLC after kerConvCL for the second.
-/
import proofs.«147064_j29274497089997_2_alg».proof.Proof.KFoldPre
import proofs.«147064_j29274497089997_2_alg».proof.Proof.ConvParts
import proofs.«147064_j29274497089997_2_alg».proof.Proof.Region0
import proofs.«147064_j29274497089997_2_alg».proof.Proof.Region1
import proofs.«147064_j29274497089997_2_alg».proof.Proof.Region2
import proofs.«147064_j29274497089997_2_alg».proof.Proof.Region3
import proofs.«147064_j29274497089997_2_alg».proof.Proof.Region4
import proofs.«147064_j29274497089997_2_alg».proof.Proof.Region5
import proofs.«147064_j29274497089997_2_alg».proof.Proof.Region6
import proofs.«147064_j29274497089997_2_alg».proof.Proof.Region7

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Cert.Conv Cert.KernelIdeal.Closed

variable (m : (ℓ : Loc nD τ sig) → Buf (Elt Ideal) ℓ) (ρ : Dev nD → PrngReg)

/-! ## The host stretches between launches, over any contents at their entry -/

/-- The first source-side factor as a column. -/
theorem col_v22 (F : Valuation τ sig (Elt Ideal)) :
    StableHlo.after hostOps0_8 F (Proc.devRef .tc main_v22) = (asCol50k (F (Proc.devRef .tc main_v9)) : FVec Ideal S50000x1 .f32) := by
  simp only [hostOps0_8]
  after_results <;> rfl

set_option maxHeartbeats 4000000 in
/-- The first layer's scaled rows gathered and summed into the 200000 side. -/
theorem gs_v33 (F : Valuation τ sig (Elt Ideal)) :
    StableHlo.after hostOps1 F (Proc.devRef .tc main_v33)
      = (gsLC (F (Proc.devRef .tc main_v23)) (F (Proc.devRef .tc main_arg10)) (F (Proc.devRef .tc main_arg11)) : FVec Ideal S200000x128 .f32) := by
  simp only [hostOps1]
  after_results_simp
  unfold gsLC col nrm50k
  rfl

/-- The first destination-side factor as a column. -/
theorem col_v34 (F : Valuation τ sig (Elt Ideal)) :
    StableHlo.after hostOps1 F (Proc.devRef .tc main_v34) = (asCol200k (F (Proc.devRef .tc main_v10)) : FVec Ideal S200000x1 .f32) := by
  simp only [hostOps1]
  after_results <;> rfl

/-- The second source-side factor as a column. -/
theorem col_v36 (F : Valuation τ sig (Elt Ideal)) :
    StableHlo.after hostOps2 F (Proc.devRef .tc main_v36) = (asCol200k (F (Proc.devRef .tc main_v20)) : FVec Ideal S200000x1 .f32) := by
  simp only [hostOps2]
  after_results <;> rfl

set_option maxHeartbeats 4000000 in
/-- The first layer's scaled rows gathered and summed into the 50000 side. -/
theorem gs_v47 (F : Valuation τ sig (Elt Ideal)) :
    StableHlo.after hostOps3 F (Proc.devRef .tc main_v47)
      = (gsCL (F (Proc.devRef .tc main_v37)) (F (Proc.devRef .tc main_arg12)) (F (Proc.devRef .tc main_arg13)) : FVec Ideal S50000x128 .f32) := by
  simp only [hostOps3]
  after_results_simp
  unfold gsCL col nrm200k
  rfl

/-- The second destination-side factor as a column. -/
theorem col_v48 (F : Valuation τ sig (Elt Ideal)) :
    StableHlo.after hostOps3 F (Proc.devRef .tc main_v48) = (asCol50k (F (Proc.devRef .tc main_v21)) : FVec Ideal S50000x1 .f32) := by
  simp only [hostOps3]
  after_results <;> rfl

/-- The first source-side factor as a column, again, for the second layer. -/
theorem col_v50 (F : Valuation τ sig (Elt Ideal)) :
    StableHlo.after hostOps4 F (Proc.devRef .tc main_v50) = (asCol50k (F (Proc.devRef .tc main_v9)) : FVec Ideal S50000x1 .f32) := by
  simp only [hostOps4]
  after_results <;> rfl

set_option maxHeartbeats 4000000 in
/-- The second layer's scaled rows gathered and summed into the 200000 side. -/
theorem gs_v61 (F : Valuation τ sig (Elt Ideal)) :
    StableHlo.after hostOps5 F (Proc.devRef .tc main_v61)
      = (gsLC (F (Proc.devRef .tc main_v51)) (F (Proc.devRef .tc main_arg10)) (F (Proc.devRef .tc main_arg11)) : FVec Ideal S200000x128 .f32) := by
  simp only [hostOps5]
  after_results_simp
  unfold gsLC col nrm50k
  rfl

/-- The first destination-side factor as a column, again. -/
theorem col_v62 (F : Valuation τ sig (Elt Ideal)) :
    StableHlo.after hostOps5 F (Proc.devRef .tc main_v62) = (asCol200k (F (Proc.devRef .tc main_v10)) : FVec Ideal S200000x1 .f32) := by
  simp only [hostOps5]
  after_results <;> rfl

/-- The second source-side factor as a column, again. -/
theorem col_v64 (F : Valuation τ sig (Elt Ideal)) :
    StableHlo.after hostOps6 F (Proc.devRef .tc main_v64) = (asCol200k (F (Proc.devRef .tc main_v20)) : FVec Ideal S200000x1 .f32) := by
  simp only [hostOps6]
  after_results <;> rfl

set_option maxHeartbeats 4000000 in
/-- The second layer's scaled rows gathered and summed into the 50000 side. -/
theorem gs_v75 (F : Valuation τ sig (Elt Ideal)) :
    StableHlo.after hostOps7 F (Proc.devRef .tc main_v75)
      = (gsCL (F (Proc.devRef .tc main_v65)) (F (Proc.devRef .tc main_arg12)) (F (Proc.devRef .tc main_arg13)) : FVec Ideal S50000x128 .f32) := by
  simp only [hostOps7]
  after_results_simp
  unfold gsCL col nrm200k
  rfl

/-- The second destination-side factor as a column, again. -/
theorem col_v76 (F : Valuation τ sig (Elt Ideal)) :
    StableHlo.after hostOps7 F (Proc.devRef .tc main_v76) = (asCol50k (F (Proc.devRef .tc main_v21)) : FVec Ideal S50000x1 .f32) := by
  simp only [hostOps7]
  after_results <;> rfl

/-! ## The four convolutions -/

/-- First layer, 50000 side into 200000 side: launches 0 and 1. -/
theorem lay1_lc (c : Dev nD) : W12 m ρ c (Proc.devRef .tc main_v35) = kerConvLC (m ((c : Thread nD τ).loc main_arg0)) (m ((c : Thread nD τ).loc main_arg2)) (m ((c : Thread nD τ).loc main_arg3)) (m ((c : Thread nD τ).loc main_arg10)) (m ((c : Thread nD τ).loc main_arg11)) := by
  rw [kerConvLC_eq]
  -- the dense launch's operands as it finds them
  have hx : V9 m ρ c main_arg0 = (m ((c : Thread nD τ).loc main_arg0)) := arg0_at9 m ρ c
  have hw : V9 m ρ c main_arg2 = (m ((c : Thread nD τ).loc main_arg2)) := arg2_at9 m ρ c
  have hs : V9 m ρ c main_v22 = asCol50k (rs50k (m ((c : Thread nD τ).loc main_arg10))) :=
    (show W9 m ρ c (Proc.devRef .tc main_v22) = _ from col_v22 (W8 m ρ c)).trans (by rw [v9_keep8, pre_v9])
  -- its output array
  have hd : W10 m ρ c (Proc.devRef .tc main_v23) = mmScale50k (m ((c : Thread nD τ).loc main_arg0)) (m ((c : Thread nD τ).loc main_arg2)) (asCol50k (rs50k (m ((c : Thread nD τ).loc main_arg10)))) :=
    ((W10_arr m ρ c 3).trans (arr0 (V9 m ρ) c)).trans (by rw [hx, hw, hs])
  -- the rectifier launch's operands as it finds them
  have ha : V11 m ρ c main_v33 = gsLC (mmScale50k (m ((c : Thread nD τ).loc main_arg0)) (m ((c : Thread nD τ).loc main_arg2)) (asCol50k (rs50k (m ((c : Thread nD τ).loc main_arg10))))) (m ((c : Thread nD τ).loc main_arg10)) (m ((c : Thread nD τ).loc main_arg11)) :=
    (show W11 m ρ c (Proc.devRef .tc main_v33) = _ from gs_v33 (W10 m ρ c)).trans (by rw [hd, arg10_at10, arg11_at10])
  have hb : V11 m ρ c main_arg3 = (m ((c : Thread nD τ).loc main_arg3)) := arg3_at11 m ρ c
  have ht : V11 m ρ c main_v34 = asCol200k (rs200k (m ((c : Thread nD τ).loc main_arg11))) :=
    (show W11 m ρ c (Proc.devRef .tc main_v34) = _ from col_v34 (W10 m ρ c)).trans (by rw [v10_keep10, pre_v10])
  exact ((W12_arr m ρ c 3).trans (arr1 (V11 m ρ) c)).trans (by rw [ha, hb, ht])

/-- First layer, 200000 side into 50000 side: launches 2 and 3. -/
theorem lay1_cl (c : Dev nD) : W16 m ρ c (Proc.devRef .tc main_v49) = kerConvCL (m ((c : Thread nD τ).loc main_arg1)) (m ((c : Thread nD τ).loc main_arg4)) (m ((c : Thread nD τ).loc main_arg5)) (m ((c : Thread nD τ).loc main_arg12)) (m ((c : Thread nD τ).loc main_arg13)) := by
  rw [kerConvCL_eq]
  -- the dense launch's operands as it finds them
  have hx : V13 m ρ c main_arg1 = (m ((c : Thread nD τ).loc main_arg1)) := arg1_at13 m ρ c
  have hw : V13 m ρ c main_arg4 = (m ((c : Thread nD τ).loc main_arg4)) := arg4_at13 m ρ c
  have hs : V13 m ρ c main_v36 = asCol200k (rs200k (m ((c : Thread nD τ).loc main_arg12))) :=
    (show W13 m ρ c (Proc.devRef .tc main_v36) = _ from col_v36 (W12 m ρ c)).trans (by rw [v20_keep12, pre_v20])
  -- its output array
  have hd : W14 m ρ c (Proc.devRef .tc main_v37) = mmScale200k (m ((c : Thread nD τ).loc main_arg1)) (m ((c : Thread nD τ).loc main_arg4)) (asCol200k (rs200k (m ((c : Thread nD τ).loc main_arg12)))) :=
    ((W14_arr m ρ c 3).trans (arr2 (V13 m ρ) c)).trans (by rw [hx, hw, hs])
  -- the rectifier launch's operands as it finds them
  have ha : V15 m ρ c main_v47 = gsCL (mmScale200k (m ((c : Thread nD τ).loc main_arg1)) (m ((c : Thread nD τ).loc main_arg4)) (asCol200k (rs200k (m ((c : Thread nD τ).loc main_arg12))))) (m ((c : Thread nD τ).loc main_arg12)) (m ((c : Thread nD τ).loc main_arg13)) :=
    (show W15 m ρ c (Proc.devRef .tc main_v47) = _ from gs_v47 (W14 m ρ c)).trans (by rw [hd, arg12_at14, arg13_at14])
  have hb : V15 m ρ c main_arg5 = (m ((c : Thread nD τ).loc main_arg5)) := arg5_at15 m ρ c
  have ht : V15 m ρ c main_v48 = asCol50k (rs50k (m ((c : Thread nD τ).loc main_arg13))) :=
    (show W15 m ρ c (Proc.devRef .tc main_v48) = _ from col_v48 (W14 m ρ c)).trans (by rw [v21_keep14, pre_v21])
  exact ((W16_arr m ρ c 3).trans (arr3 (V15 m ρ) c)).trans (by rw [ha, hb, ht])

/-- Second layer, 50000 side into 200000 side: launches 4 and 5, fed by the first layer's 50000-side output. -/
theorem lay2_lc (c : Dev nD) : W20 m ρ c (Proc.devRef .tc main_v63) = kerConvLC (kerConvCL (m ((c : Thread nD τ).loc main_arg1)) (m ((c : Thread nD τ).loc main_arg4)) (m ((c : Thread nD τ).loc main_arg5)) (m ((c : Thread nD τ).loc main_arg12)) (m ((c : Thread nD τ).loc main_arg13))) (m ((c : Thread nD τ).loc main_arg6)) (m ((c : Thread nD τ).loc main_arg7)) (m ((c : Thread nD τ).loc main_arg10)) (m ((c : Thread nD τ).loc main_arg11)) := by
  rw [kerConvLC_eq]
  -- the dense launch's operands as it finds them
  have hx : V17 m ρ c main_v49 = (kerConvCL (m ((c : Thread nD τ).loc main_arg1)) (m ((c : Thread nD τ).loc main_arg4)) (m ((c : Thread nD τ).loc main_arg5)) (m ((c : Thread nD τ).loc main_arg12)) (m ((c : Thread nD τ).loc main_arg13))) := (v49_keep17 m ρ c).trans (lay1_cl m ρ c)
  have hw : V17 m ρ c main_arg6 = (m ((c : Thread nD τ).loc main_arg6)) := arg6_at17 m ρ c
  have hs : V17 m ρ c main_v50 = asCol50k (rs50k (m ((c : Thread nD τ).loc main_arg10))) :=
    (show W17 m ρ c (Proc.devRef .tc main_v50) = _ from col_v50 (W16 m ρ c)).trans (by rw [v9_keep16, pre_v9])
  -- its output array
  have hd : W18 m ρ c (Proc.devRef .tc main_v51) = mmScale50k (kerConvCL (m ((c : Thread nD τ).loc main_arg1)) (m ((c : Thread nD τ).loc main_arg4)) (m ((c : Thread nD τ).loc main_arg5)) (m ((c : Thread nD τ).loc main_arg12)) (m ((c : Thread nD τ).loc main_arg13))) (m ((c : Thread nD τ).loc main_arg6)) (asCol50k (rs50k (m ((c : Thread nD τ).loc main_arg10)))) :=
    ((W18_arr m ρ c 3).trans (arr4 (V17 m ρ) c)).trans (by rw [hx, hw, hs])
  -- the rectifier launch's operands as it finds them
  have ha : V19 m ρ c main_v61 = gsLC (mmScale50k (kerConvCL (m ((c : Thread nD τ).loc main_arg1)) (m ((c : Thread nD τ).loc main_arg4)) (m ((c : Thread nD τ).loc main_arg5)) (m ((c : Thread nD τ).loc main_arg12)) (m ((c : Thread nD τ).loc main_arg13))) (m ((c : Thread nD τ).loc main_arg6)) (asCol50k (rs50k (m ((c : Thread nD τ).loc main_arg10))))) (m ((c : Thread nD τ).loc main_arg10)) (m ((c : Thread nD τ).loc main_arg11)) :=
    (show W19 m ρ c (Proc.devRef .tc main_v61) = _ from gs_v61 (W18 m ρ c)).trans (by rw [hd, arg10_at18, arg11_at18])
  have hb : V19 m ρ c main_arg7 = (m ((c : Thread nD τ).loc main_arg7)) := arg7_at19 m ρ c
  have ht : V19 m ρ c main_v62 = asCol200k (rs200k (m ((c : Thread nD τ).loc main_arg11))) :=
    (show W19 m ρ c (Proc.devRef .tc main_v62) = _ from col_v62 (W18 m ρ c)).trans (by rw [v10_keep18, pre_v10])
  exact ((W20_arr m ρ c 3).trans (arr5 (V19 m ρ) c)).trans (by rw [ha, hb, ht])

/-- Second layer, 200000 side into 50000 side: launches 6 and 7, fed by the first layer's 200000-side output. -/
theorem lay2_cl (c : Dev nD) : W24 m ρ c (Proc.devRef .tc main_v77) = kerConvCL (kerConvLC (m ((c : Thread nD τ).loc main_arg0)) (m ((c : Thread nD τ).loc main_arg2)) (m ((c : Thread nD τ).loc main_arg3)) (m ((c : Thread nD τ).loc main_arg10)) (m ((c : Thread nD τ).loc main_arg11))) (m ((c : Thread nD τ).loc main_arg8)) (m ((c : Thread nD τ).loc main_arg9)) (m ((c : Thread nD τ).loc main_arg12)) (m ((c : Thread nD τ).loc main_arg13)) := by
  rw [kerConvCL_eq]
  -- the dense launch's operands as it finds them
  have hx : V21 m ρ c main_v35 = (kerConvLC (m ((c : Thread nD τ).loc main_arg0)) (m ((c : Thread nD τ).loc main_arg2)) (m ((c : Thread nD τ).loc main_arg3)) (m ((c : Thread nD τ).loc main_arg10)) (m ((c : Thread nD τ).loc main_arg11))) := (v35_keep21 m ρ c).trans (lay1_lc m ρ c)
  have hw : V21 m ρ c main_arg8 = (m ((c : Thread nD τ).loc main_arg8)) := arg8_at21 m ρ c
  have hs : V21 m ρ c main_v64 = asCol200k (rs200k (m ((c : Thread nD τ).loc main_arg12))) :=
    (show W21 m ρ c (Proc.devRef .tc main_v64) = _ from col_v64 (W20 m ρ c)).trans (by rw [v20_keep20, pre_v20])
  -- its output array
  have hd : W22 m ρ c (Proc.devRef .tc main_v65) = mmScale200k (kerConvLC (m ((c : Thread nD τ).loc main_arg0)) (m ((c : Thread nD τ).loc main_arg2)) (m ((c : Thread nD τ).loc main_arg3)) (m ((c : Thread nD τ).loc main_arg10)) (m ((c : Thread nD τ).loc main_arg11))) (m ((c : Thread nD τ).loc main_arg8)) (asCol200k (rs200k (m ((c : Thread nD τ).loc main_arg12)))) :=
    ((W22_arr m ρ c 3).trans (arr6 (V21 m ρ) c)).trans (by rw [hx, hw, hs])
  -- the rectifier launch's operands as it finds them
  have ha : V23 m ρ c main_v75 = gsCL (mmScale200k (kerConvLC (m ((c : Thread nD τ).loc main_arg0)) (m ((c : Thread nD τ).loc main_arg2)) (m ((c : Thread nD τ).loc main_arg3)) (m ((c : Thread nD τ).loc main_arg10)) (m ((c : Thread nD τ).loc main_arg11))) (m ((c : Thread nD τ).loc main_arg8)) (asCol200k (rs200k (m ((c : Thread nD τ).loc main_arg12))))) (m ((c : Thread nD τ).loc main_arg12)) (m ((c : Thread nD τ).loc main_arg13)) :=
    (show W23 m ρ c (Proc.devRef .tc main_v75) = _ from gs_v75 (W22 m ρ c)).trans (by rw [hd, arg12_at22, arg13_at22])
  have hb : V23 m ρ c main_arg9 = (m ((c : Thread nD τ).loc main_arg9)) := arg9_at23 m ρ c
  have ht : V23 m ρ c main_v76 = asCol50k (rs50k (m ((c : Thread nD τ).loc main_arg13))) :=
    (show W23 m ρ c (Proc.devRef .tc main_v76) = _ from col_v76 (W22 m ρ c)).trans (by rw [v21_keep22, pre_v21])
  exact ((W24_arr m ρ c 3).trans (arr7 (V23 m ρ) c)).trans (by rw [ha, hb, ht])

/-! ## The two results at the last boundary -/

/-- The first result: the second layer's 200000-to-50000 convolution of the first layer's 50000-to-200000 one. -/
theorem fold_v77 (c : Dev nD) : W24 m ρ c (Proc.devRef .tc main_v77) = kerConvCL (kerConvLC (m ((c : Thread nD τ).loc main_arg0)) (m ((c : Thread nD τ).loc main_arg2)) (m ((c : Thread nD τ).loc main_arg3)) (m ((c : Thread nD τ).loc main_arg10)) (m ((c : Thread nD τ).loc main_arg11))) (m ((c : Thread nD τ).loc main_arg8)) (m ((c : Thread nD τ).loc main_arg9)) (m ((c : Thread nD τ).loc main_arg12)) (m ((c : Thread nD τ).loc main_arg13)) :=
  lay2_cl m ρ c

/-- The second result: the second layer's 50000-to-200000 convolution of the first layer's 200000-to-50000 one; nothing
    after launch 5 writes it. -/
theorem fold_v63 (c : Dev nD) : W24 m ρ c (Proc.devRef .tc main_v63) = kerConvLC (kerConvCL (m ((c : Thread nD τ).loc main_arg1)) (m ((c : Thread nD τ).loc main_arg4)) (m ((c : Thread nD τ).loc main_arg5)) (m ((c : Thread nD τ).loc main_arg12)) (m ((c : Thread nD τ).loc main_arg13))) (m ((c : Thread nD τ).loc main_arg6)) (m ((c : Thread nD τ).loc main_arg7)) (m ((c : Thread nD τ).loc main_arg10)) (m ((c : Thread nD τ).loc main_arg11)) :=
  (v63_keep24 m ρ c).trans (lay2_lc m ρ c)

end Cert.KernelIdeal.Fold

end
-- ==== Proof.RefTerm.lean ====
/-
  The reference program's two results, read as nested convolutions.

  The reference's run ends with each result at the composed term of its operations.  That term is, literally, the
  second layer's convolution applied to the first layer's: the node features of one side pass through the convolution
  into the other side and back.  Nothing is computed here: the named convolutions unfold to the printed term.
-/
import proofs.«147064_j29274497089997_2_alg».proof.Proof.Gen.ReferenceIdeal.Run
import proofs.«147064_j29274497089997_2_alg».proof.Proof.Conv

set_option maxRecDepth 16384

noncomputable section

namespace Cert.ReferenceIdeal.RefValue

open Cert.ReferenceIdeal Cert.ReferenceIdeal.Value Cert.ReferenceIdeal.Facts₀ Cert.Conv
open Idealize.ShloMosaic Idealize.ShloMosaic.TcCoe Idealize.SL.Sem

variable (m : (ℓ : Loc nD τ sig) → Buf (Elt Ideal) ℓ)

/-- The first result (one row per node of the 50000 side): the second layer's convolution from the 200000 side, applied
    to the first layer's convolution from the 50000 side. -/
theorem out0_eq (c : Dev nD) :
    res_main_v174 (F := Ideal) m c
      = refConvCL
          (refConvLC (m ((c.tc : Thread nD τ).loc main_arg0)) (m ((c.tc : Thread nD τ).loc main_arg2))
            (m ((c.tc : Thread nD τ).loc main_arg3)) (m ((c.tc : Thread nD τ).loc main_arg10)) (m ((c.tc : Thread nD τ).loc main_arg11)))
          (m ((c.tc : Thread nD τ).loc main_arg8)) (m ((c.tc : Thread nD τ).loc main_arg9))
          (m ((c.tc : Thread nD τ).loc main_arg12)) (m ((c.tc : Thread nD τ).loc main_arg13)) := by
  unfold res_main_v174 refConvCL refConvLC rs50k rs200k nrm50k nrm200k col
  rfl

/-- The second result (one row per node of the 200000 side): the second layer's convolution from the 50000 side, applied
    to the first layer's convolution from the 200000 side. -/
theorem out1_eq (c : Dev nD) :
    res_main_v175 (F := Ideal) m c
      = refConvLC
          (refConvCL (m ((c.tc : Thread nD τ).loc main_arg1)) (m ((c.tc : Thread nD τ).loc main_arg4))
            (m ((c.tc : Thread nD τ).loc main_arg5)) (m ((c.tc : Thread nD τ).loc main_arg12)) (m ((c.tc : Thread nD τ).loc main_arg13)))
          (m ((c.tc : Thread nD τ).loc main_arg6)) (m ((c.tc : Thread nD τ).loc main_arg7))
          (m ((c.tc : Thread nD τ).loc main_arg10)) (m ((c.tc : Thread nD τ).loc main_arg11)) := by
  unfold res_main_v175 refConvCL refConvLC rs50k rs200k nrm50k nrm200k col
  rfl

end Cert.ReferenceIdeal.RefValue

end
-- ==== Proof.LibStraightThrough.lean ====
/-
  Laws on the extended reals for a weight used through the "straight-through" form and for a sigmoid written out.

  • The f32 word 0x3F800000 is the number 1 and the f32 word 0x7F800000 is +∞.
  • An extended real x with |x| = max(x, -x) < +∞ is a real number (the finiteness test a precondition states per entry).
  • For a REAL number w and ANY extended real q:  w + (q - w) = q.  At q = ±∞ both sides are q, because adding or
    subtracting a real leaves an infinity unchanged; so a program that multiplies by  w + (q(w) - w)  multiplies by
    q(w) as soon as w is finite, with nothing asked of q(w).
  • 1 / (1 + e^(-g)) written with the f32 word 1.0 is the sigmoid of g, on every extended real.
-/
import Idealize.ShloMosaic.PureOps.Ideal
import Idealize.ShloMosaic.PureOps.IdealRules

noncomputable section

namespace Cert.LibStraightThrough

open Idealize.ShloMosaic

/-- The f32 word 0x3F800000 is the number 1. -/
theorem one_f32 : Ideal.ofBits .f32 0x3F800000#32 = 1 := IdealRules.sign_bit.ideal_onePat .f32

/-- The f32 word 0x7F800000 is +∞. -/
theorem inf_f32 : Ideal.ofBits .f32 0x7F800000#32 = ⊤ := by simp [Ideal.ofBits, Ideal.ieee]

/-- An extended real whose absolute value compares below the f32 word +∞ is a real number. -/
theorem real_of_abs_lt_inf (x : EReal)
    (h : Ideal.cmp .olt (max x (-x)) (Ideal.ofBits .f32 0x7F800000#32) = 1#1) : ∃ r : ℝ, x = (r : EReal) := by
  rw [inf_f32] at h
  induction x with
  | bot => exact absurd h (by simp [Ideal.cmp])
  | top => exact absurd h (by simp [Ideal.cmp])
  | coe r => exact ⟨r, rfl⟩

/-- For a real `w` and any extended real `q`: w + (q - w) = q. -/
theorem add_sub_cancel_real (w : ℝ) (q : EReal) : (w : EReal) + (q - (w : EReal)) = q := by
  induction q with
  | bot => rw [EReal.bot_sub, EReal.add_bot]
  | top => rw [EReal.top_sub_coe, EReal.add_top_of_ne_bot (EReal.coe_ne_bot w)]
  | coe r => rw [← EReal.coe_sub, ← EReal.coe_add]; exact congrArg _ (by ring)

/-- 1 / (1 + e^(-g)) written with the f32 word 1.0 is the sigmoid of g, on every extended real. -/
theorem logistic_spelt (g : EReal) :
    Ideal.div (Ideal.ofBits .f32 0x3F800000#32) (Ideal.ofBits .f32 0x3F800000#32 + Ideal.exp (-g)) = Ideal.logistic g := by
  rw [one_f32]; rfl

end Cert.LibStraightThrough

end
-- ==== Proof.LibScatterAdd.lean ====
/-
  Two general facts about an accumulating scatter read at one element of its result.

  1. `ScatterDims.resultIdx?_eq_some_iff`: update index `j` lands on the operand index `i` exactly when, on every operand
     axis, the window's start plus the window coordinate IS `i`'s coordinate (as integers: the start is read signed and is
     not clamped, and an update that leaves the operand lands nowhere).
  2. `sum_filter_two`: a sum over the indices satisfying a predicate that has at most two solutions, `a` (when `ca`)
     and `b` (when `cb`), is the sum of the two terms that are there. In an overlap-add every output sample is met by
     at most two update elements; the same shape serves any scatter whose colliding updates are at most two.
  Together with `Ideal.hostScatterAdd` (the operand element plus the sum of the updates that land on it) they read the
  scatter at an index without listing the updates.
-/
import Idealize.ShloMosaic.PureOps.Ideal

namespace Idealize.ShloMosaic

namespace ScatterDims

variable {s si u : Shape} (d : ScatterDims s si u)

/-- Update index `j` lands on `i` iff start plus window coordinate is `i`'s coordinate on every operand axis. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      have := h a
      show d.start j idx a + (d.window j a : Int) = (((d.start j idx a + (d.window j a : Int)).toNat : Nat) : Int)
      omega
    · intro hh
      funext a
      apply Fin.ext
      have := hh a
      show (d.start j idx a + (d.window j a : Int)).toNat = (i a).val
      omega
  · rename_i h
    constructor
    · intro hh; exact absurd hh (by simp)
    · intro hh
      exact absurd (fun a => by have := hh a; have := (i a).isLt; omega) h

end ScatterDims

/-- A sum over the solutions of a predicate with at most two solutions: `a` when `ca` holds, `b` when `cb` holds. -/
theorem sum_filter_two {ι M : Type*} [Fintype ι] [DecidableEq ι] [AddCommMonoid M] (P : ι → Prop) [DecidablePred P]
    (f : ι → M) (a b : ι) (ca cb : Prop) [Decidable ca] [Decidable cb] (hab : a ≠ b)
    (hP : ∀ j, P j ↔ (ca ∧ j = a) ∨ (cb ∧ j = b)) :
    ∑ j ∈ Finset.univ.filter P, f j = (if ca then f a else 0) + (if cb then f b else 0) := by
  by_cases ha : ca <;> by_cases hb : cb
  · have e : Finset.univ.filter P = {a, b} := by
      ext j; simp only [Finset.mem_filter, Finset.mem_univ, true_and, Finset.mem_insert, Finset.mem_singleton, hP j]
      constructor
      · rintro (⟨-, h⟩ | ⟨-, h⟩)
        · exact Or.inl h
        · exact Or.inr h
      · rintro (h | h)
        · exact Or.inl ⟨ha, h⟩
        · exact Or.inr ⟨hb, h⟩
    rw [e, Finset.sum_pair hab, if_pos ha, if_pos hb]
  · have e : Finset.univ.filter P = {a} := by
      ext j; simp only [Finset.mem_filter, Finset.mem_univ, true_and, Finset.mem_singleton, hP j]
      constructor
      · rintro (⟨-, h⟩ | ⟨h, -⟩)
        · exact h
        · exact absurd h hb
      · intro h; exact Or.inl ⟨ha, h⟩
    rw [e, Finset.sum_singleton, if_pos ha, if_neg hb, add_zero]
  · have e : Finset.univ.filter P = {b} := by
      ext j; simp only [Finset.mem_filter, Finset.mem_univ, true_and, Finset.mem_singleton, hP j]
      constructor
      · rintro (⟨h, -⟩ | ⟨-, h⟩)
        · exact absurd h ha
        · exact h
      · intro h; exact Or.inr ⟨hb, h⟩
    rw [e, Finset.sum_singleton, if_neg ha, if_pos hb, zero_add]
  · have e : Finset.univ.filter P = ∅ := by
      ext j; simp only [Finset.mem_filter, Finset.mem_univ, true_and, hP j, Finset.notMem_empty, iff_false]
      rintro (⟨h, -⟩ | ⟨h, -⟩)
      · exact ha h
      · exact hb h
    rw [e, Finset.sum_empty, if_neg ha, if_neg hb, add_zero]

end Idealize.ShloMosaic
-- ==== Proof.LibRowIndexed.lean ====
/-
  Row-indexed gathers and scatters, read at coordinates.

  A table of rows `[N, C]` (or a vector `[N]`) is addressed by a column of index words `[E, 1]`:
  * a scatter (`x.at[idx].add(u)`) lands update row `e` on table row `i` exactly when the word `idx[e, 0]`, read as a
    signed integer and NOT clamped, is `i`; a word outside `[0, N)` lands nowhere;
  * a gather (`x[idx]`) reads, for result row `e`, the table row `nodeOf idx[e, 0]`: the word read signed and clamped
    into `[0, N - 1]`.
  So the accumulating scatter at table row `i` is the operand plus the sum over the edges `e` with `idx[e, 0] = i`.
-/
import Idealize.ShloMosaic.PureOps.Ideal
import Idealize.ShloMosaic.Lib.ValueIdx
import Idealize.ShloMosaic.Lib.Pipeline.Value
import proofs.«147064_j29274497089997_2_alg».proof.Proof.LibScatterAdd

namespace Idealize.ShloMosaic.RowIndexed

open ValueIdx

/-- The row an index word addresses in a gather: read signed, clamped into `[0, N - 1]`. -/
def nodeOf (N : Nat) (hN : 0 < N) {w : Nat} (v : BitVec w) : Fin N := ⟨min v.toInt.toNat (N - 1), by omega⟩

/-! ## Scatter into a table of rows -/

/-- The dimension numbers of `x.at[idx].add(u)` for a table `[N, C]`, index words `[E, 1]`, update rows `[E, C]`. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update entry `(e, c)` lands on table entry `(i, c')` iff the index word of row `e`, read signed, is `i`, and `c = c'`. -/
theorem rowScatter_lands {N E C w : Nat} (wf) (idx : IVec ⟨2, ![E, 1]⟩ w) (e : Fin E) (c : Fin C) (i : Fin N) (c' : Fin C) :
    (rowScatter N E C wf).resultIdx? (ix2 e c) idx = some (ix2 i c') ↔ (idx (ix2 e 0)).toInt = (i.val : Int) ∧ c = c' := by
  rw [ScatterDims.resultIdx?_eq_some_iff]
  have hs0 : (rowScatter N E C wf).start (ix2 e c) idx 0 = (idx (ix2 e 0)).toInt := by
    unfold ScatterDims.start
    rw [dif_pos (show (0 : Fin 2) ∈ (rowScatter N E C wf).scatterDimsToOperandDims from List.mem_singleton.mpr rfl)]
    congr 2
    funext b
    refine Fin.ext ?_
    match b with
    | ⟨0, _⟩ => rfl
    | ⟨1, _⟩ => rfl
  have hs1 : (rowScatter N E C wf).start (ix2 e c) idx 1 = 0 := by
    unfold ScatterDims.start
    rw [dif_neg (show (1 : Fin 2) ∉ ([0] : List (Fin 2)) from by decide)]
  have hw0 : (rowScatter N E C wf).window (ix2 e c) 0 = 0 := by
    unfold ScatterDims.window
    have hm : (0 : Fin 2) ∉ (rowScatter N E C wf).sKept := by
      show (0 : Fin 2) ∉ (List.finRange 2).filter (· ∉ ([0] : List (Fin 2)))
      decide
    rw [dif_neg hm]
  have hw1 : (rowScatter N E C wf).window (ix2 e c) 1 = c.val := by
    unfold ScatterDims.window
    have hm : (1 : Fin 2) ∈ (rowScatter N E C wf).sKept := by
      show (1 : Fin 2) ∈ (List.finRange 2).filter (· ∉ ([0] : List (Fin 2)))
      decide
    rw [dif_pos hm]
    rfl
  constructor
  · intro h
    have h0 := h 0
    have h1 := h 1
    rw [hs0, hw0] at h0
    rw [hs1, hw1] at h1
    have e0 : (((ix2 i c' : (⟨2, ![N, C]⟩ : Shape).Idx) 0).val : Int) = (i.val : Int) := rfl
    have e1 : (((ix2 i c' : (⟨2, ![N, C]⟩ : Shape).Idx) 1).val : Int) = (c'.val : Int) := rfl
    refine ⟨by omega, Fin.ext (by omega)⟩
  · rintro ⟨h0, rfl⟩ a
    match a with
    | ⟨0, _⟩ => show (rowScatter N E C wf).start (ix2 e c) idx 0 + ((rowScatter N E C wf).window (ix2 e c) 0 : Int) = _; rw [hs0, hw0, h0]; simp
    | ⟨1, _⟩ => show (rowScatter N E C wf).start (ix2 e c) idx 1 + ((rowScatter N E C wf).window (ix2 e c) 1 : Int) = _; rw [hs1, hw1]; simp

/-- The accumulating scatter at table entry `(i, c)`: the operand there plus the update entries `(e, c)` of the edges
    `e` whose index word is `i`. -/
theorem rowScatter_add_apply {N E C w : Nat} (wf) (x : (⟨2, ![N, C]⟩ : Shape).Idx → EReal) (idx : IVec ⟨2, ![E, 1]⟩ w)
    (upd : (⟨2, ![E, C]⟩ : Shape).Idx → EReal) (i : Fin N) (c : Fin C) :
    Ideal.hostScatterAdd (rowScatter N E C wf) x idx upd (ix2 i c)
      = x (ix2 i c) + ∑ e ∈ Finset.univ.filter (fun e : Fin E => (idx (ix2 e 0)).toInt = (i.val : Int)), upd (ix2 e c) := by
  unfold Ideal.hostScatterAdd
  congr 1
  rw [Finset.sum_filter, sum_idx2, Finset.sum_filter]
  refine Finset.sum_congr rfl fun e _ => ?_
  simp only [rowScatter_lands]
  by_cases h : (idx (ix2 e 0)).toInt = (i.val : Int)
  · simp only [h, true_and, if_true]
    rw [Finset.sum_ite_eq' Finset.univ c (fun c' => upd (ix2 e c'))]
    simp
  · simp only [h, false_and, if_false]
    exact Finset.sum_const_zero

/-! ## Scatter into a vector -/

/-- The dimension numbers of `x.at[idx].add(u)` for a vector `[N]`, index words `[E, 1]`, updates `[E]`. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on vector entry `i` iff the index word of row `e`, read signed, is `i`. -/
theorem vecScatter_lands {N E w : Nat} (wf) (idx : IVec ⟨2, ![E, 1]⟩ w) (e : Fin E) (i : Fin N) :
    (vecScatter N E wf).resultIdx? (ix1 e) idx = some (ix1 i) ↔ (idx (ix2 e 0)).toInt = (i.val : Int) := by
  rw [ScatterDims.resultIdx?_eq_some_iff]
  have hs0 : (vecScatter N E wf).start (ix1 e) idx 0 = (idx (ix2 e 0)).toInt := by
    unfold ScatterDims.start
    rw [dif_pos (show (0 : Fin 1) ∈ (vecScatter N E wf).scatterDimsToOperandDims from List.mem_singleton.mpr rfl)]
    congr 2
    funext b
    refine Fin.ext ?_
    match b with
    | ⟨0, _⟩ => rfl
    | ⟨1, _⟩ => rfl
  have hw0 : (vecScatter N E wf).window (ix1 e) 0 = 0 := by
    unfold ScatterDims.window
    have hm : (0 : Fin 1) ∉ (vecScatter N E wf).sKept := by
      show (0 : Fin 1) ∉ (List.finRange 1).filter (· ∉ ([0] : List (Fin 1)))
      decide
    rw [dif_neg hm]
  have e0 : (((ix1 i : (⟨1, ![N]⟩ : Shape).Idx) 0).val : Int) = (i.val : Int) := rfl
  constructor
  · intro h
    have h0 := h 0
    rw [hs0, hw0] at h0
    omega
  · intro h0 a
    obtain rfl : a = 0 := Subsingleton.elim _ _
    rw [hs0, hw0, h0]; omega

/-- A sum over the index set of a vector is the sum over its one coordinate. -/
theorem sum_idx1 {M : Type*} [AddCommMonoid M] {n : Nat} (f : (⟨1, ![n]⟩ : Shape).Idx → M) :
    ∑ i, f i = ∑ a : Fin n, f (ix1 a) :=
  (Fintype.sum_equiv (⟨fun i => i 0, ix1, fun i => (eq_ix1 i).symm, fun _ => rfl⟩ : (⟨1, ![n]⟩ : Shape).Idx ≃ Fin n)
    f (fun a => f (ix1 a)) (fun i => congrArg f (eq_ix1 i)))

/-- The accumulating scatter at vector entry `i`: the operand there plus the updates of the edges whose index word is `i`. -/
theorem vecScatter_add_apply {N E w : Nat} (wf) (x : (⟨1, ![N]⟩ : Shape).Idx → EReal) (idx : IVec ⟨2, ![E, 1]⟩ w)
    (upd : (⟨1, ![E]⟩ : Shape).Idx → EReal) (i : Fin N) :
    Ideal.hostScatterAdd (vecScatter N E wf) x idx upd (ix1 i)
      = x (ix1 i) + ∑ e ∈ Finset.univ.filter (fun e : Fin E => (idx (ix2 e 0)).toInt = (i.val : Int)), upd (ix1 e) := by
  unfold Ideal.hostScatterAdd
  congr 1
  rw [Finset.sum_filter, sum_idx1, Finset.sum_filter]
  refine Finset.sum_congr rfl fun e _ => ?_
  simp only [vecScatter_lands]

/-! ## Gathers of rows and of vector entries -/

/-- The dimension numbers of `x[idx]` for a table `[N, C]` and index words `[E, 1]`: whole rows, `[E, C]`. -/
abbrev rowGather (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Result entry `(e, c)` of a row gather is the table's entry `(nodeOf idx[e, 0], c)`. -/
theorem rowGather_apply {α : Type} {N E C w : Nat} (hN : 0 < N) (wf) (x : (⟨2, ![N, C]⟩ : Shape).Idx → α)
    (idx : IVec ⟨2, ![E, 1]⟩ w) (e : Fin E) (c : Fin C) :
    Host.gather (rowGather N E C wf) x idx (ix2 e c) = x (ix2 (nodeOf N hN (idx (ix2 e 0))) c) := by
  unfold Host.gather
  congr 1
  funext a
  refine Fin.ext ?_
  match a with
  | ⟨0, _⟩ =>
    show (rowGather N E C wf).start (ix2 e c) idx 0 + (rowGather N E C wf).batchCoord (ix2 e c) 0 + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1 + (rowGather N E C wf).offCoord (ix2 e c) 1 = c.val
    rw [GatherDims.batchCoord_eq_zero _ _ _ List.not_mem_nil]
    have hs : (rowGather N E C wf).start (ix2 e c) idx 1 = 0 := by
      unfold GatherDims.start
      rw [dif_neg (show (1 : Fin 2) ∉ ([0] : List (Fin 2)) from by decide)]
    have ho : (rowGather N E C wf).offCoord (ix2 e c) 1 = c.val := by
      unfold GatherDims.offCoord
      have hm : (1 : Fin 2) ∈ (rowGather N E C wf).sKept :=
        (GatherDims.mem_sKept _ _).mpr ⟨fun h => absurd (List.mem_singleton.mp h) (show (1 : Fin 2) ≠ 0 from by decide), List.not_mem_nil⟩
      rw [dif_pos hm]
      rfl
    rw [hs, ho]; simp

/-- The dimension numbers of `x[idx]` for a vector `[N]` and index words `[E, 1]`: entries, `[E]`. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result entry `e` of a vector gather is the vector's entry `nodeOf idx[e, 0]`. -/
theorem vecGather_apply {α : Type} {N E w : Nat} (hN : 0 < N) (wf) (x : (⟨1, ![N]⟩ : Shape).Idx → α)
    (idx : IVec ⟨2, ![E, 1]⟩ w) (e : Fin E) :
    Host.gather (vecGather N E wf) x idx (ix1 e) = x (ix1 (nodeOf N hN (idx (ix2 e 0)))) := by
  unfold Host.gather
  congr 1
  funext a
  obtain rfl : a = 0 := Subsingleton.elim _ _
  refine Fin.ext ?_
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Small reads used with the above -/

/-- At the exact values the host's accumulating scatter is the sum form. -/
theorem scatterAdd_ideal {s si u : Shape} {φ : FTy} {w : Nat} (d : ScatterDims s si u) (x : FVec Ideal s φ) (idx : IVec si w)
    (upd : FVec Ideal u φ) : Host.scatterAdd d x idx upd = Ideal.hostScatterAdd d x idx upd := rfl

/-- A scalar broadcast to any shape reads the scalar everywhere. -/
theorem bcast_scalar_apply {t : Shape} {α : Type} (h : (⟨0, ![]⟩ : Shape).BroadcastsInDim t ![])
    (x : (⟨0, ![]⟩ : Shape).Idx → α) (j : t.Idx) : broadcastInDim t ![] h x j = x ix0 :=
  broadcastInDim_apply _ h x j ix0 (fun a => a.elim0)

/-- A vector of `E` entries kept as a column `[E, 1]` reads entry `e` at `(e, 0)`. -/
theorem col_apply {E : Nat} {α : Type} (h : (⟨1, ![E]⟩ : Shape).BroadcastsInDim ⟨2, ![E, 1]⟩ ![0])
    (v : (⟨1, ![E]⟩ : Shape).Idx → α) (e : Fin E) : broadcastInDim ⟨2, ![E, 1]⟩ ![0] h v (ix2 e (0 : Fin 1)) = v (ix1 e) :=
  broadcastInDim_apply _ h v (ix2 e (0 : Fin 1)) (ix1 e) (fun a => match a with
    | ⟨0, _⟩ => by
      show e.val = if E = 1 then 0 else e.val
      split
      · have := e.isLt; omega
      · rfl)

end Idealize.ShloMosaic.RowIndexed
-- ==== Proof.LibNormalisedSum.lean ====
/-
  The laws that join the two groupings of one graph convolution, apart from any program.

  Fix a destination node and a column. Over the edges e that land on the node, one side forms
      (0 + Σ_e m e · s e) · r + β
  and the other
      (0 + Σ_e m e · (s e · t e)) + β,
  where every t e equals the same non-negative REAL number r (the inverse square root of the clipped in-degree of the
  node the edges land on). On the extended reals a sum may be multiplied through by a factor only when the factor is a
  non-negative real: an infinite or a negative factor breaks distributivity as soon as the sum meets +∞ and -∞. With a
  non-negative real factor the two sides agree whatever the m e and s e are, infinite values included.

  Also here: the inverse square root of a clipped edge count is such a non-negative real; an index word that is not
  negative is left alone by the wrap-around of negative indices and addresses its own row; and a bias row put beside
  every row of a matrix.
-/
import Idealize.ShloMosaic.PureOps.Ideal
import Idealize.ShloMosaic.Lib.ValueIdx
import Idealize.ShloMosaic.Lib.Pipeline.Value
import proofs.«147064_j29274497089997_2_alg».proof.Proof.LibStraightThrough
import proofs.«147064_j29274497089997_2_alg».proof.Proof.LibRowIndexed

noncomputable section

namespace Cert.ConvAlg

open Idealize.ShloMosaic Idealize.ShloMosaic.ValueIdx

variable {ι : Type*}

/-! ## Sums against a non-negative real factor -/

/-- A finite sum of extended reals times a non-negative real is the sum of the products. -/
theorem sum_mul_real (L : Finset ι) (a : ι → EReal) (r : ℝ) (hr : 0 ≤ r) :
    (∑ e ∈ L, a e) * (r : EReal) = ∑ e ∈ L, a e * (r : EReal) := by
  classical
  refine Finset.induction_on L ?_ ?_
  · rw [Finset.sum_empty, Finset.sum_empty, zero_mul]
  · intro x s hx ih
    rw [Finset.sum_insert hx, Finset.sum_insert hx,
      EReal.right_distrib_of_nonneg_of_ne_top (EReal.coe_nonneg.2 hr) (EReal.coe_ne_top r), ih]

/-- Scaling the sum by r afterwards, or scaling every term by a factor equal to r beforehand, is the same. -/
theorem regroup (L : Finset ι) (m s t : ι → EReal) (r : ℝ) (hr : 0 ≤ r) (ht : ∀ e ∈ L, t e = (r : EReal)) (β : EReal) :
    (0 + ∑ e ∈ L, m e * s e) * (r : EReal) + β = (0 + ∑ e ∈ L, m e * (s e * t e)) + β := by
  rw [zero_add, zero_add, sum_mul_real L _ r hr]
  congr 1
  refine Finset.sum_congr rfl fun e he => ?_
  rw [ht e he, mul_assoc]

/-- The same law with the two summands named: if one side's terms are m e · s e and the other side's are
    m e · (s e · t e), with every t e equal to the non-negative real r, then scaling the first sum by r gives the
    second sum. -/
theorem regroup_terms (L : Finset ι) (u v m s t : ι → EReal) (r : ℝ) (hr : 0 ≤ r)
    (hu : ∀ e ∈ L, u e = m e * s e) (hv : ∀ e ∈ L, v e = m e * (s e * t e)) (ht : ∀ e ∈ L, t e = (r : EReal)) (β : EReal) :
    (0 + ∑ e ∈ L, u e) * (r : EReal) + β = (0 + ∑ e ∈ L, v e) + β := by
  rw [Finset.sum_congr rfl hu, Finset.sum_congr rfl hv]
  exact regroup L m s t r hr ht β

/-! ## The inverse square root of a clipped count -/

/-- A count of edges, clipped below at one, has a non-negative real inverse square root. -/
theorem rsqrt_clip_count (L : Finset ι) :
    ∃ r : ℝ, 0 ≤ r ∧ Ideal.rsqrt (max (1 : EReal) (0 + ∑ _e ∈ L, (1 : EReal))) = (r : EReal) := by
  have hc : (0 + ∑ _e ∈ L, (1 : EReal)) = ((L.card : ℝ) : EReal) := by
    rw [zero_add, Finset.sum_const, ← EReal.coe_one, ← EReal.coe_nsmul, nsmul_one]
  have hm : max (1 : EReal) ((L.card : ℝ) : EReal) = ((max 1 (L.card : ℝ) : ℝ) : EReal) := by
    rw [← EReal.coe_one]
    exact (EReal.coe_strictMono.monotone.map_max).symm
  have hpos : (0 : ℝ) < max 1 (L.card : ℝ) := lt_of_lt_of_le one_pos (le_max_left _ _)
  refine ⟨(Real.sqrt (max 1 (L.card : ℝ)))⁻¹, inv_nonneg.2 (Real.sqrt_nonneg _), ?_⟩
  rw [hc, hm, Ideal.rsqrt_coe, if_neg (not_lt.2 hpos.le), if_neg hpos.ne']

/-- The same with the summands, the starting value and the clip named: a sum of ones started from zero and clipped
    below at one has a non-negative real inverse square root. -/
theorem rsqrt_clip_ones (L : Finset ι) (u : ι → EReal) (z o : EReal) (hu : ∀ e ∈ L, u e = 1) (hz : z = 0) (ho : o = 1) :
    ∃ r : ℝ, 0 ≤ r ∧ Ideal.rsqrt (max o (z + ∑ e ∈ L, u e)) = (r : EReal) := by
  rw [Finset.sum_congr rfl hu, hz, ho]
  exact rsqrt_clip_count L

/-! ## Index words -/

/-- A word whose signed value is the row number i (so not negative) is left unchanged by the wrap-around of negative
    indices, and addresses row i. -/
theorem nodeOf_wrap {N : ℕ} (hN : 0 < N) (K w : BitVec 32) (i : Fin N) (hw : w.toInt = (i.val : Int)) :
    RowIndexed.nodeOf N hN (Scalar.select (IntOp.cmpi .slt w 0#32) (IntOp.addi w K) w) = i := by
  have hs : IntOp.cmpi .slt w 0#32 = 0#1 := by
    have hlt : w.slt 0#32 = false := by
      rw [BitVec.slt, hw]
      simp
    show BitVec.ofBool (w.slt 0#32) = 0#1
    rw [hlt]
    rfl
  rw [hs, select_zero]
  refine Fin.ext ?_
  show min w.toInt.toNat (N - 1) = i.val
  rw [hw, Int.toNat_natCast]
  have := i.isLt
  omega

/-! ## A bias row beside every row -/

/-- A vector of b entries made a 1×b row and copied down a rows reads, at (p, d), the vector's entry d. -/
theorem bias_rows_apply {α : Type} {a b : ℕ} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (d : Fin b) :
    broadcastInDim ⟨2, ![a, b]⟩ ![0, 1] h2 (broadcastInDim ⟨2, ![1, b]⟩ ![1] h1 v) (ix2 p d) = v (ix1 d) := by
  rw [broadcastInDim_apply ![0, 1] h2 _ (ix2 p d) (ix2 (0 : Fin 1) d) (fun ax => by
    match ax with
    | ⟨0, _⟩ => rfl
    | ⟨1, _⟩ =>
      show d.val = if b = 1 then 0 else d.val
      have := d.isLt
      split <;> omega)]
  exact broadcastInDim_apply ![1] h1 v (ix2 (0 : Fin 1) d) (ix1 d) (fun ax => by
    match ax with
    | ⟨0, _⟩ =>
      show d.val = if b = 1 then 0 else d.val
      have := d.isLt
      split <;> omega)

end Cert.ConvAlg

end
-- ==== Proof.LibPlainDot.lean ====
/-
  A plain matrix product computed by the host, read at an entry. For an M×K left operand and a K×N right operand
  contracted over the one shared axis (left axis 1 against right axis 0, no batch axis), the exact product has, at row r
  and column c, the value  Σ_k lhs(r, k) · rhs(k, c) — the same sum a matrix unit accumulating into zero leaves there,
  so the two agree entry by entry whatever the tiling of the rows.
-/
import proofs.«147064_j29274497089997_2_alg».proof.Proof.LibPlainMatmul

noncomputable section

namespace PlainDot

open Idealize.ShloMosaic Idealize.ShloMosaic.ValueIdx

variable {M K N : ℕ}

/-- The host's product at (r, c) is Σ_k lhs(r, k) · rhs(k, c). -/
theorem apply {φ₁ φ₂ : FTy} (prec : Option ContractPrecision) (lhs : FVec Ideal ⟨2, ![M, K]⟩ φ₁)
    (rhs : FVec Ideal ⟨2, ![K, N]⟩ φ₂) (r : Fin M) (c : Fin N) :
    Host.dotGeneral (F := Ideal) (DotDims.plain M K N) prec lhs rhs (ix2 r c)
      = ∑ k : Fin K, lhs (ix2 r k) * rhs (ix2 k c) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact PlainMatmul.lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact PlainMatmul.rhs_col _ _)
  rw [el, er]

end PlainDot

end
-- ==== Proof.LibColumnBroadcast.lean ====
/-
  A per-row quantity put back beside every entry of its row, in the host's spelling: a vector of a entries kept as an
  a × 1 column (broadcast_in_dim along axis 0) reads its entry p at (p, 0); an a × 1 column copied along its unit
  axis into an a × b matrix (broadcast_in_dim along axes 0, 1) reads, at (p, d), the column's entry p.
-/
import Idealize.ShloMosaic.Lib.ValueLayout
import Idealize.ShloMosaic.Lib.Pipeline.Value

namespace ColumnBroadcast

open Idealize.ShloMosaic Idealize.ShloMosaic.ValueIdx

variable {α : Type}

/-- A vector kept as a column reads, at (p, u), the vector at p. -/
theorem column_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) (fun ax => ?_)
  match ax with
  | ⟨0, _⟩ =>
    show p.val = if a = 1 then 0 else p.val
    have := p.isLt
    split <;> omega

/-- A column copied along its unit axis reads, at (p, d), the column at (p, 0). -/
theorem columns_apply {a b : ℕ} (w : (⟨2, ![a, 1]⟩ : Shape).Idx → α)
    (h : (⟨2, ![a, 1]⟩ : Shape).BroadcastsInDim ⟨2, ![a, b]⟩ ![0, 1]) (p : Fin a) (d : Fin b) :
    broadcastInDim ⟨2, ![a, b]⟩ ![0, 1] h w (ix2 p d) = w (ix2 p (0 : Fin 1)) := by
  refine broadcastInDim_apply ![0, 1] h w (ix2 p d) (ix2 p (0 : Fin 1)) (fun ax => ?_)
  match ax with
  | ⟨0, _⟩ =>
    show p.val = if a = 1 then 0 else p.val
    have := p.isLt
    split <;> omega
  | ⟨1, _⟩ => rfl

end ColumnBroadcast
-- ==== Proof.ConvReads.lean ====
/-
  What each operation of one graph convolution reads at an index, for the two programs' shared vocabulary.

  • The dimension records the programs print for their scatters, gathers and matrix products are the row-indexed ones:
    an accumulating scatter into rows (or entries) addressed by a column of index words, a gather of whole rows (or of
    entries) addressed by such a column, and a plain product of an N×128 by a 128×128 matrix.
  • The scalar words 0 and 1 copied to an array read 0 and 1; the fused stages (a product's row scaled by a column, a
    sum's row scaled, biased and clipped at zero) read what their definitions say at a pair of coordinates.
  • The inverse square root of a clipped degree is a non-negative real: the degree is 0 plus a sum of ones over the
    edges whose word is the node, the clip makes it at least one, and the inverse square root of a positive real is a
    positive real.
  • An edge that lands on row i carries the word i, read signed; i is not negative, so the wrap-around of negative
    words leaves it alone, and i is in range, so the clamp does too: the word addresses row i.
-/
import proofs.«147064_j29274497089997_2_alg».proof.Proof.Conv
import proofs.«147064_j29274497089997_2_alg».proof.Proof.LibNormalisedSum
import proofs.«147064_j29274497089997_2_alg».proof.Proof.LibPlainDot
import proofs.«147064_j29274497089997_2_alg».proof.Proof.LibColumnBroadcast
import proofs.«147064_j29274497089997_2_alg».proof.Proof.LibKeepdimsColumn

noncomputable section

namespace Cert.Conv

open Idealize.ShloMosaic Idealize.ShloMosaic.ValueIdx Idealize.ShloMosaic.RowIndexed Cert.ReferenceIdeal
  Cert.ReferenceIdeal.Facts₀

/-! ## The printed dimension records are the row-indexed ones -/

theorem scatRows200k_eq : scatter_S200000x128_S600000x1_S600000x128_1_0_0_1
    = rowScatter 200000 600000 128 scatter_S200000x128_S600000x1_S600000x128_1_0_0_1_wf := rfl

theorem scatRows50k_eq : scatter_S50000x128_S600000x1_S600000x128_1_0_0_1
    = rowScatter 50000 600000 128 scatter_S50000x128_S600000x1_S600000x128_1_0_0_1_wf := rfl

theorem scatVec200k_eq : scatter_S200000_S600000x1_S600000_n_0_0_1
    = vecScatter 200000 600000 scatter_S200000_S600000x1_S600000_n_0_0_1_wf := rfl

theorem scatVec50k_eq : scatter_S50000_S600000x1_S600000_n_0_0_1
    = vecScatter 50000 600000 scatter_S50000_S600000x1_S600000_n_0_0_1_wf := rfl

theorem gathRows50k_eq : gather_S50000x128_S600000x1_S600000x128_1_0_n_n_0_1_1128
    = rowGather 50000 600000 128 gather_S50000x128_S600000x1_S600000x128_1_0_n_n_0_1_1128_wf := rfl

theorem gathRows200k_eq : gather_S200000x128_S600000x1_S600000x128_1_0_n_n_0_1_1128
    = rowGather 200000 600000 128 gather_S200000x128_S600000x1_S600000x128_1_0_n_n_0_1_1128_wf := rfl

theorem gathVec50k_eq : gather_S50000_S600000x1_S600000_n_0_n_n_0_1_1
    = vecGather 50000 600000 gather_S50000_S600000x1_S600000_n_0_n_n_0_1_1_wf := rfl

theorem gathVec200k_eq : gather_S200000_S600000x1_S600000_n_0_n_n_0_1_1
    = vecGather 200000 600000 gather_S200000_S600000x1_S600000_n_0_n_n_0_1_1_wf := rfl

theorem dot50k_eq : dot_S50000x128_S128x128_S50000x128_1_0_0_1_n_n = DotDims.plain 50000 128 128 := rfl

theorem dot200k_eq : dot_S200000x128_S128x128_S200000x128_1_0_0_1_n_n = DotDims.plain 200000 128 128 := rfl

theorem pos50k : 0 < 50000 := by norm_num

theorem pos200k : 0 < 200000 := by norm_num

/-! ## Small reads -/

/-- The scalar zero copied to any shape reads the number 0. -/
theorem zeros_apply {t : Shape} (h : S_.BroadcastsInDim t ![]) (j : t.Idx) :
    broadcastInDim t ![] h (constant (F := Ideal) S_ .f32 0x00000000#32) j = 0 := by
  rw [bcast_scalar_apply]
  exact Ideal.ofBits_zero_f32

/-- The scalar one copied to any shape reads the number 1. -/
theorem ones_apply {t : Shape} (h : S_.BroadcastsInDim t ![]) (j : t.Idx) :
    broadcastInDim t ![] h (constant (F := Ideal) S_ .f32 0x3F800000#32) j = 1 := by
  rw [bcast_scalar_apply]
  exact Cert.LibStraightThrough.one_f32

/-- The same through an identity. -/
theorem onesId_apply {t : Shape} (h : S_.BroadcastsInDim t ![]) (j : t.Idx) :
    broadcastInDim t ![] h (id (constant (F := Ideal) S_ .f32 0x3F800000#32)) j = 1 := by
  rw [bcast_scalar_apply]
  exact Cert.LibStraightThrough.one_f32

/-- The inverse square root of an array, entry by entry. -/
theorem hostRsqrt_apply {s : Shape} {φ : FTy} (x : FVec Ideal s φ) (j : s.Idx) :
    Host.rsqrt (F := Ideal) x j = Ideal.rsqrt (x j) := rfl

/-- The word of edge e in the column of index words. -/
theorem col_read (v : IVec S600000 32) (e : Fin 600000) : col v (ix2 e 0) = v (ix1 e) := by
  unfold col
  exact col_apply _ v e

theorem nrm50k_read (v : IVec S600000 32) (e : Fin 600000) :
    nrm50k v (ix1 e)
      = Scalar.select (IntOp.cmpi .slt (v (ix1 e)) 0#32) (IntOp.addi (v (ix1 e)) 50000#32) (v (ix1 e)) := rfl

theorem nrm200k_read (v : IVec S600000 32) (e : Fin 600000) :
    nrm200k v (ix1 e)
      = Scalar.select (IntOp.cmpi .slt (v (ix1 e)) 0#32) (IntOp.addi (v (ix1 e)) 200000#32) (v (ix1 e)) := rfl

theorem mmScale50k_apply (X : FVec Ideal ⟨2, ![50000, 128]⟩ .f32) (W : FVec Ideal ⟨2, ![128, 128]⟩ .f32)
    (s : FVec Ideal ⟨2, ![50000, 1]⟩ .f32) (p : Fin 50000) (q : Fin 128) :
    mmScale50k X W s (ix2 p q) = (∑ k : Fin 128, X (ix2 p k) * W (ix2 k q)) * s (ix2 p 0) := rfl

theorem mmScale200k_apply (X : FVec Ideal ⟨2, ![200000, 128]⟩ .f32) (W : FVec Ideal ⟨2, ![128, 128]⟩ .f32)
    (s : FVec Ideal ⟨2, ![200000, 1]⟩ .f32) (p : Fin 200000) (q : Fin 128) :
    mmScale200k X W s (ix2 p q) = (∑ k : Fin 128, X (ix2 p k) * W (ix2 k q)) * s (ix2 p 0) := rfl

theorem biasRelu50k_apply (A : FVec Ideal ⟨2, ![50000, 128]⟩ .f32) (b : FVec Ideal ⟨1, ![128]⟩ .f32)
    (s : FVec Ideal ⟨2, ![50000, 1]⟩ .f32) (p : Fin 50000) (q : Fin 128) :
    biasRelu50k A b s (ix2 p q) = max (A (ix2 p q) * s (ix2 p 0) + b (ix1 q)) 0 := rfl

theorem biasRelu200k_apply (A : FVec Ideal ⟨2, ![200000, 128]⟩ .f32) (b : FVec Ideal ⟨1, ![128]⟩ .f32)
    (s : FVec Ideal ⟨2, ![200000, 1]⟩ .f32) (p : Fin 200000) (q : Fin 128) :
    biasRelu200k A b s (ix2 p q) = max (A (ix2 p q) * s (ix2 p 0) + b (ix1 q)) 0 := rfl

/-! ## The inverse square roots of the clipped degrees are non-negative reals -/

theorem rs200k_real (idx : IVec S600000 32) (i : Fin 200000) : ∃ r : ℝ, 0 ≤ r ∧ rs200k idx (ix1 i) = (r : EReal) := by
  unfold rs200k
  rw [hostRsqrt_apply, maximumf_apply, scatterAdd_ideal, scatVec200k_eq, vecScatter_add_apply]
  exact Cert.ConvAlg.rsqrt_clip_ones _ _ _ _ (fun e _ => ones_apply _ _) (zeros_apply _ _) (onesId_apply _ _)

theorem rs50k_real (idx : IVec S600000 32) (i : Fin 50000) : ∃ r : ℝ, 0 ≤ r ∧ rs50k idx (ix1 i) = (r : EReal) := by
  unfold rs50k
  rw [hostRsqrt_apply, maximumf_apply, scatterAdd_ideal, scatVec50k_eq, vecScatter_add_apply]
  exact Cert.ConvAlg.rsqrt_clip_ones _ _ _ _ (fun e _ => ones_apply _ _) (zeros_apply _ _) (onesId_apply _ _)

/-! ## An edge that lands on row i addresses row i -/

theorem dstRow200k (dst : IVec S600000 32) (i : Fin 200000) (e : Fin 600000)
    (he : (col dst (ix2 e 0)).toInt = (i.val : Int)) :
    nodeOf 200000 pos200k (col (nrm200k dst) (ix2 e 0)) = i := by
  rw [col_read] at he
  rw [col_read, nrm200k_read]
  exact Cert.ConvAlg.nodeOf_wrap pos200k _ _ i he

theorem dstRow50k (dst : IVec S600000 32) (i : Fin 50000) (e : Fin 600000)
    (he : (col dst (ix2 e 0)).toInt = (i.val : Int)) :
    nodeOf 50000 pos50k (col (nrm50k dst) (ix2 e 0)) = i := by
  rw [col_read] at he
  rw [col_read, nrm50k_read]
  exact Cert.ConvAlg.nodeOf_wrap pos50k _ _ i he

end Cert.Conv

end
-- ==== Proof.ConvEq.lean ====
/-
  The kernel's grouping and the reference's grouping of one graph convolution are the same whole-array function.

  Fix a destination node i and a column c, and let L be the edges whose destination word, read signed, is i. Both
  programs start a sum at zero and add one term per edge of L. With σ e the source row the edge reads and
  M(p, c) = Σ_k X(p, k)·W(k, c), the kernel's term is M(σ e, c)·rs_s(σ e) and the whole sum is then multiplied by
  rs_d(i); the reference's term is M(σ e, c)·(rs_s(σ e)·rs_d(δ e)), with δ e the row the destination word addresses
  after the wrap-around of negative words and the clamp. For an edge of L the destination word is the row number i
  itself, which is not negative and in range, so δ e = i. And rs_d(i) is the inverse square root of a clipped count,
  a non-negative real, so it can be taken out of the sum whatever the other values are. Nothing is assumed of X, W, b.
-/
import proofs.«147064_j29274497089997_2_alg».proof.Proof.ConvReads

noncomputable section

namespace Cert.Conv

open Idealize.ShloMosaic Idealize.ShloMosaic.ValueIdx Idealize.ShloMosaic.RowIndexed Cert.ReferenceIdeal
  Cert.ReferenceIdeal.Facts₀

/-! ## 50000 source rows into 200000 destination rows -/

/-- The kernel's term of edge e at column c: the gathered row of the scaled product. -/
theorem kerTerm_LC (X : FVec Ideal S50000x128 .f32) (W : FVec Ideal S128x128 .f32) (src : IVec S600000 32)
    (e : Fin 600000) (c : Fin 128) :
    Host.gather gather_S50000x128_S600000x1_S600000x128_1_0_n_n_0_1_1128
        (mmScale50k X W (shapeCast Cert.KernelIdeal.S50000x1 (rs50k src) Cert.KernelIdeal.Facts₀.shapeCasts_S50000_S50000x1))
        (col (nrm50k src)) (ix2 e c)
      = (∑ k : Fin 128, X (ix2 (nodeOf 50000 pos50k (col (nrm50k src) (ix2 e 0))) k) * W (ix2 k c))
          * rs50k src (ix1 (nodeOf 50000 pos50k (col (nrm50k src) (ix2 e 0)))) := by
  rw [gathRows50k_eq, rowGather_apply pos50k, mmScale50k_apply, KeepdimsColumn.shapeCast_a_a1_apply]

/-- The reference's term of edge e at column c: the gathered row of the plain product times the two gathered scales. -/
theorem refTerm_LC (X : FVec Ideal S50000x128 .f32) (W : FVec Ideal S128x128 .f32) (src dst : IVec S600000 32)
    (e : Fin 600000) (c : Fin 128) :
    mulf
        (Host.gather gather_S50000x128_S600000x1_S600000x128_1_0_n_n_0_1_1128
          (Host.dotGeneral (F := Ideal) dot_S50000x128_S128x128_S50000x128_1_0_0_1_n_n none X W) (col (nrm50k src)))
        (broadcastInDim S600000x128 ![0, 1] bcast_S600000x1_S600000x128_0_1
          (broadcastInDim S600000x1 ![0] bcast_S600000_S600000x1_0
            (mulf (Host.gather gather_S50000_S600000x1_S600000_n_0_n_n_0_1_1 (rs50k src) (col (nrm50k src)))
              (Host.gather gather_S200000_S600000x1_S600000_n_0_n_n_0_1_1 (rs200k dst) (col (nrm200k dst))))))
        (ix2 e c)
      = (∑ k : Fin 128, X (ix2 (nodeOf 50000 pos50k (col (nrm50k src) (ix2 e 0))) k) * W (ix2 k c))
          * (rs50k src (ix1 (nodeOf 50000 pos50k (col (nrm50k src) (ix2 e 0))))
              * rs200k dst (ix1 (nodeOf 200000 pos200k (col (nrm200k dst) (ix2 e 0))))) := by
  rw [mulf_apply, gathRows50k_eq, rowGather_apply pos50k, dot50k_eq, PlainDot.apply, ColumnBroadcast.columns_apply,
    ColumnBroadcast.column_apply, mulf_apply, gathVec50k_eq, vecGather_apply pos50k, gathVec200k_eq,
    vecGather_apply pos200k]

/-- The kernel's last stage over any update rows U, at (i, c). -/
theorem kerTop_LC (U : FVec Ideal S600000x128 .f32) (b : FVec Ideal S128 .f32) (dst : IVec S600000 32)
    (i : Fin 200000) (c : Fin 128) :
    biasRelu200k
        (Host.scatterAdd (F := Ideal) scatter_S200000x128_S600000x1_S600000x128_1_0_0_1
          (broadcastInDim S200000x128 ![] bcast_S_S200000x128 (constant (F := Ideal) S_ .f32 0x00000000#32)) (col dst) U)
        b (shapeCast Cert.KernelIdeal.S200000x1 (rs200k dst) Cert.KernelIdeal.Facts₀.shapeCasts_S200000_S200000x1) (ix2 i c)
      = max ((0 + ∑ e ∈ Finset.univ.filter (fun e : Fin 600000 => (col dst (ix2 e 0)).toInt = (i.val : Int)), U (ix2 e c))
              * rs200k dst (ix1 i) + b (ix1 c)) 0 := by
  rw [biasRelu200k_apply, KeepdimsColumn.shapeCast_a_a1_apply, scatterAdd_ideal, scatRows200k_eq, rowScatter_add_apply,
    zeros_apply]

/-- The reference's last stage over any update rows U, at (i, c). -/
theorem refTop_LC (U : FVec Ideal S600000x128 .f32) (b : FVec Ideal S128 .f32) (dst : IVec S600000 32)
    (i : Fin 200000) (c : Fin 128) :
    maximumf (addf
        (Host.scatterAdd (F := Ideal) scatter_S200000x128_S600000x1_S600000x128_1_0_0_1
          (broadcastInDim S200000x128 ![] bcast_S_S200000x128 (constant (F := Ideal) S_ .f32 0x00000000#32)) (col dst) U)
        (broadcastInDim S200000x128 ![0, 1] bcast_S1x128_S200000x128_0_1 (broadcastInDim S1x128 ![1] bcast_S128_S1x128_1 b)))
      (broadcastInDim S200000x128 ![] bcast_S_S200000x128 (constant (F := Ideal) S_ .f32 0x00000000#32)) (ix2 i c)
      = max ((0 + ∑ e ∈ Finset.univ.filter (fun e : Fin 600000 => (col dst (ix2 e 0)).toInt = (i.val : Int)), U (ix2 e c))
              + b (ix1 c)) 0 := by
  rw [maximumf_apply, addf_apply, zeros_apply, Cert.ConvAlg.bias_rows_apply, scatterAdd_ideal, scatRows200k_eq,
    rowScatter_add_apply, zeros_apply]

theorem conv_eq_LC (X : FVec Ideal S50000x128 .f32) (W : FVec Ideal S128x128 .f32) (b : FVec Ideal S128 .f32)
    (src dst : IVec S600000 32) : kerConvLC X W b src dst = refConvLC X W b src dst := by
  funext j
  obtain ⟨i, c, rfl⟩ : ∃ (i : Fin 200000) (c : Fin 128), j = ix2 i c := ⟨j 0, j 1, eq_ix2 j⟩
  obtain ⟨r, hr, hrs⟩ := rs200k_real dst i
  unfold kerConvLC refConvLC
  rw [kerTop_LC, refTop_LC, hrs]
  refine congrArg (fun z : EReal => max z 0) ?_
  exact Cert.ConvAlg.regroup_terms _ _ _
    (fun e => ∑ k : Fin 128, X (ix2 (nodeOf 50000 pos50k (col (nrm50k src) (ix2 e 0))) k) * W (ix2 k c))
    (fun e => rs50k src (ix1 (nodeOf 50000 pos50k (col (nrm50k src) (ix2 e 0)))))
    (fun e => rs200k dst (ix1 (nodeOf 200000 pos200k (col (nrm200k dst) (ix2 e 0)))))
    r hr (fun e _ => kerTerm_LC X W src e c) (fun e _ => refTerm_LC X W src dst e c)
    (fun e he => by rw [dstRow200k dst i e (Finset.mem_filter.mp he).2, hrs]) _

/-! ## 200000 source rows into 50000 destination rows -/

/-- The kernel's term of edge e at column c: the gathered row of the scaled product. -/
theorem kerTerm_CL (X : FVec Ideal S200000x128 .f32) (W : FVec Ideal S128x128 .f32) (src : IVec S600000 32)
    (e : Fin 600000) (c : Fin 128) :
    Host.gather gather_S200000x128_S600000x1_S600000x128_1_0_n_n_0_1_1128
        (mmScale200k X W (shapeCast Cert.KernelIdeal.S200000x1 (rs200k src) Cert.KernelIdeal.Facts₀.shapeCasts_S200000_S200000x1))
        (col (nrm200k src)) (ix2 e c)
      = (∑ k : Fin 128, X (ix2 (nodeOf 200000 pos200k (col (nrm200k src) (ix2 e 0))) k) * W (ix2 k c))
          * rs200k src (ix1 (nodeOf 200000 pos200k (col (nrm200k src) (ix2 e 0)))) := by
  rw [gathRows200k_eq, rowGather_apply pos200k, mmScale200k_apply, KeepdimsColumn.shapeCast_a_a1_apply]

/-- The reference's term of edge e at column c: the gathered row of the plain product times the two gathered scales. -/
theorem refTerm_CL (X : FVec Ideal S200000x128 .f32) (W : FVec Ideal S128x128 .f32) (src dst : IVec S600000 32)
    (e : Fin 600000) (c : Fin 128) :
    mulf
        (Host.gather gather_S200000x128_S600000x1_S600000x128_1_0_n_n_0_1_1128
          (Host.dotGeneral (F := Ideal) dot_S200000x128_S128x128_S200000x128_1_0_0_1_n_n none X W) (col (nrm200k src)))
        (broadcastInDim S600000x128 ![0, 1] bcast_S600000x1_S600000x128_0_1
          (broadcastInDim S600000x1 ![0] bcast_S600000_S600000x1_0
            (mulf (Host.gather gather_S200000_S600000x1_S600000_n_0_n_n_0_1_1 (rs200k src) (col (nrm200k src)))
              (Host.gather gather_S50000_S600000x1_S600000_n_0_n_n_0_1_1 (rs50k dst) (col (nrm50k dst))))))
        (ix2 e c)
      = (∑ k : Fin 128, X (ix2 (nodeOf 200000 pos200k (col (nrm200k src) (ix2 e 0))) k) * W (ix2 k c))
          * (rs200k src (ix1 (nodeOf 200000 pos200k (col (nrm200k src) (ix2 e 0))))
              * rs50k dst (ix1 (nodeOf 50000 pos50k (col (nrm50k dst) (ix2 e 0))))) := by
  rw [mulf_apply, gathRows200k_eq, rowGather_apply pos200k, dot200k_eq, PlainDot.apply, ColumnBroadcast.columns_apply,
    ColumnBroadcast.column_apply, mulf_apply, gathVec200k_eq, vecGather_apply pos200k, gathVec50k_eq,
    vecGather_apply pos50k]

/-- The kernel's last stage over any update rows U, at (i, c). -/
theorem kerTop_CL (U : FVec Ideal S600000x128 .f32) (b : FVec Ideal S128 .f32) (dst : IVec S600000 32)
    (i : Fin 50000) (c : Fin 128) :
    biasRelu50k
        (Host.scatterAdd (F := Ideal) scatter_S50000x128_S600000x1_S600000x128_1_0_0_1
          (broadcastInDim S50000x128 ![] bcast_S_S50000x128 (constant (F := Ideal) S_ .f32 0x00000000#32)) (col dst) U)
        b (shapeCast Cert.KernelIdeal.S50000x1 (rs50k dst) Cert.KernelIdeal.Facts₀.shapeCasts_S50000_S50000x1) (ix2 i c)
      = max ((0 + ∑ e ∈ Finset.univ.filter (fun e : Fin 600000 => (col dst (ix2 e 0)).toInt = (i.val : Int)), U (ix2 e c))
              * rs50k dst (ix1 i) + b (ix1 c)) 0 := by
  rw [biasRelu50k_apply, KeepdimsColumn.shapeCast_a_a1_apply, scatterAdd_ideal, scatRows50k_eq, rowScatter_add_apply,
    zeros_apply]

/-- The reference's last stage over any update rows U, at (i, c). -/
theorem refTop_CL (U : FVec Ideal S600000x128 .f32) (b : FVec Ideal S128 .f32) (dst : IVec S600000 32)
    (i : Fin 50000) (c : Fin 128) :
    maximumf (addf
        (Host.scatterAdd (F := Ideal) scatter_S50000x128_S600000x1_S600000x128_1_0_0_1
          (broadcastInDim S50000x128 ![] bcast_S_S50000x128 (constant (F := Ideal) S_ .f32 0x00000000#32)) (col dst) U)
        (broadcastInDim S50000x128 ![0, 1] bcast_S1x128_S50000x128_0_1 (broadcastInDim S1x128 ![1] bcast_S128_S1x128_1 b)))
      (broadcastInDim S50000x128 ![] bcast_S_S50000x128 (constant (F := Ideal) S_ .f32 0x00000000#32)) (ix2 i c)
      = max ((0 + ∑ e ∈ Finset.univ.filter (fun e : Fin 600000 => (col dst (ix2 e 0)).toInt = (i.val : Int)), U (ix2 e c))
              + b (ix1 c)) 0 := by
  rw [maximumf_apply, addf_apply, zeros_apply, Cert.ConvAlg.bias_rows_apply, scatterAdd_ideal, scatRows50k_eq,
    rowScatter_add_apply, zeros_apply]

theorem conv_eq_CL (X : FVec Ideal S200000x128 .f32) (W : FVec Ideal S128x128 .f32) (b : FVec Ideal S128 .f32)
    (src dst : IVec S600000 32) : kerConvCL X W b src dst = refConvCL X W b src dst := by
  funext j
  obtain ⟨i, c, rfl⟩ : ∃ (i : Fin 50000) (c : Fin 128), j = ix2 i c := ⟨j 0, j 1, eq_ix2 j⟩
  obtain ⟨r, hr, hrs⟩ := rs50k_real dst i
  unfold kerConvCL refConvCL
  rw [kerTop_CL, refTop_CL, hrs]
  refine congrArg (fun z : EReal => max z 0) ?_
  exact Cert.ConvAlg.regroup_terms _ _ _
    (fun e => ∑ k : Fin 128, X (ix2 (nodeOf 200000 pos200k (col (nrm200k src) (ix2 e 0))) k) * W (ix2 k c))
    (fun e => rs200k src (ix1 (nodeOf 200000 pos200k (col (nrm200k src) (ix2 e 0)))))
    (fun e => rs50k dst (ix1 (nodeOf 50000 pos50k (col (nrm50k dst) (ix2 e 0)))))
    r hr (fun e _ => kerTerm_CL X W src e c) (fun e _ => refTerm_CL X W src dst e c)
    (fun e he => by rw [dstRow50k dst i e (Finset.mem_filter.mp he).2, hrs]) _

end Cert.Conv

end
-- ==== Proof.lean ====
/-
  A two-layer graph convolution network on a bipartite graph (50000 nodes on one side, 200000 on the other, 600000
  edges in each direction), as a kernel program of eight launches against a plain reference.

  One convolution sends node features X through a weight matrix W, along the edges, with the symmetric degree
  normalisation, a bias and a rectifier:
      out(i, c) = max( Σ_{e : dst e = i} (X·W)(src e, c) · rsqrt(deg_s(src e)) · rsqrt(deg_d(i)) + b(c), 0 ).
  The reference multiplies every gathered row by the product of the two factors before summing; the kernel program
  scales the rows of X·W by the source-side factor before gathering them and multiplies the per-destination SUM by the
  destination-side factor afterwards.  On the extended reals the two agree because an edge that lands on destination
  row i has i as its destination-side row, and because the destination-side factor is a non-negative REAL (the
  inverse square root of a count clipped below at one), so that it distributes over the sum whatever the summands are;
  no finiteness of the features, weights or biases is used.

  The pieces: Conv (both groupings as whole-array functions), ConvEq (they are equal), Region0 … Region7 (each launch
  leaves its output array at one whole-array function of the arrays it was entered with), KFoldKeep / KFoldPre / KFold
  (the kernel program's two results, followed back through its segments, are the kernel's grouping nested twice),
  KRun (the kernel program's run with its results named), RefTerm (the reference's results are the reference's
  grouping nested twice).  The ideal pass rewrote nothing, so the preservation claim is trivial; the three frames are
  the generated ones (the reference's is its run with the results dropped).
-/
import proofs.«147064_j29274497089997_2_alg».proof.Defs
import proofs.«147064_j29274497089997_2_alg».proof.Proof.Gen.Kernel
import proofs.«147064_j29274497089997_2_alg».proof.Proof.Gen.Kernel.Skeleton
import proofs.«147064_j29274497089997_2_alg».proof.Proof.Gen.Kernel.Launch
import proofs.«147064_j29274497089997_2_alg».proof.Proof.Gen.Kernel.Points
import proofs.«147064_j29274497089997_2_alg».proof.Proof.Gen.Kernel.Frame
import proofs.«147064_j29274497089997_2_alg».proof.Proof.Gen.KernelIdeal
import proofs.«147064_j29274497089997_2_alg».proof.Proof.Gen.KernelIdeal.Skeleton
import proofs.«147064_j29274497089997_2_alg».proof.Proof.Gen.KernelIdeal.Launch
import proofs.«147064_j29274497089997_2_alg».proof.Proof.Gen.KernelIdeal.Points
import proofs.«147064_j29274497089997_2_alg».proof.Proof.Gen.KernelIdeal.Frame
import proofs.«147064_j29274497089997_2_alg».proof.Proof.Gen.ReferenceIdeal
import proofs.«147064_j29274497089997_2_alg».proof.Proof.Gen.Pre_finite_inputs
import proofs.«147064_j29274497089997_2_alg».proof.Proof.Gen.ReferenceIdeal.Run
import proofs.«147064_j29274497089997_2_alg».proof.Proof.KRun
import proofs.«147064_j29274497089997_2_alg».proof.Proof.KFold
import proofs.«147064_j29274497089997_2_alg».proof.Proof.RefTerm
import proofs.«147064_j29274497089997_2_alg».proof.Proof.ConvEq
import Idealize.ShloMosaic.Adequacy
import Idealize.ShloMosaic.Init

noncomputable section

namespace Cert.Proof

open Idealize.ShloMosaic Idealize.SL.Sem

/-- The word-level kernel program runs and leaves its arguments alone: the generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference has no launch: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the same two arrays: the kernel's grouping of the two nested convolutions, which is the
    reference's grouping of them (ConvEq), of arguments that agree. -/
theorem algebraic : Cert.algebraic_KernelIdeal_ReferenceIdeal := by
  intro m ρ m' ρ' _ hagree
  refine ⟨fun c => Cert.Conv.kerConvCL (Cert.Conv.kerConvLC (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.Conv.kerConvLC (Cert.Conv.kerConvCL (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Fold.fold_v77 m ρ c),
        (h c).2.1.trans (Cert.KernelIdeal.Fold.fold_v63 m ρ c), (h c).2.2⟩)
      (Cert.KernelIdeal.Run.run_vals m ρ)
  · refine (θ_run Cert.ReferenceIdeal.defs _ _).mono (fun r h c => ?_) (Cert.ReferenceIdeal.Value.run (F := Ideal) m' ρ')
    obtain ⟨h0, h1, h2, h3, h4, h5, h6, h7, h8, h9, h10, h11, h12, h13⟩ := hagree c
    refine ⟨(h c).1.trans ?_, (h c).2.1.trans ?_, (h c).2.2⟩
    · beta_reduce
      rw [Cert.ReferenceIdeal.RefValue.out0_eq, h0, h2, h3, h10, h11, h8, h9, h12, h13,
        Cert.Conv.conv_eq_CL, Cert.Conv.conv_eq_LC]
    · beta_reduce
      rw [Cert.ReferenceIdeal.RefValue.out1_eq, h1, h4, h5, h12, h13, h6, h7, h10, h11,
        Cert.Conv.conv_eq_LC, Cert.Conv.conv_eq_CL]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
